-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S1024x768 : Shape := ⟨2, ![1024, 768]⟩
abbrev S512x768 : Shape := ⟨2, ![512, 768]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S32x2048x64 : Shape := ⟨3, ![32, 2048, 64]⟩
abbrev S32x256x64 : Shape := ⟨3, ![32, 256, 64]⟩
abbrev S32x128x64 : Shape := ⟨3, ![32, 128, 64]⟩
abbrev S32x256 : Shape := ⟨2, ![32, 256]⟩
abbrev S32x256x128 : Shape := ⟨3, ![32, 256, 128]⟩
abbrev S32x256x1 : Shape := ⟨3, ![32, 256, 1]⟩
abbrev S2x2048x16x64 : Shape := ⟨4, ![2, 2048, 16, 64]⟩

abbrev nBuf : Space → Nat
  | .hbm => 27
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S4096x1024, .f32⟩
  | .hbm, ⟨4, _⟩ => ⟨S4096x1024, .bf16⟩
  | .hbm, ⟨5, _⟩ => ⟨S1024x3072, .f32⟩
  | .hbm, ⟨6, _⟩ => ⟨S1024x3072, .bf16⟩
  | .hbm, ⟨7, _⟩ => ⟨S1024x1024, .f32⟩
  | .hbm, ⟨8, _⟩ => ⟨S1024x1024, .bf16⟩
  | .hbm, ⟨9, _⟩ => ⟨S4096x3072, .bf16⟩
  | .hbm, ⟨10, _⟩ => ⟨S2x2048x3x16x64, .bf16⟩
  | .hbm, ⟨11, _⟩ => ⟨S3x2x16x2048x64, .bf16⟩
  | .hbm, ⟨12, _⟩ => ⟨S1x2x16x2048x64, .bf16⟩
  | .hbm, ⟨13, _⟩ => ⟨S2x16x2048x64, .bf16⟩
  | .hbm, ⟨14, _⟩ => ⟨S1x2x16x2048x64, .bf16⟩
  | .hbm, ⟨15, _⟩ => ⟨S2x16x2048x64, .bf16⟩
  | .hbm, ⟨16, _⟩ => ⟨S1x2x16x2048x64, .bf16⟩
  | .hbm, ⟨17, _⟩ => ⟨S2x16x2048x64, .bf16⟩
  | .hbm, ⟨18, _⟩ => ⟨S32x2048x64, .bf16⟩
  | .hbm, ⟨19, _⟩ => ⟨S32x2048x64, .bf16⟩
  | .hbm, ⟨20, _⟩ => ⟨S32x2048x64, .bf16⟩
  | .hbm, ⟨21, _⟩ => ⟨S32x2048x64, .bf16⟩
  | .hbm, ⟨22, _⟩ => ⟨S2x16x2048x64, .bf16⟩
  | .hbm, ⟨23, _⟩ => ⟨S2x2048x16x64, .bf16⟩
  | .hbm, ⟨24, _⟩ => ⟨S4096x1024, .bf16⟩
  | .hbm, ⟨25, _⟩ => ⟨S4096x1024, .f32⟩
  | .hbm, ⟨26, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | .local _ .vmem, ⟨6, _⟩ => ⟨S32x256x64, .bf16⟩
  | .local _ .vmem, ⟨7, _⟩ => ⟨S32x256x64, .bf16⟩
  | .local _ .vmem, ⟨8, _⟩ => ⟨S32x128x64, .bf16⟩
  | .local _ .vmem, ⟨9, _⟩ => ⟨S32x128x64, .bf16⟩
  | .local _ .vmem, ⟨10, _⟩ => ⟨S32x128x64, .bf16⟩
  | .local _ .vmem, ⟨11, _⟩ => ⟨S32x128x64, .bf16⟩
  | .local _ .vmem, ⟨12, _⟩ => ⟨S32x256x64, .bf16⟩
  | .local _ .vmem, ⟨13, _⟩ => ⟨S32x256x64, .bf16⟩
  | .local _ .vmem, ⟨14, _⟩ => ⟨S32x256, .f32⟩
  | .local _ .vmem, ⟨15, _⟩ => ⟨S32x256, .f32⟩
  | .local _ .vmem, ⟨16, _⟩ => ⟨S32x256x64, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S32x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x128x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S32x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x1024_S4096x1024 : S2x2048x1024.ShapeCasts S4096x1024
  bitsLt_bf16_f32 : FTy.bits .bf16 < FTy.bits .f32
  transposes_S3072x1024_S1024x3072_1_0 : S3072x1024.Transposes [1, 0] S1024x3072
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S512x768_S512x768_0_0 : ∀ a, (![0, 0] : Fin 2 → Nat) a + S512x768.size a ≤ S512x768.size a
  h_S512x768 : 0 < S512x768.numel
  packedbf16_S512x768_S512x768_0_0 : (Rect.unit (s := S512x768) ![0, 0] S512x768.size inb_S512x768_S512x768_0_0).PackedRows (EltTy.packing .bf16)
  shapeCasts_S4096x3072_S2x2048x3x16x64 : S4096x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  shapeCasts_S2x16x2048x64_S32x2048x64 : S2x16x2048x64.ShapeCasts S32x2048x64
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x256x64_S32x256x64_0_0_0 : ∀ a, (![0, 0, 0] : Fin 3 → Nat) a + S32x256x64.size a ≤ S32x256x64.size a
  h_S32x256x64 : 0 < S32x256x64.numel
  shapeCasts_S32x256x64_S32x256x64 : S32x256x64.ShapeCasts S32x256x64
  inb_S32x128x64_S32x128x64_0_0_0 : ∀ a, (![0, 0, 0] : Fin 3 → Nat) a + S32x128x64.size a ≤ S32x128x64.size a
  h_S32x128x64 : 0 < S32x128x64.numel
  shapeCasts_S32x128x64_S32x128x64 : S32x128x64.ShapeCasts S32x128x64
  shapeCasts_S32x256_S32x256x1 : S32x256.ShapeCasts S32x256x1
  reduces_S32x256x128_S32x256 : S32x256x128.Reduces [2] S32x256
  broadcasts_S32x256x1_S32x256x128 : S32x256x1.Broadcasts S32x256x128
  shapeCasts_S32x256x1_S32x256 : S32x256x1.ShapeCasts S32x256
  broadcasts_S32x256x1_S32x256x64 : S32x256x1.Broadcasts S32x256x64
  packedbf16_S32x256x64_S32x256x64_0_0_0 : (Rect.unit (s := S32x256x64) ![0, 0, 0] S32x256x64.size inb_S32x256x64_S32x256x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S512x1024_S1024x768_S512x768_1_0_0_1_n_n_wf : DotDims.WF S512x1024 S1024x768 S512x768 [1] [0] [0] [1] [] []
  dot_S32x256x64_S32x128x64_S32x256x128_2_2_1_1_0_0_wf : DotDims.WF S32x256x64 S32x128x64 S32x256x128 [2] [2] [1] [1] [0] [0]
  dot_S32x256x128_S32x128x64_S32x256x64_2_1_1_2_0_0_wf : DotDims.WF S32x256x128 S32x128x64 S32x256x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S1024x3072.size a
  hwx0_1 : ∀ i : grid0.Coords, EltTy.bits .bf16 = 32 ∨ (Rect.block (s := S1024x3072) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S4096x3072.size a
  hwx0_2 : ∀ i : grid0.Coords, EltTy.bits .bf16 = 32 ∨ (Rect.block (s := S4096x3072) S512x768.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256x64.size a ≤ S32x2048x64.size a
  hwx1_0 : ∀ i : grid1.Coords, EltTy.bits .bf16 = 32 ∨ (Rect.block (s := S32x2048x64) S32x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128x64.size a ≤ S32x2048x64.size a
  hwx1_1 : ∀ i : grid1.Coords, EltTy.bits .bf16 = 32 ∨ (Rect.block (s := S32x2048x64) S32x128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128x64.size a ≤ S32x2048x64.size a
  hwx1_2 : ∀ i : grid1.Coords, EltTy.bits .bf16 = 32 ∨ (Rect.block (s := S32x2048x64) S32x128x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x256x64.size a ≤ S32x2048x64.size a
  hwx1_3 : ∀ i : grid1.Coords, EltTy.bits .bf16 = 32 ∨ (Rect.block (s := S32x2048x64) S32x256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x768_S512x768_1_0_0_1_n_n : DotDims S512x1024 S1024x768 S512x768 where
  lhsContracting := [1]
  rhsContracting := [0]
  lhsNonContracting := [0]
  rhsNonContracting := [1]
  lhsBatch := []
  rhsBatch := []
  wf := dot_S512x1024_S1024x768_S512x768_1_0_0_1_n_n_wf
def dot_S32x256x64_S32x128x64_S32x256x128_2_2_1_1_0_0 : DotDims S32x256x64 S32x128x64 S32x256x128 where
  lhsContracting := [2]
  rhsContracting := [2]
  lhsNonContracting := [1]
  rhsNonContracting := [1]
  lhsBatch := [0]
  rhsBatch := [0]
  wf := dot_S32x256x64_S32x128x64_S32x256x128_2_2_1_1_0_0_wf
def dot_S32x256x128_S32x128x64_S32x256x64_2_1_1_2_0_0 : DotDims S32x256x128 S32x128x64 S32x256x64 where
  lhsContracting := [2]
  rhsContracting := [1]
  lhsNonContracting := [1]
  rhsNonContracting := [2]
  lhsBatch := [0]
  rhsBatch := [0]
  wf := dot_S32x256x128_S32x128x64_S32x256x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S32x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S32x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S32x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S32x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v21) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x3x16x64, .f32⟩
  | .hbm, ⟨5, _⟩ => ⟨S3x2x16x2048x64, .f32⟩
  | .hbm, ⟨6, _⟩ => ⟨S1x2x16x2048x64, .f32⟩
  | .hbm, ⟨7, _⟩ => ⟨S2x16x2048x64, .f32⟩
  | .hbm, ⟨8, _⟩ => ⟨S1x2x16x2048x64, .f32⟩
  | .hbm, ⟨9, _⟩ => ⟨S2x16x2048x64, .f32⟩
  | .hbm, ⟨10, _⟩ => ⟨S1x2x16x2048x64, .f32⟩
  | .hbm, ⟨11, _⟩ => ⟨S2x16x2048x64, .f32⟩
  | .hbm, ⟨12, _⟩ => ⟨S2x16x2048x2048, .f32⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | .hbm, ⟨31, _⟩ => ⟨S2x2048x16x64, .f32⟩
  | .hbm, ⟨32, _⟩ => ⟨S2x2048x1024, .f32⟩
  | .hbm, ⟨33, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.K.Reg0.lean ====
import proofs.«106544_j89970974917189_2_alg».proof.Proof.Gen.Kernel.Launch
import proofs.«106544_j89970974917189_2_alg».proof.Proof.Gen.Kernel.Skeleton
import proofs.«106544_j89970974917189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: a single-step matrix product, at the entry contents `V`

The body reads its two input blocks whole, multiplies them into a zero accumulator and stores the product over
the whole output block. So after the body the output's staging buffer is a function of the two input blocks
alone (`out0_2`), the inputs' buffers are as they were, and nothing else is touched. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is
    not fetched its block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x768 := Rect.unit (s := S1024x768) ![0, 0] S1024x768.size inb_S1024x768_S1024x768_0_0
abbrev r0_2 : Rect S512x768 := Rect.unit (s := S512x768) ![0, 0] S512x768.size inb_S512x768_S512x768_0_0

/-! ## What the body leaves in the output window's buffer -/

/-- Window 2's staging buffer after the body, from the input windows' blocks: its one store, of the product of
    the two blocks read whole, over the whole buffer. -/
def out0_2 (x0 : Vec F S512x1024 .bf16) (x1 : Vec F S1024x768 .bf16) : Vec F S512x768 .bf16 :=
  View.canon [⟨r0_2, k0_pay1 (View.ld x0 r0_0) (View.ld x1 r0_1)⟩]

/-- The one store is over the whole buffer, so it covers it. -/
theorem cover0_2 (p0 : Vec F S512x768 .bf16) (y : S512x768.Idx) :
    ∃ pc ∈ ([⟨r0_2, p0⟩] : List (View.Piece (Elt F) S512x768 .bf16)), y ∈ pc.1.set :=
  View.cover_of_tiled [⟨r0_2, p0⟩] S512x768.size (by rfl) y

/-! ## The body's triple -/

set_option maxHeartbeats 1000000 in
/-- The kernel body on whole staging memrefs, the inputs' at contents `x0`, `x1` and the output's at anything,
    runs to the continuation holding the inputs' as they were and the output's at `out0_2 x0 x1`. The output's
    old contents are read once and not used. -/
theorem sound_kernel0 (c : Dev nD) (E : Set ℕ) (i : grid0.Coords) (arg0 : Memref sig .tc .vmem S512x1024 .bf16) (harg0 : arg0.IsWhole) (arg1 : Memref sig .tc .vmem S1024x768 .bf16) (harg1 : arg1.IsWhole) (arg2 : Memref sig .tc .vmem S512x768 .bf16) (harg2 : arg2.IsWhole)
    (x0 : Vec F S512x1024 .bf16) (x1 : Vec F S1024x768 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel_single_k i arg0 harg0 arg1 harg1 arg2 harg2) K := by
  simp only [cc0__matmul_kernel_single_k_eq_skeleton]; unfold cc0__matmul_kernel_single_k_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so
    `sound_kernel0` applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg2.lean ====
import proofs.«106544_j89970974917189_2_alg».proof.Proof.Gen.Kernel.Launch
import proofs.«106544_j89970974917189_2_alg».proof.Proof.Gen.Kernel.Skeleton
import proofs.«106544_j89970974917189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: a single-step matrix product, at the entry contents `V`

The body reads its two input blocks whole, multiplies them into a zero accumulator and stores the product over
the whole output block. So after the body the output's staging buffer is a function of the two input blocks
alone (`out2_2`), the inputs' buffers are as they were, and nothing else is touched. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is
    not fetched its block index has not moved), for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-! ## What the body leaves in the output window's buffer -/

/-- Window 2's staging buffer after the body, from the input windows' blocks: its one store, of the product of
    the two blocks read whole, over the whole buffer. -/
def out2_2 (x0 : Vec F S512x1024 .bf16) (x1 : Vec F S1024x1024 .bf16) : Vec F S512x1024 .f32 :=
  View.canon [⟨r2_2, k2_pay1 (View.ld x0 r2_0) (View.ld x1 r2_1)⟩]

/-- The one store is over the whole buffer, so it covers it. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's triple -/

set_option maxHeartbeats 1000000 in
/-- The kernel body on whole staging memrefs, the inputs' at contents `x0`, `x1` and the output's at anything,
    runs to the continuation holding the inputs' as they were and the output's at `out2_2 x0 x1`. The output's
    old contents are read once and not used. -/
theorem sound_kernel2 (c : Dev nD) (E : Set ℕ) (i : grid2.Coords) (arg0 : Memref sig .tc .vmem S512x1024 .bf16) (harg0 : arg0.IsWhole) (arg1 : Memref sig .tc .vmem S1024x1024 .bf16) (harg1 : arg1.IsWhole) (arg2 : Memref sig .tc .vmem S512x1024 .f32) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel_single_k i arg0 harg0 arg1 harg1 arg2 harg2) K := by
  simp only [cc2__matmul_kernel_single_k_eq_skeleton]; unfold cc2__matmul_kernel_single_k_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so
    `sound_kernel2` applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg1Base.lean ====
import proofs.«106544_j89970974917189_2_alg».proof.Proof.Gen.Kernel.Launch
import proofs.«106544_j89970974917189_2_alg».proof.Proof.Gen.Kernel.Skeleton
import proofs.«106544_j89970974917189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (the attention kernel): what its body runs share

The grid is 8 query blocks by 16 key/value steps, the key/value step innermost: point `t` is query block
`t / 16` at step `t % 16`. The body keeps a running maximum, a running denominator and a running numerator in
three buffers of its own, which it carries from one step to the next: at step 0 it first overwrites them with
their initial values, at every step it updates them from the query, key and value blocks, and at step 15 it also
divides the numerator by the denominator into the output block. Here: the two conditions in closed form, where
the output window is idle, the memrefs the body is called with, and the region invariant with the three carried
buffers set apart from the rest. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the initialisation), from the grid coordinates. -/
abbrev cond1_0 (i : grid1.Coords) : Prop := (Scalar.cmpi .ne (Scalar.extui (Scalar.cmpi .eq (BitVec.ofNat 32 (i 1).val) 0#32)) 0#32) = 1#1
/-- It holds at the first key/value step only. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the division into the output). -/
abbrev cond1_1 (i : grid1.Coords) : Prop := k1_cond2 i = 1#1
/-- It holds at the last key/value step only. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key/value step the output window is idle: the body stores nothing into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- At the last key/value step it is live. -/
theorem liveAt1_3 : ∀ t : Fin cfg1.N, cond1_1 (grid1.coords t) → cfg1.idle 3 (grid1.coords t) = false := by decide +kernel

/-! ## The memrefs the body is called with -/

/-- Each window's current staging memref at point `t`, spelled as the pipeline passes it, and its wholeness. -/
abbrev ms1_0 (t : Fin cfg1.N) : Memref sig .tc .vmem S32x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x256x64 .bf16 := win1_3.stage (cfg1.slots t 3)
abbrev hs1_3 (t : Fin cfg1.N) : (ms1_3 t).IsWhole := hstage1_3 ((cfg1.slots t 3).cast nbuf1_3)
/-- The three carried buffers: the running maximum, the running denominator, the running numerator. -/
abbrev scM1_0 : Memref sig .tc .vmem S32x256 .f32 := Memref.whole cc1_scratch0
abbrev scM1_1 : Memref sig .tc .vmem S32x256 .f32 := Memref.whole cc1_scratch1
abbrev scM1_2 : Memref sig .tc .vmem S32x256x64 .f32 := Memref.whole cc1_scratch2

/-! ## The region invariant, the carried buffers set apart -/

/-- A whole buffer of the core at some contents. -/
abbrev anyAt (c : Dev nD) (b : Ref sig .tc) : sProp 𝕄 :=
  iprop(∃ f : Buf (Elt F) ((c : Thread nD τ).loc b), ((c : Thread nD τ).loc b) ↦{fullShare} f)

/-- Everything the invariant holds beside the three carried buffers: the other regions' staging buffers, each at
    some contents, and the generator register at some state. -/
def rest1 (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1
    ∗ (anyAt (F := F) c cc2_stg0_0 ∗ anyAt (F := F) c cc2_stg0_1 ∗ anyAt (F := F) c cc2_stg1_0 ∗ anyAt (F := F) c cc2_stg2_0 ∗ anyAt (F := F) c cc2_stg2_1)
    ∗ (∃ r, prngReg c r))

/-- The invariant as the launch states it, the scoped buffers one by one. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1
          ∗ (∃ d, owns (c : Thread nD τ) scM1_0 fullShare d) ∗ (∃ d, owns (c : Thread nD τ) scM1_1 fullShare d) ∗ (∃ d, owns (c : Thread nD τ) scM1_2 fullShare d)
          ∗ anyAt (F := F) c cc2_stg0_0 ∗ anyAt (F := F) c cc2_stg0_1 ∗ anyAt (F := F) c cc2_stg1_0 ∗ anyAt (F := F) c cc2_stg2_0 ∗ anyAt (F := F) c cc2_stg2_1) ∗ (∃ r, prngReg c r)) := by
  unfold Pipeline.ΦA; rw [scopedRest1_eq]; simp only [scM1_0, scM1_1, scM1_2, owns_whole]; try rfl

/-- The invariant hands out the three carried buffers, each at some contents, and the rest; -/
theorem PhiA1_split (c : Dev nD) :
    (Pipeline.ΦA spec1 c : sProp 𝕄) ⊢ iprop(((∃ d, owns (c : Thread nD τ) scM1_0 fullShare d) ∗ (∃ d, owns (c : Thread nD τ) scM1_1 fullShare d) ∗ (∃ d, owns (c : Thread nD τ) scM1_2 fullShare d)) ∗ rest1 (F := F) c) := by
  rw [PhiA1_eq]; unfold rest1
  iintro ⟨⟨H1, H2, H3, H4, H5, H6, HS0, HS1, HS2, HR⟩, Hg⟩
  isplitl [HS0 HS1 HS2]
  · isplitl [HS0]; · iexact HS0
    isplitl [HS1]; · iexact HS1
    iexact HS2
  isplitl [H1]; · iexact H1
  isplitl [H2]; · iexact H2
  isplitl [H3]; · iexact H3
  isplitl [H4]; · iexact H4
  isplitl [H5]; · iexact H5
  isplitl [H6]; · iexact H6
  isplitl [HR]; · iexact HR
  iexact Hg

/-- and takes them back. -/
theorem PhiA1_join (c : Dev nD) :
    iprop(((∃ d, owns (c : Thread nD τ) scM1_0 fullShare d) ∗ (∃ d, owns (c : Thread nD τ) scM1_1 fullShare d) ∗ (∃ d, owns (c : Thread nD τ) scM1_2 fullShare d)) ∗ rest1 (F := F) c) ⊢ (Pipeline.ΦA spec1 c : sProp 𝕄) := by
  rw [PhiA1_eq]; unfold rest1
  iintro ⟨⟨HS0, HS1, HS2⟩, H1, H2, H3, H4, H5, H6, HR, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iexact HR

end Cert.Kernel.Hand

end
-- ==== Proof.K.Reg1RunB.lean ====
import proofs.«106544_j89970974917189_2_alg».proof.Proof.K.Reg1Base

/-! # Region 1 of @main (the attention kernel): the body's run at a middle key/value step -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE B (a middle key/value step: neither branch taken). On whole memrefs — the three inputs' at their blocks, the
    idle output's at contents handed back untouched, the three carried buffers at what the step before left — the
    body runs to a continuation that holds the inputs' as they were and each carried buffer with the pieces the
    body stored into it (last first): the pieces are the witness the run finds. -/
noncomputable def kernelRun1_B (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : ¬cond1_1 i)
    (x0 : Vec F S32x256x64 .bf16) (x1 : Vec F S32x128x64 .bf16) (x2 : Vec F S32x128x64 .bf16) (xs0 : Vec F S32x256 .f32) (xs1 : Vec F S32x256 .f32) (xs2 : Vec F S32x256x64 .f32) :
    Σ' (L3 : List (View.Piece (Elt F) S32x256x64 .bf16)) (LS0 : List (View.Piece (Elt F) S32x256 .f32)) (LS1 : List (View.Piece (Elt F) S32x256 .f32)), { LS2 : List (View.Piece (Elt F) S32x256x64 .f32) //
      ∀ (xi3 : Vec F S32x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.Reg1RunA.lean ====
import proofs.«106544_j89970974917189_2_alg».proof.Proof.K.Reg1RunB

/-! # Region 1 of @main (the attention kernel): the body's run at the first key/value step -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE A (the first key/value step of a query block: the initialisation taken, the division not). On whole
    memrefs — the three inputs' at their blocks, the idle output's at contents handed back untouched, the three
    carried buffers at ANYTHING (the body overwrites each before reading it) — the body runs to a continuation
    that holds the inputs' as they were and each carried buffer with the pieces the body stored into it (last
    first): the pieces are the witness the run finds. -/
noncomputable def kernelRun1_A (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : cond1_0 i) (hc1 : ¬cond1_1 i)
    (x0 : Vec F S32x256x64 .bf16) (x1 : Vec F S32x128x64 .bf16) (x2 : Vec F S32x128x64 .bf16) :
    Σ' (L3 : List (View.Piece (Elt F) S32x256x64 .bf16)) (LS0 : List (View.Piece (Elt F) S32x256 .f32)) (LS1 : List (View.Piece (Elt F) S32x256 .f32)), { LS2 : List (View.Piece (Elt F) S32x256x64 .f32) //
      ∀ (xi3 : Vec F S32x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.Reg1RunC.lean ====
import proofs.«106544_j89970974917189_2_alg».proof.Proof.K.Reg1RunA

/-! # Region 1 of @main (the attention kernel): the body's run at the last key/value step -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE C (the last key/value step of a query block: the initialisation not taken, the division taken). On whole
    memrefs — the three inputs' at their blocks, the output's at anything, the three carried buffers at what the
    step before left — the body runs to a continuation that holds the inputs' as they were, the output's buffer
    and each carried buffer with the pieces the body stored into it (last first): the pieces are the witness the
    run finds. -/
noncomputable def kernelRun1_C (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i)
    (x0 : Vec F S32x256x64 .bf16) (x1 : Vec F S32x128x64 .bf16) (x2 : Vec F S32x128x64 .bf16) (xs0 : Vec F S32x256 .f32) (xs1 : Vec F S32x256 .f32) (xs2 : Vec F S32x256x64 .f32) :
    Σ' (L3 : List (View.Piece (Elt F) S32x256x64 .bf16)) (LS0 : List (View.Piece (Elt F) S32x256 .f32)) (LS1 : List (View.Piece (Elt F) S32x256 .f32)), { LS2 : List (View.Piece (Elt F) S32x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Reg1Read.lean ====
import proofs.«106544_j89970974917189_2_alg».proof.Proof.K.Reg1RunC
import Idealize.ShloMosaic.Lib.Pipeline.Value

/-! # Region 1 of @main (the attention kernel): what each case leaves, in closed form

Every store of the body covers its whole buffer, so what a buffer holds after the body is the payload of the last
store into it, whatever it held before; and every load the body makes reads a whole buffer. So the pieces the runs
found read back as the payload terms applied to the blocks the body was handed. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as the printed program spells them. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a middle step the running maximum is left at the larger of what it was and the new scores' row maxima. -/
theorem sread1_B_0 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : ¬cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg6.view.ty.Contents (Elt F)) :
    arg6.view.read (Elt F) (arg6.view.writes (Elt F) f (kernelRun1_B c i arg2 harg2 arg3 harg3 arg4 harg4 arg5 harg5 arg6 harg6 arg7 harg7 arg8 harg8 hc0 hc1 x0 x1 x2 xs0 xs1 xs2).2.1) = k1_pay2 (k1_pay9 x0 x1 xs0) := by
  have hcov : ∀ y, ∃ p ∈ (kernelRun1_B c i arg2 harg2 arg3 harg3 arg4 harg4 arg5 harg5 arg6 harg6 arg7 harg7 arg8 harg8 hc0 hc1 x0 x1 x2 xs0 xs1 xs2).2.1, y ∈ p.1.set := by
    unfold kernelRun1_B; dsimp only
    exact fun y => ⟨_, List.Mem.head _, View.mem_set_unit_zero hz2 inb_S32x256_S32x256_0_0 y⟩
  rw [View.read_writes_eq_canon _ _ _ hcov]
  unfold kernelRun1_B; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

/-- At a middle step the running denominator is rescaled and the new row sums added. -/
theorem sread1_B_1 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : ¬cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg7.view.ty.Contents (Elt F)) :
    arg7.view.read (Elt F) (arg7.view.writes (Elt F) f (kernelRun1_B c i arg2 harg2 arg3 harg3 arg4 harg4 arg5 harg5 arg6 harg6 arg7 harg7 arg8 harg8 hc0 hc1 x0 x1 x2 xs0 xs1 xs2).2.2.1) = k1_pay12 x0 x1 xs0 xs1 := by
  have hcov : ∀ y, ∃ p ∈ (kernelRun1_B c i arg2 harg2 arg3 harg3 arg4 harg4 arg5 harg5 arg6 harg6 arg7 harg7 arg8 harg8 hc0 hc1 x0 x1 x2 xs0 xs1 xs2).2.2.1, y ∈ p.1.set := by
    unfold kernelRun1_B; dsimp only
    exact fun y => ⟨_, List.Mem.head _, View.mem_set_unit_zero hz2 inb_S32x256_S32x256_0_0 y⟩
  rw [View.read_writes_eq_canon _ _ _ hcov]
  unfold kernelRun1_B; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

/-- At a middle step the running numerator is rescaled and the new weighted values added. -/
theorem sread1_B_2 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : ¬cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg8.view.ty.Contents (Elt F)) :
    arg8.view.read (Elt F) (arg8.view.writes (Elt F) f (kernelRun1_B c i arg2 harg2 arg3 harg3 arg4 harg4 arg5 harg5 arg6 harg6 arg7 harg7 arg8 harg8 hc0 hc1 x0 x1 x2 xs0 xs1 xs2).2.2.2.1) = k1_pay1 (k1_pay13 x0 x1 xs0 xs2) (k1_pay14 x0 x1 xs0) x2 := by
  have hcov : ∀ y, ∃ p ∈ (kernelRun1_B c i arg2 harg2 arg3 harg3 arg4 harg4 arg5 harg5 arg6 harg6 arg7 harg7 arg8 harg8 hc0 hc1 x0 x1 x2 xs0 xs1 xs2).2.2.2.1, y ∈ p.1.set := by
    unfold kernelRun1_B; dsimp only
    exact fun y => ⟨_, List.Mem.head _, View.mem_set_unit_zero hz3 inb_S32x256x64_S32x256x64_0_0_0 y⟩
  rw [View.read_writes_eq_canon _ _ _ hcov]
  unfold kernelRun1_B; dsimp only; sl_unfold_words
  rw [View.canon_cons_unit_zero hz3]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

/-- At the first step the same, over the initial maximum, whatever the buffer held. -/
theorem sread1_A_0 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : cond1_0 i) (hc1 : ¬cond1_1 i) (x0 : Vec F S32x256x64 .bf16) (x1 : Vec F S32x128x64 .bf16) (x2 : Vec F S32x128x64 .bf16)  (f : arg6.view.ty.Contents (Elt F)) :
    arg6.view.read (Elt F) (arg6.view.writes (Elt F) f (kernelRun1_A c i arg2 harg2 arg3 harg3 arg4 harg4 arg5 harg5 arg6 harg6 arg7 harg7 arg8 harg8 hc0 hc1 x0 x1 x2).2.1) = k1_pay2 (k1_pay9 x0 x1 k1_pay4) := by
  have hcov : ∀ y, ∃ p ∈ (kernelRun1_A c i arg2 harg2 arg3 harg3 arg4 harg4 arg5 harg5 arg6 harg6 arg7 harg7 arg8 harg8 hc0 hc1 x0 x1 x2).2.1, y ∈ p.1.set := by
    unfold kernelRun1_A; dsimp only
    exact fun y => ⟨_, List.Mem.head _, View.mem_set_unit_zero hz2 inb_S32x256_S32x256_0_0 y⟩
  rw [View.read_writes_eq_canon _ _ _ hcov]
  unfold kernelRun1_A; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3, View.readCov_unit_zero (S := S32x256) _ hz2, View.readCov_unit_zero (S := S32x256x64) _ hz3]

/-- At the first step the same, over the initial maximum and denominator. -/
theorem sread1_A_1 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : cond1_0 i) (hc1 : ¬cond1_1 i) (x0 : Vec F S32x256x64 .bf16) (x1 : Vec F S32x128x64 .bf16) (x2 : Vec F S32x128x64 .bf16)  (f : arg7.view.ty.Contents (Elt F)) :
    arg7.view.read (Elt F) (arg7.view.writes (Elt F) f (kernelRun1_A c i arg2 harg2 arg3 harg3 arg4 harg4 arg5 harg5 arg6 harg6 arg7 harg7 arg8 harg8 hc0 hc1 x0 x1 x2).2.2.1) = k1_pay12 x0 x1 k1_pay4 k1_pay5 := by
  have hcov : ∀ y, ∃ p ∈ (kernelRun1_A c i arg2 harg2 arg3 harg3 arg4 harg4 arg5 harg5 arg6 harg6 arg7 harg7 arg8 harg8 hc0 hc1 x0 x1 x2).2.2.1, y ∈ p.1.set := by
    unfold kernelRun1_A; dsimp only
    exact fun y => ⟨_, List.Mem.head _, View.mem_set_unit_zero hz2 inb_S32x256_S32x256_0_0 y⟩
  rw [View.read_writes_eq_canon _ _ _ hcov]
  unfold kernelRun1_A; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3, View.readCov_unit_zero (S := S32x256) _ hz2, View.readCov_unit_zero (S := S32x256x64) _ hz3]

/-- At the first step the same, over the initial maximum and numerator. -/
theorem sread1_A_2 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : cond1_0 i) (hc1 : ¬cond1_1 i) (x0 : Vec F S32x256x64 .bf16) (x1 : Vec F S32x128x64 .bf16) (x2 : Vec F S32x128x64 .bf16)  (f : arg8.view.ty.Contents (Elt F)) :
    arg8.view.read (Elt F) (arg8.view.writes (Elt F) f (kernelRun1_A c i arg2 harg2 arg3 harg3 arg4 harg4 arg5 harg5 arg6 harg6 arg7 harg7 arg8 harg8 hc0 hc1 x0 x1 x2).2.2.2.1) = k1_pay1 (k1_pay13 x0 x1 k1_pay4 k1_pay6) (k1_pay14 x0 x1 k1_pay4) x2 := by
  have hcov : ∀ y, ∃ p ∈ (kernelRun1_A c i arg2 harg2 arg3 harg3 arg4 harg4 arg5 harg5 arg6 harg6 arg7 harg7 arg8 harg8 hc0 hc1 x0 x1 x2).2.2.2.1, y ∈ p.1.set := by
    unfold kernelRun1_A; dsimp only
    exact fun y => ⟨_, List.Mem.head _, View.mem_set_unit_zero hz3 inb_S32x256x64_S32x256x64_0_0_0 y⟩
  rw [View.read_writes_eq_canon _ _ _ hcov]
  unfold kernelRun1_A; dsimp only; sl_unfold_words
  rw [View.canon_cons_unit_zero hz3]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3, View.readCov_unit_zero (S := S32x256) _ hz2, View.readCov_unit_zero (S := S32x256x64) _ hz3]

/-- At the last step the carried buffers are updated as at a middle step, -/
theorem sread1_C_0 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg6.view.ty.Contents (Elt F)) :
    arg6.view.read (Elt F) (arg6.view.writes (Elt F) f (kernelRun1_C c i arg2 harg2 arg3 harg3 arg4 harg4 arg5 harg5 arg6 harg6 arg7 harg7 arg8 harg8 hc0 hc1 x0 x1 x2 xs0 xs1 xs2).2.1) = k1_pay2 (k1_pay9 x0 x1 xs0) := by
  have hcov : ∀ y, ∃ p ∈ (kernelRun1_C c i arg2 harg2 arg3 harg3 arg4 harg4 arg5 harg5 arg6 harg6 arg7 harg7 arg8 harg8 hc0 hc1 x0 x1 x2 xs0 xs1 xs2).2.1, y ∈ p.1.set := by
    unfold kernelRun1_C; dsimp only
    exact fun y => ⟨_, List.Mem.head _, View.mem_set_unit_zero hz2 inb_S32x256_S32x256_0_0 y⟩
  rw [View.read_writes_eq_canon _ _ _ hcov]
  unfold kernelRun1_C; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

theorem sread1_C_1 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg7.view.ty.Contents (Elt F)) :
    arg7.view.read (Elt F) (arg7.view.writes (Elt F) f (kernelRun1_C c i arg2 harg2 arg3 harg3 arg4 harg4 arg5 harg5 arg6 harg6 arg7 harg7 arg8 harg8 hc0 hc1 x0 x1 x2 xs0 xs1 xs2).2.2.1) = k1_pay12 x0 x1 xs0 xs1 := by
  have hcov : ∀ y, ∃ p ∈ (kernelRun1_C c i arg2 harg2 arg3 harg3 arg4 harg4 arg5 harg5 arg6 harg6 arg7 harg7 arg8 harg8 hc0 hc1 x0 x1 x2 xs0 xs1 xs2).2.2.1, y ∈ p.1.set := by
    unfold kernelRun1_C; dsimp only
    exact fun y => ⟨_, List.Mem.head _, View.mem_set_unit_zero hz2 inb_S32x256_S32x256_0_0 y⟩
  rw [View.read_writes_eq_canon _ _ _ hcov]
  unfold kernelRun1_C; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

theorem sread1_C_2 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg8.view.ty.Contents (Elt F)) :
    arg8.view.read (Elt F) (arg8.view.writes (Elt F) f (kernelRun1_C c i arg2 harg2 arg3 harg3 arg4 harg4 arg5 harg5 arg6 harg6 arg7 harg7 arg8 harg8 hc0 hc1 x0 x1 x2 xs0 xs1 xs2).2.2.2.1) = k1_pay1 (k1_pay13 x0 x1 xs0 xs2) (k1_pay14 x0 x1 xs0) x2 := by
  have hcov : ∀ y, ∃ p ∈ (kernelRun1_C c i arg2 harg2 arg3 harg3 arg4 harg4 arg5 harg5 arg6 harg6 arg7 harg7 arg8 harg8 hc0 hc1 x0 x1 x2 xs0 xs1 xs2).2.2.2.1, y ∈ p.1.set := by
    unfold kernelRun1_C; dsimp only
    exact fun y => ⟨_, List.Mem.head _, View.mem_set_unit_zero hz3 inb_S32x256x64_S32x256x64_0_0_0 y⟩
  rw [View.read_writes_eq_canon _ _ _ hcov]
  unfold kernelRun1_C; dsimp only; sl_unfold_words
  rw [View.canon_cons_unit_zero hz3]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

/-- and the output block is the updated numerator divided by the updated denominator. -/
theorem sread1_C_3 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg5.view.ty.Contents (Elt F)) :
    arg5.view.read (Elt F) (arg5.view.writes (Elt F) f (kernelRun1_C c i arg2 harg2 arg3 harg3 arg4 harg4 arg5 harg5 arg6 harg6 arg7 harg7 arg8 harg8 hc0 hc1 x0 x1 x2 xs0 xs1 xs2).1) = k1_pay3 (k1_pay12 x0 x1 xs0 xs1) (k1_pay1 (k1_pay13 x0 x1 xs0 xs2) (k1_pay14 x0 x1 xs0) x2) := by
  have hcov : ∀ y, ∃ p ∈ (kernelRun1_C c i arg2 harg2 arg3 harg3 arg4 harg4 arg5 harg5 arg6 harg6 arg7 harg7 arg8 harg8 hc0 hc1 x0 x1 x2 xs0 xs1 xs2).1, y ∈ p.1.set := by
    unfold kernelRun1_C; dsimp only
    exact fun y => ⟨_, List.Mem.head _, View.mem_set_unit_zero hz3 inb_S32x256x64_S32x256x64_0_0_0 y⟩
  rw [View.read_writes_eq_canon _ _ _ hcov]
  unfold kernelRun1_C; dsimp only; sl_unfold_words
  rw [View.canon_cons_unit_zero hz3]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3, View.readCov_unit_zero (S := S32x256) _ hz2, View.readCov_unit_zero (S := S32x256x64) _ hz3]

end Cert.Kernel.Hand

end
-- ==== Proof.K.Reg1Run.lean ====
import proofs.«106544_j89970974917189_2_alg».proof.Proof.K.Reg1Read

/-! # Region 1 of @main (the attention kernel): the body's runs

The body's run in each of its three control cases — the first key/value step of a query block, a middle step, the
last step — and what each leaves in the carried buffers and in the output block, in closed form. The cases are
separate modules (`Reg1RunB`, `Reg1RunA`, `Reg1RunC`, over `Reg1Base`), the closed forms `Reg1Read`; this module
gathers them. -/
-- ==== Proof.K.Reg1.lean ====
import proofs.«106544_j89970974917189_2_alg».proof.Proof.K.Reg1Run

/-! # Region 1 of @main (the attention kernel), at the entry contents `V`

What the three carried buffers hold point by point (`scrAt1`: at the first key/value step of a query block one step
from the initial values, at every other step one step from what the point before left), the output block that
would be written from them (`outsAt1`), the region invariant that carries them between points (`PhiS1`), the
pipeline's proof data (`dat1`) and the body obligation at every point. -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the carried buffers hold after each point -/

/-- The values the first key/value step of a query block starts from: the maximum at the large negative constant,
    the denominator and the numerator at zero. -/
def init1 : Vec F S32x256 .f32 × Vec F S32x256 .f32 × Vec F S32x256x64 .f32 := (k1_pay4, k1_pay5, k1_pay6)

/-- One key/value step on the carried triple (maximum, denominator, numerator), from the query, key and value blocks. -/
def step1 (xq : Vec F S32x256x64 .bf16) (xk : Vec F S32x128x64 .bf16) (xv : Vec F S32x128x64 .bf16) (s : Vec F S32x256 .f32 × Vec F S32x256 .f32 × Vec F S32x256x64 .f32) : Vec F S32x256 .f32 × Vec F S32x256 .f32 × Vec F S32x256x64 .f32 :=
  (k1_pay2 (k1_pay9 xq xk s.1), k1_pay12 xq xk s.1 s.2.1, k1_pay1 (k1_pay13 xq xk s.1 s.2.2) (k1_pay14 xq xk s.1) xv)

/-- THE ACCUMULATION: the carried triple after the body at position `n`. -/
def scrAt1 (c : Dev nD) : (n : ℕ) → n < cfg1.N → Vec F S32x256 .f32 × Vec F S32x256 .f32 × Vec F S32x256x64 .f32
  | 0, hn => step1 (iblk1 V c 0 ⟨0, hn⟩) (iblk1 V c 1 ⟨0, hn⟩) (iblk1 V c 2 ⟨0, hn⟩) init1
  | n + 1, hn => step1 (iblk1 V c 0 ⟨n + 1, hn⟩) (iblk1 V c 1 ⟨n + 1, hn⟩) (iblk1 V c 2 ⟨n + 1, hn⟩) (if (n + 1) % 16 = 0 then init1 else scrAt1 c n (Nat.lt_of_succ_lt hn))

/-- The output block the last key/value step writes from the carried triple, and the triple: after position `n`.
    (Away from a last step the first component is what WOULD be written; the window is idle there and nothing reads it.) -/
def outsAt1 (c : Dev nD) (n : ℕ) (hn : n < cfg1.N) : Vec F S32x256x64 .bf16 × Vec F S32x256 .f32 × Vec F S32x256 .f32 × Vec F S32x256x64 .f32 :=
  (k1_pay3 (scrAt1 V c n hn).2.1 (scrAt1 V c n hn).2.2, scrAt1 V c n hn)

/-- At the first key/value step of a query block: one step from the initial values. -/
theorem scrAt1_first (c : Dev nD) (t : Fin cfg1.N) (h0 : t.val % 16 = 0) :
    scrAt1 V c t.val t.isLt = step1 (iblk1 V c 0 t) (iblk1 V c 1 t) (iblk1 V c 2 t) init1 := by
  obtain ⟨n, hn⟩ := t
  cases n with
  | zero => exact rfl
  | succ n => exact congrArg (step1 (iblk1 V c 0 ⟨n + 1, hn⟩) (iblk1 V c 1 ⟨n + 1, hn⟩) (iblk1 V c 2 ⟨n + 1, hn⟩)) (if_pos h0)

/-- At every other step: one step from what the point before left. -/
theorem scrAt1_next (c : Dev nD) (t : Fin cfg1.N) (h0 : ¬t.val % 16 = 0) :
    scrAt1 V c t.val t.isLt = step1 (iblk1 V c 0 t) (iblk1 V c 1 t) (iblk1 V c 2 t) (scrAt1 V c (t.val - 1) (Nat.lt_of_le_of_lt (Nat.sub_le _ _) t.isLt)) := by
  obtain ⟨n, hn⟩ := t
  cases n with
  | zero => exact absurd (Nat.zero_mod _) h0
  | succ n => exact congrArg (step1 (iblk1 V c 0 ⟨n + 1, hn⟩) (iblk1 V c 1 ⟨n + 1, hn⟩) (iblk1 V c 2 ⟨n + 1, hn⟩)) (if_neg h0)

/-- `outsAt1` at a point of case A (the first key/value step). -/
theorem outsAt1_A (c : Dev nD) (t : Fin cfg1.N) (h0 : t.val % 16 = 0) :
    outsAt1 V c t.val t.isLt = (k1_pay3 (step1 (iblk1 V c 0 t) (iblk1 V c 1 t) (iblk1 V c 2 t) init1).2.1 (step1 (iblk1 V c 0 t) (iblk1 V c 1 t) (iblk1 V c 2 t) init1).2.2, step1 (iblk1 V c 0 t) (iblk1 V c 1 t) (iblk1 V c 2 t) init1) := by
  unfold outsAt1; rw [scrAt1_first V c t h0]
/-- `outsAt1` at a point of case B or C (any later key/value step): over what the point before left. -/
theorem outsAt1_B (c : Dev nD) (t : Fin cfg1.N) (h0 : ¬t.val % 16 = 0) :
    outsAt1 V c t.val t.isLt = (k1_pay3 (step1 (iblk1 V c 0 t) (iblk1 V c 1 t) (iblk1 V c 2 t) (outsAt1 V c (t.val - 1) (Nat.lt_of_le_of_lt (Nat.sub_le _ _) t.isLt)).2).2.1 (step1 (iblk1 V c 0 t) (iblk1 V c 1 t) (iblk1 V c 2 t) (outsAt1 V c (t.val - 1) (Nat.lt_of_le_of_lt (Nat.sub_le _ _) t.isLt)).2).2.2, step1 (iblk1 V c 0 t) (iblk1 V c 1 t) (iblk1 V c 2 t) (outsAt1 V c (t.val - 1) (Nat.lt_of_le_of_lt (Nat.sub_le _ _) t.isLt)).2) := by
  unfold outsAt1; rw [scrAt1_next V c t h0]
theorem outsAt1_C (c : Dev nD) (t : Fin cfg1.N) (h0 : ¬t.val % 16 = 0) (h1 : t.val % 16 = 15) :
    outsAt1 V c t.val t.isLt = (k1_pay3 (step1 (iblk1 V c 0 t) (iblk1 V c 1 t) (iblk1 V c 2 t) (outsAt1 V c (t.val - 1) (Nat.lt_of_le_of_lt (Nat.sub_le _ _) t.isLt)).2).2.1 (step1 (iblk1 V c 0 t) (iblk1 V c 1 t) (iblk1 V c 2 t) (outsAt1 V c (t.val - 1) (Nat.lt_of_le_of_lt (Nat.sub_le _ _) t.isLt)).2).2.2, step1 (iblk1 V c 0 t) (iblk1 V c 1 t) (iblk1 V c 2 t) (outsAt1 V c (t.val - 1) (Nat.lt_of_le_of_lt (Nat.sub_le _ _) t.isLt)).2) :=
  outsAt1_B V c t h0

/-! ### The same, component by component -/

/-- The output component is always the quotient of the numerator and denominator components. -/
theorem outsAt1_out (c : Dev nD) (t : Fin cfg1.N) :
    (outsAt1 V c t.val t.isLt).1 = k1_pay3 (outsAt1 V c t.val t.isLt).2.2.1 (outsAt1 V c t.val t.isLt).2.2.2 := rfl

/-- At the first key/value step of a query block, over the initial values: the maximum, -/
theorem outsAt1_A_m (c : Dev nD) (t : Fin cfg1.N) (h0 : t.val % 16 = 0) :
    (outsAt1 V c t.val t.isLt).2.1 = k1_pay2 (k1_pay9 (iblk1 V c 0 t) (iblk1 V c 1 t) k1_pay4) :=
  congrArg (fun p => p.2.1) (outsAt1_A V c t h0)
/-- the denominator, -/
theorem outsAt1_A_l (c : Dev nD) (t : Fin cfg1.N) (h0 : t.val % 16 = 0) :
    (outsAt1 V c t.val t.isLt).2.2.1 = k1_pay12 (iblk1 V c 0 t) (iblk1 V c 1 t) k1_pay4 k1_pay5 :=
  congrArg (fun p => p.2.2.1) (outsAt1_A V c t h0)
/-- the numerator. -/
theorem outsAt1_A_acc (c : Dev nD) (t : Fin cfg1.N) (h0 : t.val % 16 = 0) :
    (outsAt1 V c t.val t.isLt).2.2.2 = k1_pay1 (k1_pay13 (iblk1 V c 0 t) (iblk1 V c 1 t) k1_pay4 k1_pay6) (k1_pay14 (iblk1 V c 0 t) (iblk1 V c 1 t) k1_pay4) (iblk1 V c 2 t) :=
  congrArg (fun p => p.2.2.2) (outsAt1_A V c t h0)

/-- At any later key/value step (the last included), over what the point before left: the maximum, -/
theorem outsAt1_B_m (c : Dev nD) (t : Fin cfg1.N) (h0 : ¬t.val % 16 = 0) :
    (outsAt1 V c t.val t.isLt).2.1 = k1_pay2 (k1_pay9 (iblk1 V c 0 t) (iblk1 V c 1 t) (outsAt1 V c (t.val - 1) (Nat.lt_of_le_of_lt (Nat.sub_le _ _) t.isLt)).2.1) :=
  congrArg (fun p => p.2.1) (outsAt1_B V c t h0)
/-- the denominator, -/
theorem outsAt1_B_l (c : Dev nD) (t : Fin cfg1.N) (h0 : ¬t.val % 16 = 0) :
    (outsAt1 V c t.val t.isLt).2.2.1 = k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 :=
  congrArg (fun p => p.2.2.1) (outsAt1_B V c t h0)
/-- the numerator. -/
theorem outsAt1_B_acc (c : Dev nD) (t : Fin cfg1.N) (h0 : ¬t.val % 16 = 0) :
    (outsAt1 V c t.val t.isLt).2.2.2 = k1_pay1 (k1_pay13 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2) (k1_pay14 (iblk1 V c 0 t) (iblk1 V c 1 t) (outsAt1 V c (t.val - 1) (Nat.lt_of_le_of_lt (Nat.sub_le _ _) t.isLt)).2.1) (iblk1 V c 2 t) :=
  congrArg (fun p => p.2.2.2) (outsAt1_B V c t h0)

/-! ## The region invariant -/

/-- The invariant before position `n`: before the first point what the launch hands the region (every scoped buffer
    at anything); afterwards the three carried buffers at what the point before left in them, and the rest. -/
def PhiS1 (c : Dev nD) : (n : ℕ) → n ≤ cfg1.N → sProp 𝕄
  | 0, _ => Pipeline.ΦA spec1 c
  | n + 1, hn => iprop((owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 (F := F) c)

theorem PhiS1_succ (c : Dev nD) (n : ℕ) (hn : n < cfg1.N) :
    PhiS1 V c (n + 1) hn = iprop((owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 (F := F) c) := rfl

/-- Before a point that is not the first: the carried buffers at what the point before left. -/
theorem PhiS1_pos (c : Dev nD) (n : ℕ) (h : n ≤ cfg1.N) (hz : n ≠ 0) :
    PhiS1 V c n h = iprop((owns (c : Thread nD τ) scM1_0 fullShare (scrAt1 V c (n - 1) (by omega)).1 ∗ owns (c : Thread nD τ) scM1_1 fullShare (scrAt1 V c (n - 1) (by omega)).2.1 ∗ owns (c : Thread nD τ) scM1_2 fullShare (scrAt1 V c (n - 1) (by omega)).2.2) ∗ rest1 (F := F) c) := by
  cases n with
  | zero => exact absurd rfl hz
  | succ n => rfl

/-- Before any point the invariant hands out the three carried buffers at SOME contents, and the rest: what a body
    that overwrites them before reading them needs, and what the region gives back at its end. -/
theorem PhiS1_any (c : Dev nD) (n : ℕ) (h : n ≤ cfg1.N) :
    PhiS1 V c n h ⊢ iprop(((∃ d, owns (c : Thread nD τ) scM1_0 fullShare d) ∗ (∃ d, owns (c : Thread nD τ) scM1_1 fullShare d) ∗ (∃ d, owns (c : Thread nD τ) scM1_2 fullShare d)) ∗ rest1 (F := F) c) := by
  cases n with
  | zero => exact PhiA1_split c
  | succ n =>
    rw [PhiS1_succ]
    iintro ⟨⟨HS0, HS1, HS2⟩, Hrest⟩
    isplitr [Hrest]
    swap; · iexact Hrest
    isplitl [HS0]; · iexists _; iexact HS0
    isplitl [HS1]; · iexists _; iexact HS1
    iexists _; iexact HS2

/-! ## The pipeline's proof data -/

/-- The proof data of the pipeline on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
/-- The output's, spelled over the carried triple. -/
theorem after1_3' (c : Dev nD) (t : Fin cfg1.N) : (dat1 V c).after 3 t = k1_pay3 (scrAt1 V c t.val t.isLt).2.1 (scrAt1 V c t.val t.isLt).2.2 := by dsimp only [dat1, outsAt1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the carried buffers (at what the point before left, or at anything where the body
    overwrites them first) and takes them back at this point's contents, by the closed forms of what each case
    leaves; away from the last key/value step the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [PhiS1_castSucc V c t]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [scrAt1_first V c t h0]
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    icases HΦ' with ⟨⟨HS0, HS1, HS2⟩, Hrest⟩
    iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [HS0 HS1 HS2 Hrest]
    · isplitr [Hrest]
      swap; · iexact Hrest
      isplitl [HS0]
      · unfold owns; iexists _; isplitr
        swap; · iexact HS0
        ipureintro; exact sread1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)  _
      isplitl [HS1]
      · unfold owns; iexists _; isplitr
        swap; · iexact HS1
        ipureintro; exact sread1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)  _
      unfold owns; iexists _; isplitr
      swap; · iexact HS2
      ipureintro; exact sread1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)  _
    isplitl [Ho]; · iexact Ho
    isplitl [H0]; · iexact H0
    isplitl [H1]; · iexact H1
    isplitl [H2]; · iexact H2
    iexists _; iexact H3
  · have hz : t.val ≠ 0 := fun h => h0 (by rw [h])
    rw [PhiS1_pos V c _ _ hz, scrAt1_next V c t h0]
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3', scrAt1_next V c t h0]
      iintro ⟨⟨⟨HS0, HS1, HS2⟩, Hrest⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HS0 HS1 HS2 Hrest]
      · isplitr [Hrest]
        swap; · iexact Hrest
        isplitl [HS0]
        · unfold owns; iexists _; isplitr
          swap; · iexact HS0
          ipureintro; exact sread1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
        isplitl [HS1]
        · unfold owns; iexists _; isplitr
          swap; · iexact HS1
          ipureintro; exact sread1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
        unfold owns; iexists _; isplitr
        swap; · iexact HS2
        ipureintro; exact sread1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
      isplitl [Ho]; · iexact Ho
      isplitl [H0]; · iexact H0
      isplitl [H1]; · iexact H1
      isplitl [H2]; · iexact H2
      unfold owns; iexists _; isplitr
      swap; · iexact H3
      ipureintro; exact sread1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
    · rw [Dat.leavesExact_idle (dat1 V c) 3 t (idleAt1_3 t (fun h => h1 ((hcond1_1 t).mp h))) (noFlush1_3 t (fun h => h1 ((hcond1_1 t).mp h)))]
      iintro ⟨⟨⟨HS0, HS1, HS2⟩, Hrest⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 Hrest]
      · isplitr [Hrest]
        swap; · iexact Hrest
        isplitl [HS0]
        · unfold owns; iexists _; isplitr
          swap; · iexact HS0
          ipureintro; exact sread1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
        isplitl [HS1]
        · unfold owns; iexists _; isplitr
          swap; · iexact HS1
          ipureintro; exact sread1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
        unfold owns; iexists _; isplitr
        swap; · iexact HS2
        ipureintro; exact sread1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl]
  exact Idealize.SL.BI.Entails.refl _

/-- After the last point the invariant gives it back: the carried buffers' named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact (PhiS1_any V c _ _).trans (PhiA1_join c)

end Cert.Kernel.Hand

end
-- ==== Proof.K.Run.lean ====
/-
  The whole run of @main, at any float instance: four stretches of host operations around three kernel regions
  (the QKV projection, the attention, the output projection). Between two items every unscoped buffer of the
  TensorCore is held at a named valuation: the launch memory, then each host stretch's operations applied, then each
  region's arrays replaced by what its pipeline's write-backs leave. The run's post-condition reads every unscoped
  buffer at the last of these valuations, so both the frame (the arguments come back as launched: no item writes one)
  and the result's value are read off it.
-/
import proofs.«106544_j89970974917189_2_alg».proof.Proof.K.Reg0
import proofs.«106544_j89970974917189_2_alg».proof.Proof.K.Reg2
import proofs.«106544_j89970974917189_2_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first host stretch (the flattening, the transposes, the format changes): the QKV projection's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- At region 0's exit: its arrays at what the pipeline's write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the split into heads, queries, keys and values): the attention's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b

/-- At region 1's exit: its arrays at what the pipeline's write-backs leave, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the third host stretch (the heads merged back): the output projection's entry. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b

/-- At region 2's exit: its arrays at what the pipeline's write-backs leave, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the last host stretch (the result reshaped): the contents at the return. -/
abbrev B7 : Dev nD → Valuation τ sig (Elt F) := fun c => StableHlo.after hostOps3 (B6 m ρ c)

/-! ## The proof data family and the thread state -/

abbrev adm : (p : Fin 3) → (pcfgs (F := F) p).Adm := fun p => (cfgs p).toPCfg_adm
/-- Every pipeline's proof data, each at its region's entry contents: a literal match on the pipeline. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := StableHlo.held (c : Thread nD τ) (Pipeline.ucRefs τ sig) (B7 m ρ c)

/-! ## The regions as segments -/

set_option backward.isDefEq.respectTransparency.types false in
/-- Region 0 over the thread state: entered with every unscoped buffer at `B1`, left at `B2`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left at `B4`. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (E3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ (Pipeline.ΦA spec1 c : sProp 𝕄) := hout1 (E3 m ρ) c
    unfold Pipeline.ΦA at h
    iintro Hq
    ihave H := h $$ Hq
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B5`, left at `B6`. Its arrays are
    split out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (B0 m ρ)),
    .region (reg0 m ρ),
    .host (hseg hostOps1 hostOps1_sub hostOps1_fresh' (B2 m ρ)),
    .region (reg1 m ρ),
    .host (hseg hostOps2 hostOps2_sub hostOps2_fresh' (B4 m ρ)),
    .region (reg2 m ρ),
    .host (hseg hostOps3 hostOps3_sub hostOps3_fresh' (B6 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨Hh, HSI⟩
      unfold Tₙ StableHlo.held
      imodintro
      iapply (pointsTo_read_all (Pipeline.ucRefs τ sig) (fun b => (((c : Thread nD τ)).1, b)) (B7 m ρ c) s')
      isplitl [Hh] <;> iassumption)
    (hQ := fun s h c => h c)

end Cert.Kernel.Hand

end
-- ==== Proof.K.Frame.lean ====
/-
  What the run leaves, read off its last valuation: no host operation and no region writes an argument array (a region
  reads them only through host copies), so each argument walks back through every boundary to the launch memory; the
  result buffer is the last valuation's.
-/
import proofs.«106544_j89970974917189_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- A buffer that none of a host stretch's operations writes holds after the stretch what it held before. -/
macro "keeps " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := by keeps hostOps3
    _ = B5 m ρ c (Proc.devRef .tc main_arg0) := B6_of_ne m ρ c main_arg0 (by decide)
    _ = B4 m ρ c (Proc.devRef .tc main_arg0) := by keeps hostOps2
    _ = B3 m ρ c (Proc.devRef .tc main_arg0) := B4_of_ne m ρ c main_arg0 (by decide)
    _ = B2 m ρ c (Proc.devRef .tc main_arg0) := by keeps hostOps1
    _ = B1 m ρ c (Proc.devRef .tc main_arg0) := B2_of_ne m ρ c main_arg0 (by decide)
    _ = B0 m ρ c (Proc.devRef .tc main_arg0) := by keeps hostOps0
    _ = m ((c : Thread nD τ).loc main_arg0) := rfl

theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := by keeps hostOps3
    _ = B5 m ρ c (Proc.devRef .tc main_arg1) := B6_of_ne m ρ c main_arg1 (by decide)
    _ = B4 m ρ c (Proc.devRef .tc main_arg1) := by keeps hostOps2
    _ = B3 m ρ c (Proc.devRef .tc main_arg1) := B4_of_ne m ρ c main_arg1 (by decide)
    _ = B2 m ρ c (Proc.devRef .tc main_arg1) := by keeps hostOps1
    _ = B1 m ρ c (Proc.devRef .tc main_arg1) := B2_of_ne m ρ c main_arg1 (by decide)
    _ = B0 m ρ c (Proc.devRef .tc main_arg1) := by keeps hostOps0
    _ = m ((c : Thread nD τ).loc main_arg1) := rfl

theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := by keeps hostOps3
    _ = B5 m ρ c (Proc.devRef .tc main_arg2) := B6_of_ne m ρ c main_arg2 (by decide)
    _ = B4 m ρ c (Proc.devRef .tc main_arg2) := by keeps hostOps2
    _ = B3 m ρ c (Proc.devRef .tc main_arg2) := B4_of_ne m ρ c main_arg2 (by decide)
    _ = B2 m ρ c (Proc.devRef .tc main_arg2) := by keeps hostOps1
    _ = B1 m ρ c (Proc.devRef .tc main_arg2) := B2_of_ne m ρ c main_arg2 (by decide)
    _ = B0 m ρ c (Proc.devRef .tc main_arg2) := by keeps hostOps0
    _ = m ((c : Thread nD τ).loc main_arg2) := rfl

/-- THE FRAME, at any float instance: every weakly fair execution of @main terminates, nothing faulting, with the
    three argument arrays as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c)⟩) (run_all m ρ)

/-- The same run with the result buffer named: it ends at the last valuation's contents of the result. -/
theorem value_run : θ_run defs (onTc (τ := τ) (main (F := F))) ⟨m, fun _ => 0, ρ⟩ (fun r => ∀ c : Dev nD,
      r.2.mem ((c.tc : Thread nD τ).loc main_v23) = B7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v23 (by decide)),
     (h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c)⟩) (run_all m ρ)

end Cert.Kernel.Hand

end
-- ==== Proof.KI.Reg0.lean ====
import proofs.«106544_j89970974917189_2_alg».proof.Proof.Gen.KernelIdeal.Launch
import proofs.«106544_j89970974917189_2_alg».proof.Proof.Gen.KernelIdeal.Skeleton
import proofs.«106544_j89970974917189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main: a single-step matrix product, at the entry contents `V`

The body reads its two input blocks whole, multiplies them into a zero accumulator and stores the product over
the whole output block. So after the body the output's staging buffer is a function of the two input blocks
alone (`out0_2`), the inputs' buffers are as they were, and nothing else is touched. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is
    not fetched its block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x768 := Rect.unit (s := S1024x768) ![0, 0] S1024x768.size inb_S1024x768_S1024x768_0_0
abbrev r0_2 : Rect S512x768 := Rect.unit (s := S512x768) ![0, 0] S512x768.size inb_S512x768_S512x768_0_0

/-! ## What the body leaves in the output window's buffer -/

/-- Window 2's staging buffer after the body, from the input windows' blocks: its one store, of the product of
    the two blocks read whole, over the whole buffer. -/
def out0_2 (x0 : Vec F S512x1024 .bf16) (x1 : Vec F S1024x768 .bf16) : Vec F S512x768 .bf16 :=
  View.canon [⟨r0_2, k0_pay1 (View.ld x0 r0_0) (View.ld x1 r0_1)⟩]

/-- The one store is over the whole buffer, so it covers it. -/
theorem cover0_2 (p0 : Vec F S512x768 .bf16) (y : S512x768.Idx) :
    ∃ pc ∈ ([⟨r0_2, p0⟩] : List (View.Piece (Elt F) S512x768 .bf16)), y ∈ pc.1.set :=
  View.cover_of_tiled [⟨r0_2, p0⟩] S512x768.size (by rfl) y

/-! ## The body's triple -/

set_option maxHeartbeats 1000000 in
/-- The kernel body on whole staging memrefs, the inputs' at contents `x0`, `x1` and the output's at anything,
    runs to the continuation holding the inputs' as they were and the output's at `out0_2 x0 x1`. The output's
    old contents are read once and not used. -/
theorem sound_kernel0 (c : Dev nD) (E : Set ℕ) (i : grid0.Coords) (arg0 : Memref sig .tc .vmem S512x1024 .bf16) (harg0 : arg0.IsWhole) (arg1 : Memref sig .tc .vmem S1024x768 .bf16) (harg1 : arg1.IsWhole) (arg2 : Memref sig .tc .vmem S512x768 .bf16) (harg2 : arg2.IsWhole)
    (x0 : Vec F S512x1024 .bf16) (x1 : Vec F S1024x768 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel_single_k i arg0 harg0 arg1 harg1 arg2 harg2) K := by
  simp only [cc0__matmul_kernel_single_k_eq_skeleton]; unfold cc0__matmul_kernel_single_k_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so
    `sound_kernel0` applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg2.lean ====
import proofs.«106544_j89970974917189_2_alg».proof.Proof.Gen.KernelIdeal.Launch
import proofs.«106544_j89970974917189_2_alg».proof.Proof.Gen.KernelIdeal.Skeleton
import proofs.«106544_j89970974917189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: a single-step matrix product, at the entry contents `V`

The body reads its two input blocks whole, multiplies them into a zero accumulator and stores the product over
the whole output block. So after the body the output's staging buffer is a function of the two input blocks
alone (`out2_2`), the inputs' buffers are as they were, and nothing else is touched. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (where it is
    not fetched its block index has not moved), for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-! ## What the body leaves in the output window's buffer -/

/-- Window 2's staging buffer after the body, from the input windows' blocks: its one store, of the product of
    the two blocks read whole, over the whole buffer. -/
def out2_2 (x0 : Vec F S512x1024 .bf16) (x1 : Vec F S1024x1024 .bf16) : Vec F S512x1024 .f32 :=
  View.canon [⟨r2_2, k2_pay1 (View.ld x0 r2_0) (View.ld x1 r2_1)⟩]

/-- The one store is over the whole buffer, so it covers it. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's triple -/

set_option maxHeartbeats 1000000 in
/-- The kernel body on whole staging memrefs, the inputs' at contents `x0`, `x1` and the output's at anything,
    runs to the continuation holding the inputs' as they were and the output's at `out2_2 x0 x1`. The output's
    old contents are read once and not used. -/
theorem sound_kernel2 (c : Dev nD) (E : Set ℕ) (i : grid2.Coords) (arg0 : Memref sig .tc .vmem S512x1024 .bf16) (harg0 : arg0.IsWhole) (arg1 : Memref sig .tc .vmem S1024x1024 .bf16) (harg1 : arg1.IsWhole) (arg2 : Memref sig .tc .vmem S512x1024 .f32) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel_single_k i arg0 harg0 arg1 harg1 arg2 harg2) K := by
  simp only [cc2__matmul_kernel_single_k_eq_skeleton]; unfold cc2__matmul_kernel_single_k_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_0`, `before2_1`), so
    `sound_kernel2` applies; the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg1Base.lean ====
import proofs.«106544_j89970974917189_2_alg».proof.Proof.Gen.KernelIdeal.Launch
import proofs.«106544_j89970974917189_2_alg».proof.Proof.Gen.KernelIdeal.Skeleton
import proofs.«106544_j89970974917189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (the attention kernel): what its body runs share

The grid is 8 query blocks by 16 key/value steps, the key/value step innermost: point `t` is query block
`t / 16` at step `t % 16`. The body keeps a running maximum, a running denominator and a running numerator in
three buffers of its own, which it carries from one step to the next: at step 0 it first overwrites them with
their initial values, at every step it updates them from the query, key and value blocks, and at step 15 it also
divides the numerator by the denominator into the output block. Here: the two conditions in closed form, where
the output window is idle, the memrefs the body is called with, and the region invariant with the three carried
buffers set apart from the rest. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first `scf.if` (the initialisation), from the grid coordinates. -/
abbrev cond1_0 (i : grid1.Coords) : Prop := (Scalar.cmpi .ne (Scalar.extui (Scalar.cmpi .eq (BitVec.ofNat 32 (i 1).val) 0#32)) 0#32) = 1#1
/-- It holds at the first key/value step only. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the division into the output). -/
abbrev cond1_1 (i : grid1.Coords) : Prop := k1_cond2 i = 1#1
/-- It holds at the last key/value step only. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key/value step the output window is idle: the body stores nothing into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- At the last key/value step it is live. -/
theorem liveAt1_3 : ∀ t : Fin cfg1.N, cond1_1 (grid1.coords t) → cfg1.idle 3 (grid1.coords t) = false := by decide +kernel

/-! ## The memrefs the body is called with -/

/-- Each window's current staging memref at point `t`, spelled as the pipeline passes it, and its wholeness. -/
abbrev ms1_0 (t : Fin cfg1.N) : Memref sig .tc .vmem S32x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x256x64 .bf16 := win1_3.stage (cfg1.slots t 3)
abbrev hs1_3 (t : Fin cfg1.N) : (ms1_3 t).IsWhole := hstage1_3 ((cfg1.slots t 3).cast nbuf1_3)
/-- The three carried buffers: the running maximum, the running denominator, the running numerator. -/
abbrev scM1_0 : Memref sig .tc .vmem S32x256 .f32 := Memref.whole cc1_scratch0
abbrev scM1_1 : Memref sig .tc .vmem S32x256 .f32 := Memref.whole cc1_scratch1
abbrev scM1_2 : Memref sig .tc .vmem S32x256x64 .f32 := Memref.whole cc1_scratch2

/-! ## The region invariant, the carried buffers set apart -/

/-- A whole buffer of the core at some contents. -/
abbrev anyAt (c : Dev nD) (b : Ref sig .tc) : sProp 𝕄 :=
  iprop(∃ f : Buf (Elt F) ((c : Thread nD τ).loc b), ((c : Thread nD τ).loc b) ↦{fullShare} f)

/-- Everything the invariant holds beside the three carried buffers: the other regions' staging buffers, each at
    some contents, and the generator register at some state. -/
def rest1 (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1
    ∗ (anyAt (F := F) c cc2_stg0_0 ∗ anyAt (F := F) c cc2_stg0_1 ∗ anyAt (F := F) c cc2_stg1_0 ∗ anyAt (F := F) c cc2_stg2_0 ∗ anyAt (F := F) c cc2_stg2_1)
    ∗ (∃ r, prngReg c r))

/-- The invariant as the launch states it, the scoped buffers one by one. -/
theorem PhiA1_eq (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1
          ∗ (∃ d, owns (c : Thread nD τ) scM1_0 fullShare d) ∗ (∃ d, owns (c : Thread nD τ) scM1_1 fullShare d) ∗ (∃ d, owns (c : Thread nD τ) scM1_2 fullShare d)
          ∗ anyAt (F := F) c cc2_stg0_0 ∗ anyAt (F := F) c cc2_stg0_1 ∗ anyAt (F := F) c cc2_stg1_0 ∗ anyAt (F := F) c cc2_stg2_0 ∗ anyAt (F := F) c cc2_stg2_1) ∗ (∃ r, prngReg c r)) := by
  unfold Pipeline.ΦA; rw [scopedRest1_eq]; simp only [scM1_0, scM1_1, scM1_2, owns_whole]; try rfl

/-- The invariant hands out the three carried buffers, each at some contents, and the rest; -/
theorem PhiA1_split (c : Dev nD) :
    (Pipeline.ΦA spec1 c : sProp 𝕄) ⊢ iprop(((∃ d, owns (c : Thread nD τ) scM1_0 fullShare d) ∗ (∃ d, owns (c : Thread nD τ) scM1_1 fullShare d) ∗ (∃ d, owns (c : Thread nD τ) scM1_2 fullShare d)) ∗ rest1 (F := F) c) := by
  rw [PhiA1_eq]; unfold rest1
  iintro ⟨⟨H1, H2, H3, H4, H5, H6, HS0, HS1, HS2, HR⟩, Hg⟩
  isplitl [HS0 HS1 HS2]
  · isplitl [HS0]; · iexact HS0
    isplitl [HS1]; · iexact HS1
    iexact HS2
  isplitl [H1]; · iexact H1
  isplitl [H2]; · iexact H2
  isplitl [H3]; · iexact H3
  isplitl [H4]; · iexact H4
  isplitl [H5]; · iexact H5
  isplitl [H6]; · iexact H6
  isplitl [HR]; · iexact HR
  iexact Hg

/-- and takes them back. -/
theorem PhiA1_join (c : Dev nD) :
    iprop(((∃ d, owns (c : Thread nD τ) scM1_0 fullShare d) ∗ (∃ d, owns (c : Thread nD τ) scM1_1 fullShare d) ∗ (∃ d, owns (c : Thread nD τ) scM1_2 fullShare d)) ∗ rest1 (F := F) c) ⊢ (Pipeline.ΦA spec1 c : sProp 𝕄) := by
  rw [PhiA1_eq]; unfold rest1
  iintro ⟨⟨HS0, HS1, HS2⟩, H1, H2, H3, H4, H5, H6, HR, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iexact HR

end Cert.KernelIdeal.Hand

end
-- ==== Proof.KI.Reg1RunB.lean ====
import proofs.«106544_j89970974917189_2_alg».proof.Proof.KI.Reg1Base

/-! # Region 1 of @main (the attention kernel): the body's run at a middle key/value step -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE B (a middle key/value step: neither branch taken). On whole memrefs — the three inputs' at their blocks, the
    idle output's at contents handed back untouched, the three carried buffers at what the step before left — the
    body runs to a continuation that holds the inputs' as they were and each carried buffer with the pieces the
    body stored into it (last first): the pieces are the witness the run finds. -/
noncomputable def kernelRun1_B (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : ¬cond1_1 i)
    (x0 : Vec F S32x256x64 .bf16) (x1 : Vec F S32x128x64 .bf16) (x2 : Vec F S32x128x64 .bf16) (xs0 : Vec F S32x256 .f32) (xs1 : Vec F S32x256 .f32) (xs2 : Vec F S32x256x64 .f32) :
    Σ' (L3 : List (View.Piece (Elt F) S32x256x64 .bf16)) (LS0 : List (View.Piece (Elt F) S32x256 .f32)) (LS1 : List (View.Piece (Elt F) S32x256 .f32)), { LS2 : List (View.Piece (Elt F) S32x256x64 .f32) //
      ∀ (xi3 : Vec F S32x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Reg1RunA.lean ====
import proofs.«106544_j89970974917189_2_alg».proof.Proof.KI.Reg1RunB

/-! # Region 1 of @main (the attention kernel): the body's run at the first key/value step -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE A (the first key/value step of a query block: the initialisation taken, the division not). On whole
    memrefs — the three inputs' at their blocks, the idle output's at contents handed back untouched, the three
    carried buffers at ANYTHING (the body overwrites each before reading it) — the body runs to a continuation
    that holds the inputs' as they were and each carried buffer with the pieces the body stored into it (last
    first): the pieces are the witness the run finds. -/
noncomputable def kernelRun1_A (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : cond1_0 i) (hc1 : ¬cond1_1 i)
    (x0 : Vec F S32x256x64 .bf16) (x1 : Vec F S32x128x64 .bf16) (x2 : Vec F S32x128x64 .bf16) :
    Σ' (L3 : List (View.Piece (Elt F) S32x256x64 .bf16)) (LS0 : List (View.Piece (Elt F) S32x256 .f32)) (LS1 : List (View.Piece (Elt F) S32x256 .f32)), { LS2 : List (View.Piece (Elt F) S32x256x64 .f32) //
      ∀ (xi3 : Vec F S32x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Reg1RunC.lean ====
import proofs.«106544_j89970974917189_2_alg».proof.Proof.KI.Reg1RunA

/-! # Region 1 of @main (the attention kernel): the body's run at the last key/value step -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- CASE C (the last key/value step of a query block: the initialisation not taken, the division taken). On whole
    memrefs — the three inputs' at their blocks, the output's at anything, the three carried buffers at what the
    step before left — the body runs to a continuation that holds the inputs' as they were, the output's buffer
    and each carried buffer with the pieces the body stored into it (last first): the pieces are the witness the
    run finds. -/
noncomputable def kernelRun1_C (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i)
    (x0 : Vec F S32x256x64 .bf16) (x1 : Vec F S32x128x64 .bf16) (x2 : Vec F S32x128x64 .bf16) (xs0 : Vec F S32x256 .f32) (xs1 : Vec F S32x256 .f32) (xs2 : Vec F S32x256x64 .f32) :
    Σ' (L3 : List (View.Piece (Elt F) S32x256x64 .bf16)) (LS0 : List (View.Piece (Elt F) S32x256 .f32)) (LS1 : List (View.Piece (Elt F) S32x256 .f32)), { LS2 : List (View.Piece (Elt F) S32x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Reg1Read.lean ====
import proofs.«106544_j89970974917189_2_alg».proof.Proof.KI.Reg1RunC
import Idealize.ShloMosaic.Lib.Pipeline.Value

/-! # Region 1 of @main (the attention kernel): what each case leaves, in closed form

Every store of the body covers its whole buffer, so what a buffer holds after the body is the payload of the last
store into it, whatever it held before; and every load the body makes reads a whole buffer. So the pieces the runs
found read back as the payload terms applied to the blocks the body was handed. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as the printed program spells them. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a middle step the running maximum is left at the larger of what it was and the new scores' row maxima. -/
theorem sread1_B_0 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : ¬cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg6.view.ty.Contents (Elt F)) :
    arg6.view.read (Elt F) (arg6.view.writes (Elt F) f (kernelRun1_B c i arg2 harg2 arg3 harg3 arg4 harg4 arg5 harg5 arg6 harg6 arg7 harg7 arg8 harg8 hc0 hc1 x0 x1 x2 xs0 xs1 xs2).2.1) = k1_pay2 (k1_pay9 x0 x1 xs0) := by
  have hcov : ∀ y, ∃ p ∈ (kernelRun1_B c i arg2 harg2 arg3 harg3 arg4 harg4 arg5 harg5 arg6 harg6 arg7 harg7 arg8 harg8 hc0 hc1 x0 x1 x2 xs0 xs1 xs2).2.1, y ∈ p.1.set := by
    unfold kernelRun1_B; dsimp only
    exact fun y => ⟨_, List.Mem.head _, View.mem_set_unit_zero hz2 inb_S32x256_S32x256_0_0 y⟩
  rw [View.read_writes_eq_canon _ _ _ hcov]
  unfold kernelRun1_B; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

/-- At a middle step the running denominator is rescaled and the new row sums added. -/
theorem sread1_B_1 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : ¬cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg7.view.ty.Contents (Elt F)) :
    arg7.view.read (Elt F) (arg7.view.writes (Elt F) f (kernelRun1_B c i arg2 harg2 arg3 harg3 arg4 harg4 arg5 harg5 arg6 harg6 arg7 harg7 arg8 harg8 hc0 hc1 x0 x1 x2 xs0 xs1 xs2).2.2.1) = k1_pay12 x0 x1 xs0 xs1 := by
  have hcov : ∀ y, ∃ p ∈ (kernelRun1_B c i arg2 harg2 arg3 harg3 arg4 harg4 arg5 harg5 arg6 harg6 arg7 harg7 arg8 harg8 hc0 hc1 x0 x1 x2 xs0 xs1 xs2).2.2.1, y ∈ p.1.set := by
    unfold kernelRun1_B; dsimp only
    exact fun y => ⟨_, List.Mem.head _, View.mem_set_unit_zero hz2 inb_S32x256_S32x256_0_0 y⟩
  rw [View.read_writes_eq_canon _ _ _ hcov]
  unfold kernelRun1_B; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

/-- At a middle step the running numerator is rescaled and the new weighted values added. -/
theorem sread1_B_2 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : ¬cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg8.view.ty.Contents (Elt F)) :
    arg8.view.read (Elt F) (arg8.view.writes (Elt F) f (kernelRun1_B c i arg2 harg2 arg3 harg3 arg4 harg4 arg5 harg5 arg6 harg6 arg7 harg7 arg8 harg8 hc0 hc1 x0 x1 x2 xs0 xs1 xs2).2.2.2.1) = k1_pay1 (k1_pay13 x0 x1 xs0 xs2) (k1_pay14 x0 x1 xs0) x2 := by
  have hcov : ∀ y, ∃ p ∈ (kernelRun1_B c i arg2 harg2 arg3 harg3 arg4 harg4 arg5 harg5 arg6 harg6 arg7 harg7 arg8 harg8 hc0 hc1 x0 x1 x2 xs0 xs1 xs2).2.2.2.1, y ∈ p.1.set := by
    unfold kernelRun1_B; dsimp only
    exact fun y => ⟨_, List.Mem.head _, View.mem_set_unit_zero hz3 inb_S32x256x64_S32x256x64_0_0_0 y⟩
  rw [View.read_writes_eq_canon _ _ _ hcov]
  unfold kernelRun1_B; dsimp only; sl_unfold_words
  rw [View.canon_cons_unit_zero hz3]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

/-- At the first step the same, over the initial maximum, whatever the buffer held. -/
theorem sread1_A_0 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : cond1_0 i) (hc1 : ¬cond1_1 i) (x0 : Vec F S32x256x64 .bf16) (x1 : Vec F S32x128x64 .bf16) (x2 : Vec F S32x128x64 .bf16)  (f : arg6.view.ty.Contents (Elt F)) :
    arg6.view.read (Elt F) (arg6.view.writes (Elt F) f (kernelRun1_A c i arg2 harg2 arg3 harg3 arg4 harg4 arg5 harg5 arg6 harg6 arg7 harg7 arg8 harg8 hc0 hc1 x0 x1 x2).2.1) = k1_pay2 (k1_pay9 x0 x1 k1_pay4) := by
  have hcov : ∀ y, ∃ p ∈ (kernelRun1_A c i arg2 harg2 arg3 harg3 arg4 harg4 arg5 harg5 arg6 harg6 arg7 harg7 arg8 harg8 hc0 hc1 x0 x1 x2).2.1, y ∈ p.1.set := by
    unfold kernelRun1_A; dsimp only
    exact fun y => ⟨_, List.Mem.head _, View.mem_set_unit_zero hz2 inb_S32x256_S32x256_0_0 y⟩
  rw [View.read_writes_eq_canon _ _ _ hcov]
  unfold kernelRun1_A; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3, View.readCov_unit_zero (S := S32x256) _ hz2, View.readCov_unit_zero (S := S32x256x64) _ hz3]

/-- At the first step the same, over the initial maximum and denominator. -/
theorem sread1_A_1 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : cond1_0 i) (hc1 : ¬cond1_1 i) (x0 : Vec F S32x256x64 .bf16) (x1 : Vec F S32x128x64 .bf16) (x2 : Vec F S32x128x64 .bf16)  (f : arg7.view.ty.Contents (Elt F)) :
    arg7.view.read (Elt F) (arg7.view.writes (Elt F) f (kernelRun1_A c i arg2 harg2 arg3 harg3 arg4 harg4 arg5 harg5 arg6 harg6 arg7 harg7 arg8 harg8 hc0 hc1 x0 x1 x2).2.2.1) = k1_pay12 x0 x1 k1_pay4 k1_pay5 := by
  have hcov : ∀ y, ∃ p ∈ (kernelRun1_A c i arg2 harg2 arg3 harg3 arg4 harg4 arg5 harg5 arg6 harg6 arg7 harg7 arg8 harg8 hc0 hc1 x0 x1 x2).2.2.1, y ∈ p.1.set := by
    unfold kernelRun1_A; dsimp only
    exact fun y => ⟨_, List.Mem.head _, View.mem_set_unit_zero hz2 inb_S32x256_S32x256_0_0 y⟩
  rw [View.read_writes_eq_canon _ _ _ hcov]
  unfold kernelRun1_A; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3, View.readCov_unit_zero (S := S32x256) _ hz2, View.readCov_unit_zero (S := S32x256x64) _ hz3]

/-- At the first step the same, over the initial maximum and numerator. -/
theorem sread1_A_2 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : cond1_0 i) (hc1 : ¬cond1_1 i) (x0 : Vec F S32x256x64 .bf16) (x1 : Vec F S32x128x64 .bf16) (x2 : Vec F S32x128x64 .bf16)  (f : arg8.view.ty.Contents (Elt F)) :
    arg8.view.read (Elt F) (arg8.view.writes (Elt F) f (kernelRun1_A c i arg2 harg2 arg3 harg3 arg4 harg4 arg5 harg5 arg6 harg6 arg7 harg7 arg8 harg8 hc0 hc1 x0 x1 x2).2.2.2.1) = k1_pay1 (k1_pay13 x0 x1 k1_pay4 k1_pay6) (k1_pay14 x0 x1 k1_pay4) x2 := by
  have hcov : ∀ y, ∃ p ∈ (kernelRun1_A c i arg2 harg2 arg3 harg3 arg4 harg4 arg5 harg5 arg6 harg6 arg7 harg7 arg8 harg8 hc0 hc1 x0 x1 x2).2.2.2.1, y ∈ p.1.set := by
    unfold kernelRun1_A; dsimp only
    exact fun y => ⟨_, List.Mem.head _, View.mem_set_unit_zero hz3 inb_S32x256x64_S32x256x64_0_0_0 y⟩
  rw [View.read_writes_eq_canon _ _ _ hcov]
  unfold kernelRun1_A; dsimp only; sl_unfold_words
  rw [View.canon_cons_unit_zero hz3]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3, View.readCov_unit_zero (S := S32x256) _ hz2, View.readCov_unit_zero (S := S32x256x64) _ hz3]

/-- At the last step the carried buffers are updated as at a middle step, -/
theorem sread1_C_0 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg6.view.ty.Contents (Elt F)) :
    arg6.view.read (Elt F) (arg6.view.writes (Elt F) f (kernelRun1_C c i arg2 harg2 arg3 harg3 arg4 harg4 arg5 harg5 arg6 harg6 arg7 harg7 arg8 harg8 hc0 hc1 x0 x1 x2 xs0 xs1 xs2).2.1) = k1_pay2 (k1_pay9 x0 x1 xs0) := by
  have hcov : ∀ y, ∃ p ∈ (kernelRun1_C c i arg2 harg2 arg3 harg3 arg4 harg4 arg5 harg5 arg6 harg6 arg7 harg7 arg8 harg8 hc0 hc1 x0 x1 x2 xs0 xs1 xs2).2.1, y ∈ p.1.set := by
    unfold kernelRun1_C; dsimp only
    exact fun y => ⟨_, List.Mem.head _, View.mem_set_unit_zero hz2 inb_S32x256_S32x256_0_0 y⟩
  rw [View.read_writes_eq_canon _ _ _ hcov]
  unfold kernelRun1_C; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

theorem sread1_C_1 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg7.view.ty.Contents (Elt F)) :
    arg7.view.read (Elt F) (arg7.view.writes (Elt F) f (kernelRun1_C c i arg2 harg2 arg3 harg3 arg4 harg4 arg5 harg5 arg6 harg6 arg7 harg7 arg8 harg8 hc0 hc1 x0 x1 x2 xs0 xs1 xs2).2.2.1) = k1_pay12 x0 x1 xs0 xs1 := by
  have hcov : ∀ y, ∃ p ∈ (kernelRun1_C c i arg2 harg2 arg3 harg3 arg4 harg4 arg5 harg5 arg6 harg6 arg7 harg7 arg8 harg8 hc0 hc1 x0 x1 x2 xs0 xs1 xs2).2.2.1, y ∈ p.1.set := by
    unfold kernelRun1_C; dsimp only
    exact fun y => ⟨_, List.Mem.head _, View.mem_set_unit_zero hz2 inb_S32x256_S32x256_0_0 y⟩
  rw [View.read_writes_eq_canon _ _ _ hcov]
  unfold kernelRun1_C; dsimp only; sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

theorem sread1_C_2 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg8.view.ty.Contents (Elt F)) :
    arg8.view.read (Elt F) (arg8.view.writes (Elt F) f (kernelRun1_C c i arg2 harg2 arg3 harg3 arg4 harg4 arg5 harg5 arg6 harg6 arg7 harg7 arg8 harg8 hc0 hc1 x0 x1 x2 xs0 xs1 xs2).2.2.2.1) = k1_pay1 (k1_pay13 x0 x1 xs0 xs2) (k1_pay14 x0 x1 xs0) x2 := by
  have hcov : ∀ y, ∃ p ∈ (kernelRun1_C c i arg2 harg2 arg3 harg3 arg4 harg4 arg5 harg5 arg6 harg6 arg7 harg7 arg8 harg8 hc0 hc1 x0 x1 x2 xs0 xs1 xs2).2.2.2.1, y ∈ p.1.set := by
    unfold kernelRun1_C; dsimp only
    exact fun y => ⟨_, List.Mem.head _, View.mem_set_unit_zero hz3 inb_S32x256x64_S32x256x64_0_0_0 y⟩
  rw [View.read_writes_eq_canon _ _ _ hcov]
  unfold kernelRun1_C; dsimp only; sl_unfold_words
  rw [View.canon_cons_unit_zero hz3]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3]

/-- and the output block is the updated numerator divided by the updated denominator. -/
theorem sread1_C_3 (c : Dev nD) (i : grid1.Coords) (arg2 : Memref sig .tc .vmem S32x256x64 .bf16) (harg2 : arg2.IsWhole) (arg3 : Memref sig .tc .vmem S32x128x64 .bf16) (harg3 : arg3.IsWhole) (arg4 : Memref sig .tc .vmem S32x128x64 .bf16) (harg4 : arg4.IsWhole) (arg5 : Memref sig .tc .vmem S32x256x64 .bf16) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256x64 .f32) (harg8 : arg8.IsWhole) (hc0 : ¬cond1_0 i) (hc1 : cond1_1 i) (x0 : Vec F S32x256x64 .bf16) (x1 : Vec F S32x128x64 .bf16) (x2 : Vec F S32x128x64 .bf16) (xs0 : Vec F S32x256 .f32) (xs1 : Vec F S32x256 .f32) (xs2 : Vec F S32x256x64 .f32) (f : arg5.view.ty.Contents (Elt F)) :
    arg5.view.read (Elt F) (arg5.view.writes (Elt F) f (kernelRun1_C c i arg2 harg2 arg3 harg3 arg4 harg4 arg5 harg5 arg6 harg6 arg7 harg7 arg8 harg8 hc0 hc1 x0 x1 x2 xs0 xs1 xs2).1) = k1_pay3 (k1_pay12 x0 x1 xs0 xs1) (k1_pay1 (k1_pay13 x0 x1 xs0 xs2) (k1_pay14 x0 x1 xs0) x2) := by
  have hcov : ∀ y, ∃ p ∈ (kernelRun1_C c i arg2 harg2 arg3 harg3 arg4 harg4 arg5 harg5 arg6 harg6 arg7 harg7 arg8 harg8 hc0 hc1 x0 x1 x2 xs0 xs1 xs2).1, y ∈ p.1.set := by
    unfold kernelRun1_C; dsimp only
    exact fun y => ⟨_, List.Mem.head _, View.mem_set_unit_zero hz3 inb_S32x256x64_S32x256x64_0_0_0 y⟩
  rw [View.read_writes_eq_canon _ _ _ hcov]
  unfold kernelRun1_C; dsimp only; sl_unfold_words
  rw [View.canon_cons_unit_zero hz3]
  simp only [View.readAt_eq_ld, harg2.read_unread, harg3.read_unread, harg4.read_unread, harg5.read_unread, harg6.read_unread, harg7.read_unread, harg8.read_unread, View.ld_unit_zero (S := S32x256) hz2, View.ld_unit_zero (S := S32x256x64) hz3, View.ld_unit_zero (S := S32x128x64) hz3, View.readCov_unit_zero (S := S32x256) _ hz2, View.readCov_unit_zero (S := S32x256x64) _ hz3]

end Cert.KernelIdeal.Hand

end
-- ==== Proof.KI.Reg1Run.lean ====
import proofs.«106544_j89970974917189_2_alg».proof.Proof.KI.Reg1Read

/-! # Region 1 of @main (the attention kernel): the body's runs

The body's run in each of its three control cases — the first key/value step of a query block, a middle step, the
last step — and what each leaves in the carried buffers and in the output block, in closed form. The cases are
separate modules (`Reg1RunB`, `Reg1RunA`, `Reg1RunC`, over `Reg1Base`), the closed forms `Reg1Read`; this module
gathers them. -/
-- ==== Proof.KI.Reg1.lean ====
import proofs.«106544_j89970974917189_2_alg».proof.Proof.KI.Reg1Run

/-! # Region 1 of @main (the attention kernel), at the entry contents `V`

What the three carried buffers hold point by point (`scrAt1`: at the first key/value step of a query block one step
from the initial values, at every other step one step from what the point before left), the output block that
would be written from them (`outsAt1`), the region invariant that carries them between points (`PhiS1`), the
pipeline's proof data (`dat1`) and the body obligation at every point. -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the carried buffers hold after each point -/

/-- The values the first key/value step of a query block starts from: the maximum at the large negative constant,
    the denominator and the numerator at zero. -/
def init1 : Vec F S32x256 .f32 × Vec F S32x256 .f32 × Vec F S32x256x64 .f32 := (k1_pay4, k1_pay5, k1_pay6)

/-- One key/value step on the carried triple (maximum, denominator, numerator), from the query, key and value blocks. -/
def step1 (xq : Vec F S32x256x64 .bf16) (xk : Vec F S32x128x64 .bf16) (xv : Vec F S32x128x64 .bf16) (s : Vec F S32x256 .f32 × Vec F S32x256 .f32 × Vec F S32x256x64 .f32) : Vec F S32x256 .f32 × Vec F S32x256 .f32 × Vec F S32x256x64 .f32 :=
  (k1_pay2 (k1_pay9 xq xk s.1), k1_pay12 xq xk s.1 s.2.1, k1_pay1 (k1_pay13 xq xk s.1 s.2.2) (k1_pay14 xq xk s.1) xv)

/-- THE ACCUMULATION: the carried triple after the body at position `n`. -/
def scrAt1 (c : Dev nD) : (n : ℕ) → n < cfg1.N → Vec F S32x256 .f32 × Vec F S32x256 .f32 × Vec F S32x256x64 .f32
  | 0, hn => step1 (iblk1 V c 0 ⟨0, hn⟩) (iblk1 V c 1 ⟨0, hn⟩) (iblk1 V c 2 ⟨0, hn⟩) init1
  | n + 1, hn => step1 (iblk1 V c 0 ⟨n + 1, hn⟩) (iblk1 V c 1 ⟨n + 1, hn⟩) (iblk1 V c 2 ⟨n + 1, hn⟩) (if (n + 1) % 16 = 0 then init1 else scrAt1 c n (Nat.lt_of_succ_lt hn))

/-- The output block the last key/value step writes from the carried triple, and the triple: after position `n`.
    (Away from a last step the first component is what WOULD be written; the window is idle there and nothing reads it.) -/
def outsAt1 (c : Dev nD) (n : ℕ) (hn : n < cfg1.N) : Vec F S32x256x64 .bf16 × Vec F S32x256 .f32 × Vec F S32x256 .f32 × Vec F S32x256x64 .f32 :=
  (k1_pay3 (scrAt1 V c n hn).2.1 (scrAt1 V c n hn).2.2, scrAt1 V c n hn)

/-- At the first key/value step of a query block: one step from the initial values. -/
theorem scrAt1_first (c : Dev nD) (t : Fin cfg1.N) (h0 : t.val % 16 = 0) :
    scrAt1 V c t.val t.isLt = step1 (iblk1 V c 0 t) (iblk1 V c 1 t) (iblk1 V c 2 t) init1 := by
  obtain ⟨n, hn⟩ := t
  cases n with
  | zero => exact rfl
  | succ n => exact congrArg (step1 (iblk1 V c 0 ⟨n + 1, hn⟩) (iblk1 V c 1 ⟨n + 1, hn⟩) (iblk1 V c 2 ⟨n + 1, hn⟩)) (if_pos h0)

/-- At every other step: one step from what the point before left. -/
theorem scrAt1_next (c : Dev nD) (t : Fin cfg1.N) (h0 : ¬t.val % 16 = 0) :
    scrAt1 V c t.val t.isLt = step1 (iblk1 V c 0 t) (iblk1 V c 1 t) (iblk1 V c 2 t) (scrAt1 V c (t.val - 1) (Nat.lt_of_le_of_lt (Nat.sub_le _ _) t.isLt)) := by
  obtain ⟨n, hn⟩ := t
  cases n with
  | zero => exact absurd (Nat.zero_mod _) h0
  | succ n => exact congrArg (step1 (iblk1 V c 0 ⟨n + 1, hn⟩) (iblk1 V c 1 ⟨n + 1, hn⟩) (iblk1 V c 2 ⟨n + 1, hn⟩)) (if_neg h0)

/-- `outsAt1` at a point of case A (the first key/value step). -/
theorem outsAt1_A (c : Dev nD) (t : Fin cfg1.N) (h0 : t.val % 16 = 0) :
    outsAt1 V c t.val t.isLt = (k1_pay3 (step1 (iblk1 V c 0 t) (iblk1 V c 1 t) (iblk1 V c 2 t) init1).2.1 (step1 (iblk1 V c 0 t) (iblk1 V c 1 t) (iblk1 V c 2 t) init1).2.2, step1 (iblk1 V c 0 t) (iblk1 V c 1 t) (iblk1 V c 2 t) init1) := by
  unfold outsAt1; rw [scrAt1_first V c t h0]
/-- `outsAt1` at a point of case B or C (any later key/value step): over what the point before left. -/
theorem outsAt1_B (c : Dev nD) (t : Fin cfg1.N) (h0 : ¬t.val % 16 = 0) :
    outsAt1 V c t.val t.isLt = (k1_pay3 (step1 (iblk1 V c 0 t) (iblk1 V c 1 t) (iblk1 V c 2 t) (outsAt1 V c (t.val - 1) (Nat.lt_of_le_of_lt (Nat.sub_le _ _) t.isLt)).2).2.1 (step1 (iblk1 V c 0 t) (iblk1 V c 1 t) (iblk1 V c 2 t) (outsAt1 V c (t.val - 1) (Nat.lt_of_le_of_lt (Nat.sub_le _ _) t.isLt)).2).2.2, step1 (iblk1 V c 0 t) (iblk1 V c 1 t) (iblk1 V c 2 t) (outsAt1 V c (t.val - 1) (Nat.lt_of_le_of_lt (Nat.sub_le _ _) t.isLt)).2) := by
  unfold outsAt1; rw [scrAt1_next V c t h0]
theorem outsAt1_C (c : Dev nD) (t : Fin cfg1.N) (h0 : ¬t.val % 16 = 0) (h1 : t.val % 16 = 15) :
    outsAt1 V c t.val t.isLt = (k1_pay3 (step1 (iblk1 V c 0 t) (iblk1 V c 1 t) (iblk1 V c 2 t) (outsAt1 V c (t.val - 1) (Nat.lt_of_le_of_lt (Nat.sub_le _ _) t.isLt)).2).2.1 (step1 (iblk1 V c 0 t) (iblk1 V c 1 t) (iblk1 V c 2 t) (outsAt1 V c (t.val - 1) (Nat.lt_of_le_of_lt (Nat.sub_le _ _) t.isLt)).2).2.2, step1 (iblk1 V c 0 t) (iblk1 V c 1 t) (iblk1 V c 2 t) (outsAt1 V c (t.val - 1) (Nat.lt_of_le_of_lt (Nat.sub_le _ _) t.isLt)).2) :=
  outsAt1_B V c t h0

/-! ### The same, component by component -/

/-- The output component is always the quotient of the numerator and denominator components. -/
theorem outsAt1_out (c : Dev nD) (t : Fin cfg1.N) :
    (outsAt1 V c t.val t.isLt).1 = k1_pay3 (outsAt1 V c t.val t.isLt).2.2.1 (outsAt1 V c t.val t.isLt).2.2.2 := rfl

/-- At the first key/value step of a query block, over the initial values: the maximum, -/
theorem outsAt1_A_m (c : Dev nD) (t : Fin cfg1.N) (h0 : t.val % 16 = 0) :
    (outsAt1 V c t.val t.isLt).2.1 = k1_pay2 (k1_pay9 (iblk1 V c 0 t) (iblk1 V c 1 t) k1_pay4) :=
  congrArg (fun p => p.2.1) (outsAt1_A V c t h0)
/-- the denominator, -/
theorem outsAt1_A_l (c : Dev nD) (t : Fin cfg1.N) (h0 : t.val % 16 = 0) :
    (outsAt1 V c t.val t.isLt).2.2.1 = k1_pay12 (iblk1 V c 0 t) (iblk1 V c 1 t) k1_pay4 k1_pay5 :=
  congrArg (fun p => p.2.2.1) (outsAt1_A V c t h0)
/-- the numerator. -/
theorem outsAt1_A_acc (c : Dev nD) (t : Fin cfg1.N) (h0 : t.val % 16 = 0) :
    (outsAt1 V c t.val t.isLt).2.2.2 = k1_pay1 (k1_pay13 (iblk1 V c 0 t) (iblk1 V c 1 t) k1_pay4 k1_pay6) (k1_pay14 (iblk1 V c 0 t) (iblk1 V c 1 t) k1_pay4) (iblk1 V c 2 t) :=
  congrArg (fun p => p.2.2.2) (outsAt1_A V c t h0)

/-- At any later key/value step (the last included), over what the point before left: the maximum, -/
theorem outsAt1_B_m (c : Dev nD) (t : Fin cfg1.N) (h0 : ¬t.val % 16 = 0) :
    (outsAt1 V c t.val t.isLt).2.1 = k1_pay2 (k1_pay9 (iblk1 V c 0 t) (iblk1 V c 1 t) (outsAt1 V c (t.val - 1) (Nat.lt_of_le_of_lt (Nat.sub_le _ _) t.isLt)).2.1) :=
  congrArg (fun p => p.2.1) (outsAt1_B V c t h0)
/-- the denominator, -/
theorem outsAt1_B_l (c : Dev nD) (t : Fin cfg1.N) (h0 : ¬t.val % 16 = 0) :
    (outsAt1 V c t.val t.isLt).2.2.1 = k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 :=
  congrArg (fun p => p.2.2.1) (outsAt1_B V c t h0)
/-- the numerator. -/
theorem outsAt1_B_acc (c : Dev nD) (t : Fin cfg1.N) (h0 : ¬t.val % 16 = 0) :
    (outsAt1 V c t.val t.isLt).2.2.2 = k1_pay1 (k1_pay13 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2) (k1_pay14 (iblk1 V c 0 t) (iblk1 V c 1 t) (outsAt1 V c (t.val - 1) (Nat.lt_of_le_of_lt (Nat.sub_le _ _) t.isLt)).2.1) (iblk1 V c 2 t) :=
  congrArg (fun p => p.2.2.2) (outsAt1_B V c t h0)

/-! ## The region invariant -/

/-- The invariant before position `n`: before the first point what the launch hands the region (every scoped buffer
    at anything); afterwards the three carried buffers at what the point before left in them, and the rest. -/
def PhiS1 (c : Dev nD) : (n : ℕ) → n ≤ cfg1.N → sProp 𝕄
  | 0, _ => Pipeline.ΦA spec1 c
  | n + 1, hn => iprop((owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 (F := F) c)

theorem PhiS1_succ (c : Dev nD) (n : ℕ) (hn : n < cfg1.N) :
    PhiS1 V c (n + 1) hn = iprop((owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 (F := F) c) := rfl

/-- Before a point that is not the first: the carried buffers at what the point before left. -/
theorem PhiS1_pos (c : Dev nD) (n : ℕ) (h : n ≤ cfg1.N) (hz : n ≠ 0) :
    PhiS1 V c n h = iprop((owns (c : Thread nD τ) scM1_0 fullShare (scrAt1 V c (n - 1) (by omega)).1 ∗ owns (c : Thread nD τ) scM1_1 fullShare (scrAt1 V c (n - 1) (by omega)).2.1 ∗ owns (c : Thread nD τ) scM1_2 fullShare (scrAt1 V c (n - 1) (by omega)).2.2) ∗ rest1 (F := F) c) := by
  cases n with
  | zero => exact absurd rfl hz
  | succ n => rfl

/-- Before any point the invariant hands out the three carried buffers at SOME contents, and the rest: what a body
    that overwrites them before reading them needs, and what the region gives back at its end. -/
theorem PhiS1_any (c : Dev nD) (n : ℕ) (h : n ≤ cfg1.N) :
    PhiS1 V c n h ⊢ iprop(((∃ d, owns (c : Thread nD τ) scM1_0 fullShare d) ∗ (∃ d, owns (c : Thread nD τ) scM1_1 fullShare d) ∗ (∃ d, owns (c : Thread nD τ) scM1_2 fullShare d)) ∗ rest1 (F := F) c) := by
  cases n with
  | zero => exact PhiA1_split c
  | succ n =>
    rw [PhiS1_succ]
    iintro ⟨⟨HS0, HS1, HS2⟩, Hrest⟩
    isplitr [Hrest]
    swap; · iexact Hrest
    isplitl [HS0]; · iexists _; iexact HS0
    isplitl [HS1]; · iexists _; iexact HS1
    iexists _; iexact HS2

/-! ## The pipeline's proof data -/

/-- The proof data of the pipeline on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
/-- The output's, spelled over the carried triple. -/
theorem after1_3' (c : Dev nD) (t : Fin cfg1.N) : (dat1 V c).after 3 t = k1_pay3 (scrAt1 V c t.val t.isLt).2.1 (scrAt1 V c t.val t.isLt).2.2 := by dsimp only [dat1, outsAt1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the carried buffers (at what the point before left, or at anything where the body
    overwrites them first) and takes them back at this point's contents, by the closed forms of what each case
    leaves; away from the last key/value step the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [PhiS1_castSucc V c t]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idleAt1_3 t (fun h => h1 ((hcond1_1 t).mp h))) (noFlush1_3 t (fun h => h1 ((hcond1_1 t).mp h)))]
    rw [scrAt1_first V c t h0]
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    icases HΦ' with ⟨⟨HS0, HS1, HS2⟩, Hrest⟩
    iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%e0, HS0⟩, ⟨%e1, HS1⟩, ⟨%e2, HS2⟩⟩
    isplitl [HS0 HS1 HS2 Hrest]
    · isplitr [Hrest]
      swap; · iexact Hrest
      isplitl [HS0]
      · unfold owns; iexists _; isplitr
        swap; · iexact HS0
        ipureintro; exact sread1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)  _
      isplitl [HS1]
      · unfold owns; iexists _; isplitr
        swap; · iexact HS1
        ipureintro; exact sread1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)  _
      unfold owns; iexists _; isplitr
      swap; · iexact HS2
      ipureintro; exact sread1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)  _
    isplitl [Ho]; · iexact Ho
    isplitl [H0]; · iexact H0
    isplitl [H1]; · iexact H1
    isplitl [H2]; · iexact H2
    iexists _; iexact H3
  · have hz : t.val ≠ 0 := fun h => h0 (by rw [h])
    rw [PhiS1_pos V c _ _ hz, scrAt1_next V c t h0]
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3', scrAt1_next V c t h0]
      iintro ⟨⟨⟨HS0, HS1, HS2⟩, Hrest⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HS0 HS1 HS2 Hrest]
      · isplitr [Hrest]
        swap; · iexact Hrest
        isplitl [HS0]
        · unfold owns; iexists _; isplitr
          swap; · iexact HS0
          ipureintro; exact sread1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
        isplitl [HS1]
        · unfold owns; iexists _; isplitr
          swap; · iexact HS1
          ipureintro; exact sread1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
        unfold owns; iexists _; isplitr
        swap; · iexact HS2
        ipureintro; exact sread1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
      isplitl [Ho]; · iexact Ho
      isplitl [H0]; · iexact H0
      isplitl [H1]; · iexact H1
      isplitl [H2]; · iexact H2
      unfold owns; iexists _; isplitr
      swap; · iexact H3
      ipureintro; exact sread1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
    · rw [Dat.leavesExact_idle (dat1 V c) 3 t (idleAt1_3 t (fun h => h1 ((hcond1_1 t).mp h))) (noFlush1_3 t (fun h => h1 ((hcond1_1 t).mp h)))]
      iintro ⟨⟨⟨HS0, HS1, HS2⟩, Hrest⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 Hrest]
      · isplitr [Hrest]
        swap; · iexact Hrest
        isplitl [HS0]
        · unfold owns; iexists _; isplitr
          swap; · iexact HS0
          ipureintro; exact sread1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
        isplitl [HS1]
        · unfold owns; iexists _; isplitr
          swap; · iexact HS1
          ipureintro; exact sread1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
        unfold owns; iexists _; isplitr
        swap; · iexact HS2
        ipureintro; exact sread1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2 _
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl]
  exact Idealize.SL.BI.Entails.refl _

/-- After the last point the invariant gives it back: the carried buffers' named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact (PhiS1_any V c _ _).trans (PhiA1_join c)

end Cert.KernelIdeal.Hand

end
-- ==== Proof.KI.Run.lean ====
/-
  The whole run of @main, at any float instance: four stretches of host operations around three kernel regions
  (the QKV projection, the attention, the output projection). Between two items every unscoped buffer of the
  TensorCore is held at a named valuation: the launch memory, then each host stretch's operations applied, then each
  region's arrays replaced by what its pipeline's write-backs leave. The run's post-condition reads every unscoped
  buffer at the last of these valuations, so both the frame (the arguments come back as launched: no item writes one)
  and the result's value are read off it.
-/
import proofs.«106544_j89970974917189_2_alg».proof.Proof.KI.Reg0
import proofs.«106544_j89970974917189_2_alg».proof.Proof.KI.Reg2
import proofs.«106544_j89970974917189_2_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first host stretch (the flattening, the transposes, the format changes): the QKV projection's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b

/-- At region 0's exit: its arrays at what the pipeline's write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the split into heads, queries, keys and values): the attention's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b

/-- At region 1's exit: its arrays at what the pipeline's write-backs leave, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the third host stretch (the heads merged back): the output projection's entry. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b

/-- At region 2's exit: its arrays at what the pipeline's write-backs leave, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the last host stretch (the result reshaped): the contents at the return. -/
abbrev B7 : Dev nD → Valuation τ sig (Elt F) := fun c => StableHlo.after hostOps3 (B6 m ρ c)

/-! ## The proof data family and the thread state -/

abbrev adm : (p : Fin 3) → (pcfgs (F := F) p).Adm := fun p => (cfgs p).toPCfg_adm
/-- Every pipeline's proof data, each at its region's entry contents: a literal match on the pipeline. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := StableHlo.held (c : Thread nD τ) (Pipeline.ucRefs τ sig) (B7 m ρ c)

/-! ## The regions as segments -/

set_option backward.isDefEq.respectTransparency.types false in
/-- Region 0 over the thread state: entered with every unscoped buffer at `B1`, left at `B2`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `B3`, left at `B4`. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (E3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ (Pipeline.ΦA spec1 c : sProp 𝕄) := hout1 (E3 m ρ) c
    unfold Pipeline.ΦA at h
    iintro Hq
    ihave H := h $$ Hq
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `B5`, left at `B6`. Its arrays are
    split out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (B0 m ρ)),
    .region (reg0 m ρ),
    .host (hseg hostOps1 hostOps1_sub hostOps1_fresh' (B2 m ρ)),
    .region (reg1 m ρ),
    .host (hseg hostOps2 hostOps2_sub hostOps2_fresh' (B4 m ρ)),
    .region (reg2 m ρ),
    .host (hseg hostOps3 hostOps3_sub hostOps3_fresh' (B6 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨Hh, HSI⟩
      unfold Tₙ StableHlo.held
      imodintro
      iapply (pointsTo_read_all (Pipeline.ucRefs τ sig) (fun b => (((c : Thread nD τ)).1, b)) (B7 m ρ c) s')
      isplitl [Hh] <;> iassumption)
    (hQ := fun s h c => h c)

end Cert.KernelIdeal.Hand

end
-- ==== Proof.KI.Frame.lean ====
/-
  What the run leaves, read off its last valuation: no host operation and no region writes an argument array (a region
  reads them only through host copies), so each argument walks back through every boundary to the launch memory; the
  result buffer is the last valuation's.
-/
import proofs.«106544_j89970974917189_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- A buffer that none of a host stretch's operations writes holds after the stretch what it held before. -/
macro "keeps " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := by keeps hostOps3
    _ = B5 m ρ c (Proc.devRef .tc main_arg0) := B6_of_ne m ρ c main_arg0 (by decide)
    _ = B4 m ρ c (Proc.devRef .tc main_arg0) := by keeps hostOps2
    _ = B3 m ρ c (Proc.devRef .tc main_arg0) := B4_of_ne m ρ c main_arg0 (by decide)
    _ = B2 m ρ c (Proc.devRef .tc main_arg0) := by keeps hostOps1
    _ = B1 m ρ c (Proc.devRef .tc main_arg0) := B2_of_ne m ρ c main_arg0 (by decide)
    _ = B0 m ρ c (Proc.devRef .tc main_arg0) := by keeps hostOps0
    _ = m ((c : Thread nD τ).loc main_arg0) := rfl

theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := by keeps hostOps3
    _ = B5 m ρ c (Proc.devRef .tc main_arg1) := B6_of_ne m ρ c main_arg1 (by decide)
    _ = B4 m ρ c (Proc.devRef .tc main_arg1) := by keeps hostOps2
    _ = B3 m ρ c (Proc.devRef .tc main_arg1) := B4_of_ne m ρ c main_arg1 (by decide)
    _ = B2 m ρ c (Proc.devRef .tc main_arg1) := by keeps hostOps1
    _ = B1 m ρ c (Proc.devRef .tc main_arg1) := B2_of_ne m ρ c main_arg1 (by decide)
    _ = B0 m ρ c (Proc.devRef .tc main_arg1) := by keeps hostOps0
    _ = m ((c : Thread nD τ).loc main_arg1) := rfl

theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := by keeps hostOps3
    _ = B5 m ρ c (Proc.devRef .tc main_arg2) := B6_of_ne m ρ c main_arg2 (by decide)
    _ = B4 m ρ c (Proc.devRef .tc main_arg2) := by keeps hostOps2
    _ = B3 m ρ c (Proc.devRef .tc main_arg2) := B4_of_ne m ρ c main_arg2 (by decide)
    _ = B2 m ρ c (Proc.devRef .tc main_arg2) := by keeps hostOps1
    _ = B1 m ρ c (Proc.devRef .tc main_arg2) := B2_of_ne m ρ c main_arg2 (by decide)
    _ = B0 m ρ c (Proc.devRef .tc main_arg2) := by keeps hostOps0
    _ = m ((c : Thread nD τ).loc main_arg2) := rfl

/-- THE FRAME, at any float instance: every weakly fair execution of @main terminates, nothing faulting, with the
    three argument arrays as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c)⟩) (run_all m ρ)

/-- The same run with the result buffer named: it ends at the last valuation's contents of the result. -/
theorem value_run : θ_run defs (onTc (τ := τ) (main (F := F))) ⟨m, fun _ => 0, ρ⟩ (fun r => ∀ c : Dev nD,
      r.2.mem ((c.tc : Thread nD τ).loc main_v23) = B7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v23 (by decide)),
     (h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c)⟩) (run_all m ρ)

end Cert.KernelIdeal.Hand

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.KI.MatmulValue.lean ====
import proofs.«106544_j89970974917189_2_alg».proof.Proof.KI.Reg0
import proofs.«106544_j89970974917189_2_alg».proof.Proof.KI.Reg2
import proofs.«106544_j89970974917189_2_alg».proof.Proof.LibMatmulNN
import Idealize.ShloMosaic.Lib.Pipeline.Value
import Idealize.ShloMosaic.Lib.ValueIdx
import Idealize.ShloMosaic.PureOps.Ideal.Laws

/-! # The two matrix-product regions' output blocks, read at an index on the extended reals

Each body stores, over its whole output block, the product of its two input blocks accumulated into zero (region 0
then narrows the float format, which changes nothing on the extended reals). So entry `(p, q)` of the output block
is `∑ k, x0[p, k] · x1[k, q]`. -/

set_option maxRecDepth 16384

noncomputable section

open scoped BigOperators

namespace Cert.KernelIdeal.Hand

open Cert.KernelIdeal Cert.KernelIdeal.Gen
open Idealize.ShloMosaic Idealize.ShloMosaic.ValueIdx

/-- The zero offsets of a rank-2 whole-block access. -/
theorem zero_off2 : (![0, 0] : Fin 2 → Nat) = fun _ => 0 := funext fun a => by fin_cases a <;> rfl

/-- Region 0: entry `(p, q)` of the output block is the sum over `k` of `x0[p, k] · x1[k, q]`. -/
theorem out0_2_apply (x0 : FVec Ideal S512x1024 .bf16) (x1 : FVec Ideal S1024x768 .bf16) (p : Fin 512) (q : Fin 768) :
    out0_2 (F := Ideal) x0 x1 (ix2 p q) = ∑ k : Fin 1024, x0 (ix2 p k) * x1 (ix2 k q) := by
  unfold out0_2
  rw [View.canon_unit_zero zero_off2]
  simp only [View.ld_unit_zero (S := S512x1024) zero_off2, View.ld_unit_zero (S := S1024x768) zero_off2]
  unfold k0_pay1
  simp only [shapeCast_self]
  exact LibMatmulNN.matmul_zero_apply 512 1024 768 none x0 x1 p q

/-- Region 2: entry `(p, q)` of the output block is the sum over `k` of `x0[p, k] · x1[k, q]`. -/
theorem out2_2_apply (x0 : FVec Ideal S512x1024 .bf16) (x1 : FVec Ideal S1024x1024 .bf16) (p : Fin 512) (q : Fin 1024) :
    out2_2 (F := Ideal) x0 x1 (ix2 p q) = ∑ k : Fin 1024, x0 (ix2 p k) * x1 (ix2 k q) := by
  unfold out2_2
  rw [View.canon_unit_zero zero_off2]
  simp only [View.ld_unit_zero (S := S512x1024) zero_off2, View.ld_unit_zero (S := S1024x1024) zero_off2]
  unfold k2_pay1
  simp only [shapeCast_self]
  exact LibMatmulNN.matmul_zero_apply 512 1024 1024 none x0 x1 p q

end Cert.KernelIdeal.Hand

end
-- ==== Proof.KI.MatmulArrays.lean ====
import proofs.«106544_j89970974917189_2_alg».proof.Proof.KI.Reg0
import proofs.«106544_j89970974917189_2_alg».proof.Proof.KI.Reg2
import proofs.«106544_j89970974917189_2_alg».proof.Proof.KI.MatmulValue
import Idealize.ShloMosaic.Lib.Pipeline.Value
import Idealize.ShloMosaic.Lib.ValueIdx

/-! # The two matrix-product regions: from the blocks to the whole output array, on the extended reals

Region 0 runs over an 8 × 4 grid; at grid point `(i, j)` it reads row block `i` (512 rows, all 1024 columns) of the
left array and column block `j` (all 1024 rows, 768 columns) of the right array, and writes block `(i, j)`
(512 × 768) of the output. Entry `(p, q)` of that block is `∑ k, left[512 i + p, k] · right[k, 768 j + q]`, which is
entry `(512 i + p, 768 j + q)` of the full product. The 32 blocks tile the 4096 × 3072 output, so the output array
ends holding the full product `G0`. Region 2 is the same over an 8 × 1 grid of 512 × 1024 blocks. -/

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when a region is entered
variable (V : (c : Dev nD) → (b : Ref sig .tc) → Buf (Elt Ideal) ((c : Thread nD τ).loc b))

/-! ## Region 0 -/

/-- The full product: entry `(p, q)` is the sum over `k` of `A[p, k] · Bm[k, q]`. -/
def G0 (A : S4096x1024.Idx → EReal) (Bm : S1024x3072.Idx → EReal) : S4096x3072.Idx → EReal :=
  fun i => ∑ k : Fin 1024, A (ix2 (i 0 : Fin 4096) k) * Bm (ix2 k (i 1 : Fin 3072))

theorem G0_apply (A : S4096x1024.Idx → EReal) (Bm : S1024x3072.Idx → EReal) (p : Fin 4096) (q : Fin 3072) :
    G0 A Bm (ix2 p q) = ∑ k : Fin 1024, A (ix2 p k) * Bm (ix2 k q) := rfl

/-- The block index maps, decided over the grid: the left window's row block is the output's and its column block
    is 0; the right window's row block is 0 and its column block is the output's; the output's block indices stay
    in their ranges. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 3 :=
  (by decide +kernel : ∀ t : Fin grid0.N, _)

/-- Every block of the output is some grid point's. -/
theorem idx_onto0 : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What grid point `t` writes back is block `t` of the full product of the two arrays as the region finds them. -/
theorem flushed0_eq (c : Dev nD) (t : Fin cfg0.N) :
    (dat0 (F := Ideal) V c).flushed 2 t = ((cfg0.win 2).blk t).view.read (Elt Ideal) (G0 (V c main_v1) (V c main_v3)) := by
  show (cfg0.win 2).cut (grid0.coords t) ((dat0 (F := Ideal) V c).after 2 t) = _
  rw [after0_2]
  obtain ⟨e0, e1, e2, e3, e4, e5⟩ := idx_facts0 t
  funext j
  obtain ⟨p, q, rfl⟩ : ∃ (p : Fin 512) (q : Fin 768), j = ix2 p q := ⟨j 0, j 1, eq_ix2 j⟩
  refine (out0_2_apply (iblk0 V c 0 t) (iblk0 V c 1 t) p q).trans ?_
  show _ = G0 (V c main_v1) (V c main_v3) (((cfg0.win 2).blk t).view.emb (ix2 p q))
  unfold G0
  refine Finset.sum_congr rfl fun k _ => ?_
  have h0 : ((cfg0.win 0).blk t).view.emb (ix2 p k)
      = ix2 ((((cfg0.win 2).blk t).view.emb (ix2 p q)) 0 : Fin 4096) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have h1 : ((cfg0.win 1).blk t).view.emb (ix2 k q)
      = ix2 k ((((cfg0.win 2).blk t).view.emb (ix2 p q)) 1 : Fin 3072) := by
    funext a; apply Fin.ext
    match a with
    | ⟨0, _⟩ => show win0_1.index t (0 : Fin 2) * 1024 + 1 * k.val = k.val; omega
    | ⟨1, _⟩ => show win0_1.index t (1 : Fin 2) * 768 + 1 * q.val = win0_2.index t (1 : Fin 2) * 768 + 1 * q.val; omega
  exact congrArg₂ (fun x y : EReal => x * y) (congrArg (V c main_v1) h0) (congrArg (V c main_v3) h1)

/-- An index of the output array is in point `t`'s block iff each coordinate is in the block's range on its axis. -/
theorem mem_blk0 (t : Fin cfg0.N) (i : S4096x3072.Idx) :
    i ∈ ((cfg0.win 2).blk t).view.set ↔ ∀ a : Fin 2, win0_2.index t a * S512x768.size a ≤ (i a).val ∧ (i a).val < win0_2.index t a * S512x768.size a + S512x768.size a := by
  show i ∈ ((View.whole main_v6).slice (win0_2.rect t)).set ↔ _
  rw [View.set_slice_whole, Rect.mem_set_unit]
  exact Iff.rfl

/-- Every index of the output array is in some grid point's block: the blocks tile it. -/
theorem cover0 (i : S4096x3072.Idx) : ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto0 ⟨(i 0).val / 512, by omega⟩ ⟨(i 1).val / 768, by omega⟩
  have q0 : win0_2.index t (0 : Fin 2) = (i 0).val / 512 := congrFun ht 0
  have q1 : win0_2.index t (1 : Fin 2) = (i 1).val / 768 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 768 ≤ (i 1).val ∧ (i 1).val < win0_2.index t (1 : Fin 2) * 768 + 768; omega

/-- The output array after the region: the full product of the two input arrays as the region finds them. -/
theorem final0 (c : Dev nD) : (dat0 (F := Ideal) V c).arrAt 2 cfg0.N = G0 (V c main_v1) (V c main_v3) :=
  (dat0 (F := Ideal) V c).arrAt_eq_of_cover 2 (G0 (V c main_v1) (V c main_v3)) (fun t _ => flushed0_eq V c t) cover0

/-! ## Region 2 -/

/-- The full product: entry `(p, q)` is the sum over `k` of `A[p, k] · Bm[k, q]`. -/
def G2 (A : S4096x1024.Idx → EReal) (Bm : S1024x1024.Idx → EReal) : S4096x1024.Idx → EReal :=
  fun i => ∑ k : Fin 1024, A (ix2 (i 0 : Fin 4096) k) * Bm (ix2 k (i 1 : Fin 1024))

theorem G2_apply (A : S4096x1024.Idx → EReal) (Bm : S1024x1024.Idx → EReal) (p : Fin 4096) (q : Fin 1024) :
    G2 A Bm (ix2 p q) = ∑ k : Fin 1024, A (ix2 p k) * Bm (ix2 k q) := rfl

/-- The block index maps, decided over the grid: the left window's row block is the output's and its column block
    is 0; the right window's row block is 0 and its column block is the output's; the output's block indices stay
    in their ranges. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 7 ∧ win2_2.index t (1 : Fin 2) ≤ 0 :=
  (by decide +kernel : ∀ t : Fin grid2.N, _)

/-- Every block of the output is some grid point's. -/
theorem idx_onto2 : ∀ (q0 : Fin 8) (q1 : Fin 1), ∃ t : Fin cfg2.N, win2_2.index t = ![q0.val, q1.val] :=
  (by decide +kernel : ∀ (q0 : Fin 8) (q1 : Fin 1), ∃ t : Fin grid2.N, win2_2.index t = ![q0.val, q1.val])

/-- What grid point `t` writes back is block `t` of the full product of the two arrays as the region finds them. -/
theorem flushed2_eq (c : Dev nD) (t : Fin cfg2.N) :
    (dat2 (F := Ideal) V c).flushed 2 t = ((cfg2.win 2).blk t).view.read (Elt Ideal) (G2 (V c main_v21) (V c main_v5)) := by
  show (cfg2.win 2).cut (grid2.coords t) ((dat2 (F := Ideal) V c).after 2 t) = _
  rw [after2_2]
  obtain ⟨e0, e1, e2, e3, e4, e5⟩ := idx_facts2 t
  funext j
  obtain ⟨p, q, rfl⟩ : ∃ (p : Fin 512) (q : Fin 1024), j = ix2 p q := ⟨j 0, j 1, eq_ix2 j⟩
  refine (out2_2_apply (iblk2 V c 0 t) (iblk2 V c 1 t) p q).trans ?_
  show _ = G2 (V c main_v21) (V c main_v5) (((cfg2.win 2).blk t).view.emb (ix2 p q))
  unfold G2
  refine Finset.sum_congr rfl fun k _ => ?_
  have h0 : ((cfg2.win 0).blk t).view.emb (ix2 p k)
      = ix2 ((((cfg2.win 2).blk t).view.emb (ix2 p q)) 0 : Fin 4096) k := by
    funext a; apply Fin.ext
    match a with
    | ⟨0, _⟩ => show win2_0.index t (0 : Fin 2) * 512 + 1 * p.val = win2_2.index t (0 : Fin 2) * 512 + 1 * p.val; omega
    | ⟨1, _⟩ => show win2_0.index t (1 : Fin 2) * 1024 + 1 * k.val = k.val; omega
  have h1 : ((cfg2.win 1).blk t).view.emb (ix2 k q)
      = ix2 k ((((cfg2.win 2).blk t).view.emb (ix2 p q)) 1 : Fin 1024) := by
    funext a; apply Fin.ext
    match a with
    | ⟨0, _⟩ => show win2_1.index t (0 : Fin 2) * 1024 + 1 * k.val = k.val; omega
    | ⟨1, _⟩ => show win2_1.index t (1 : Fin 2) * 1024 + 1 * q.val = win2_2.index t (1 : Fin 2) * 1024 + 1 * q.val; omega
  exact congrArg₂ (fun x y : EReal => x * y) (congrArg (V c main_v21) h0) (congrArg (V c main_v5) h1)

/-- An index of the output array is in point `t`'s block iff each coordinate is in the block's range on its axis. -/
theorem mem_blk2 (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v22).slice (win2_2.rect t)).set ↔ _
  rw [View.set_slice_whole, Rect.mem_set_unit]
  exact Iff.rfl

/-- Every index of the output array is in some grid point's block: the blocks tile it. -/
theorem cover2 (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := idx_onto2 ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The output array after the region: the full product of the two input arrays as the region finds them. -/
theorem final2 (c : Dev nD) : (dat2 (F := Ideal) V c).arrAt 2 cfg2.N = G2 (V c main_v21) (V c main_v5) :=
  (dat2 (F := Ideal) V c).arrAt_eq_of_cover 2 (G2 (V c main_v21) (V c main_v5)) (fun t _ => flushed2_eq V c t) cover2

end Cert.KernelIdeal.Hand

end
-- ==== Proof.KI.HostGlue.lean ====
import proofs.«106544_j89970974917189_2_alg».proof.Proof.Gen.KernelIdeal.Launch
import Idealize.ShloMosaic.Lib.StableHlo.Run
import Idealize.ShloMosaic.Lib.Pipeline.Value
import Idealize.ShloMosaic.Lib.ValueIdx

/-! # The host stretches of @main, read at an index on the extended reals

Between the regions @main only re-lays arrays out (reshapes, transposes, slices) and narrows float formats, which
changes nothing on the extended reals. For ANY contents `W` at the start of a stretch, each array the next region
reads is therefore one of `W`'s arrays read at a permuted index. With rows `b·2048 + s` (batch `b`, position `s`),
heads `b·16 + n`, and feature columns `j·1024 + n·64 + d` (projection `j`, head `n`, feature `d`). -/

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-! ## Coordinates -/

/-- Row `b·2048 + s` of a [4096, ·] array: batch `b`, position `s`. -/
abbrev rowOf (b : Fin 2) (s : Fin 2048) : Fin 4096 := ⟨b.val * 2048 + s.val, by have := b.isLt; have := s.isLt; omega⟩
/-- Head `b·16 + n` of a [32, ·, ·] array: batch `b`, head `n`. -/
abbrev headOf (b : Fin 2) (n : Fin 16) : Fin 32 := ⟨b.val * 16 + n.val, by have := b.isLt; have := n.isLt; omega⟩
/-- Column `n·64 + d` of a [·, 1024] array: head `n`, feature `d`. -/
abbrev featOf (n : Fin 16) (d : Fin 64) : Fin 1024 := ⟨n.val * 64 + d.val, by have := n.isLt; have := d.isLt; omega⟩
/-- Column `j·1024 + n·64 + d` of a [·, 3072] array: projection `j`, head `n`, feature `d`. -/
abbrev projOf (j : Fin 3) (n : Fin 16) (d : Fin 64) : Fin 3072 := ⟨j.val * 1024 + n.val * 64 + d.val, by have := j.isLt; have := n.isLt; have := d.isLt; omega⟩

-- the contents at the start of a stretch
variable (W : Valuation τ sig (Elt Ideal))

/-! ## The first stretch: the three arrays region 0 and region 2 read -/

/-- The flattened, narrowed activations. -/
theorem host0_v1_term : StableHlo.after (hostOps0 (F := Ideal)) W (Proc.devRef .tc main_v1)
    = truncf (F := Ideal) .bf16 (shapeCast (s := S2x2048x1024) (α := EReal) S4096x1024 (W (Proc.devRef .tc main_arg0)) shapeCasts_S2x2048x1024_S4096x1024) bitsLt_bf16_f32 := by
  after_results <;> rfl

/-- Row `b·2048 + s`, column `k` of the flattened activations is entry `(b, s, k)` of the argument. -/
theorem host0_v1_apply (b : Fin 2) (s : Fin 2048) (k : Fin 1024) :
    StableHlo.after (hostOps0 (F := Ideal)) W (Proc.devRef .tc main_v1) (ix2 (rowOf b s) k)
      = W (Proc.devRef .tc main_arg0) (ix3 b s k) := by
  rw [host0_v1_term]
  show shapeCast (s := S2x2048x1024) (α := EReal) S4096x1024 (W (Proc.devRef .tc main_arg0)) shapeCasts_S2x2048x1024_S4096x1024 (ix2 (rowOf b s) k) = _
  exact shapeCast_apply _ _ _ (ix3 b s k) (by rw [Shape.rowMajor_val_three, Shape.rowMajor_val_two]; rfl)

/-- The transposed, narrowed first weight. -/
theorem host0_v3_term : StableHlo.after (hostOps0 (F := Ideal)) W (Proc.devRef .tc main_v3)
    = truncf (F := Ideal) .bf16 (transpose (s := S3072x1024) (α := EReal) S1024x3072 [1, 0] (W (Proc.devRef .tc main_arg1)) transposes_S3072x1024_S1024x3072_1_0) bitsLt_bf16_f32 := by
  after_results <;> rfl

/-- Entry `(k, o)` of the transposed first weight is entry `(o, k)` of the argument. -/
theorem host0_v3_apply (k : Fin 1024) (o : Fin 3072) :
    StableHlo.after (hostOps0 (F := Ideal)) W (Proc.devRef .tc main_v3) (ix2 k o)
      = W (Proc.devRef .tc main_arg1) (ix2 o k) := by
  rw [host0_v3_term]
  show transpose (s := S3072x1024) (α := EReal) S1024x3072 [1, 0] (W (Proc.devRef .tc main_arg1)) transposes_S3072x1024_S1024x3072_1_0 (ix2 k o) = _
  exact transpose_apply [1, 0] _ _ _ (ix2 o k) (fun a => match a with
    | ⟨0, _⟩ => rfl
    | ⟨1, _⟩ => rfl)

/-- The transposed, narrowed second weight. -/
theorem host0_v5_term : StableHlo.after (hostOps0 (F := Ideal)) W (Proc.devRef .tc main_v5)
    = truncf (F := Ideal) .bf16 (transpose (s := S1024x1024) (α := EReal) S1024x1024 [1, 0] (W (Proc.devRef .tc main_arg2)) transposes_S1024x1024_S1024x1024_1_0) bitsLt_bf16_f32 := by
  after_results <;> rfl

/-- Entry `(k, j)` of the transposed second weight is entry `(j, k)` of the argument. -/
theorem host0_v5_apply (k : Fin 1024) (j : Fin 1024) :
    StableHlo.after (hostOps0 (F := Ideal)) W (Proc.devRef .tc main_v5) (ix2 k j)
      = W (Proc.devRef .tc main_arg2) (ix2 j k) := by
  rw [host0_v5_term]
  show transpose (s := S1024x1024) (α := EReal) S1024x1024 [1, 0] (W (Proc.devRef .tc main_arg2)) transposes_S1024x1024_S1024x1024_1_0 (ix2 k j) = _
  exact transpose_apply [1, 0] _ _ _ (ix2 j k) (fun a => match a with
    | ⟨0, _⟩ => rfl
    | ⟨1, _⟩ => rfl)

/-! ## The second stretch: queries, keys and values per head -/

/-- One projection as a [32, 2048, 64] array, from the [4096, 3072] product `X`: split the columns as
    projection × head × feature, bring projection, batch, head to the front, take the projection at offset `off0`,
    and merge batch and head. -/
abbrev headsTerm (off0 : Nat) (hs : S3x2x16x2048x64.Slices ![off0, 0, 0, 0, 0] S1x2x16x2048x64) (X : S4096x3072.Idx → EReal) : S32x2048x64.Idx → EReal :=
  shapeCast S32x2048x64 (shapeCast S2x16x2048x64 (extractStridedSlice S1x2x16x2048x64 ![off0, 0, 0, 0, 0]
    (transpose S3x2x16x2048x64 [2, 0, 3, 1, 4] (shapeCast S2x2048x3x16x64 X shapeCasts_S4096x3072_S2x2048x3x16x64)
      transposes_S2x2048x3x16x64_S3x2x16x2048x64_2_0_3_1_4) hs) shapeCasts_S1x2x16x2048x64_S2x16x2048x64) shapeCasts_S2x16x2048x64_S32x2048x64

/-- Head `b·16 + n`, position `s`, feature `d` of the projection at offset `j` is row `b·2048 + s`, column
    `j·1024 + n·64 + d` of the product. -/
theorem headsTerm_apply (j : Fin 3) (hs : S3x2x16x2048x64.Slices ![j.val, 0, 0, 0, 0] S1x2x16x2048x64) (X : S4096x3072.Idx → EReal)
    (b : Fin 2) (n : Fin 16) (s : Fin 2048) (d : Fin 64) :
    headsTerm j.val hs X (ix3 (headOf b n) s d) = X (ix2 (rowOf b s) (projOf j n d)) := by
  have hb := b.isLt; have hn := n.isLt; have hs' := s.isLt; have hd := d.isLt; have hj := j.isLt
  unfold headsTerm
  refine (shapeCast_apply _ shapeCasts_S2x16x2048x64_S32x2048x64 (ix3 (headOf b n) s d) (ix4 b n s d) (by
    rw [Shape.rowMajor_val_four, Shape.rowMajor_val_three]; rfl)).trans ?_
  refine (shapeCast_apply _ shapeCasts_S1x2x16x2048x64_S2x16x2048x64 (ix4 b n s d) (ix5 (0 : Fin 1) b n s d) (by
    rw [Shape.rowMajor_val_five, Shape.rowMajor_val_four]
    show ((((0 * 2 + b.val) * 16 + n.val) * 2048 + s.val) * 64 + d.val) = ((b.val * 16 + n.val) * 2048 + s.val) * 64 + d.val
    omega)).trans ?_
  refine (extractStridedSlice_apply ![j.val, 0, 0, 0, 0] _ hs (ix5 (0 : Fin 1) b n s d) (ix5 j b n s d) (fun a => match a with
    | ⟨0, _⟩ => by show j.val = j.val + 0; omega
    | ⟨1, _⟩ => by show b.val = 0 + b.val; omega
    | ⟨2, _⟩ => by show n.val = 0 + n.val; omega
    | ⟨3, _⟩ => by show s.val = 0 + s.val; omega
    | ⟨4, _⟩ => by show d.val = 0 + d.val; omega)).trans ?_
  refine (transpose_apply [2, 0, 3, 1, 4] _ transposes_S2x2048x3x16x64_S3x2x16x2048x64_2_0_3_1_4 (ix5 j b n s d) (ix5 b s j n d) (fun a => match a with
    | ⟨0, _⟩ => rfl
    | ⟨1, _⟩ => rfl
    | ⟨2, _⟩ => rfl
    | ⟨3, _⟩ => rfl
    | ⟨4, _⟩ => rfl)).trans ?_
  exact shapeCast_apply X shapeCasts_S4096x3072_S2x2048x3x16x64 (ix5 b s j n d) (ix2 (rowOf b s) (projOf j n d)) (by
    rw [Shape.rowMajor_val_two, Shape.rowMajor_val_five]
    show (b.val * 2048 + s.val) * 3072 + (j.val * 1024 + n.val * 64 + d.val) = ((((b.val * 2048 + s.val) * 3 + j.val) * 16 + n.val) * 64 + d.val)
    omega)

/-- The queries, keys and values the attention region reads, as terms of the product array. -/
theorem host1_v15_term : StableHlo.after (hostOps1 (F := Ideal)) W (Proc.devRef .tc main_v15)
    = headsTerm 0 slices_S3x2x16x2048x64_S1x2x16x2048x64_0_0_0_0_0 (W (Proc.devRef .tc main_v6)) := by
  after_results <;> rfl
theorem host1_v16_term : StableHlo.after (hostOps1 (F := Ideal)) W (Proc.devRef .tc main_v16)
    = headsTerm 1 slices_S3x2x16x2048x64_S1x2x16x2048x64_1_0_0_0_0 (W (Proc.devRef .tc main_v6)) := by
  after_results <;> rfl
theorem host1_v17_term : StableHlo.after (hostOps1 (F := Ideal)) W (Proc.devRef .tc main_v17)
    = headsTerm 2 slices_S3x2x16x2048x64_S1x2x16x2048x64_2_0_0_0_0 (W (Proc.devRef .tc main_v6)) := by
  after_results <;> rfl

/-- Queries: head `b·16 + n`, position `s`, feature `d` is row `b·2048 + s`, column `n·64 + d` of the product. -/
theorem host1_v15_apply (b : Fin 2) (n : Fin 16) (s : Fin 2048) (d : Fin 64) :
    StableHlo.after (hostOps1 (F := Ideal)) W (Proc.devRef .tc main_v15) (ix3 (headOf b n) s d)
      = W (Proc.devRef .tc main_v6) (ix2 (rowOf b s) (projOf 0 n d)) := by
  rw [host1_v15_term]
  exact headsTerm_apply (0 : Fin 3) slices_S3x2x16x2048x64_S1x2x16x2048x64_0_0_0_0_0 _ b n s d
/-- Keys: the same at column `1024 + n·64 + d`. -/
theorem host1_v16_apply (b : Fin 2) (n : Fin 16) (s : Fin 2048) (d : Fin 64) :
    StableHlo.after (hostOps1 (F := Ideal)) W (Proc.devRef .tc main_v16) (ix3 (headOf b n) s d)
      = W (Proc.devRef .tc main_v6) (ix2 (rowOf b s) (projOf 1 n d)) := by
  rw [host1_v16_term]
  exact headsTerm_apply (1 : Fin 3) slices_S3x2x16x2048x64_S1x2x16x2048x64_1_0_0_0_0 _ b n s d
/-- Values: the same at column `2048 + n·64 + d`. -/
theorem host1_v17_apply (b : Fin 2) (n : Fin 16) (s : Fin 2048) (d : Fin 64) :
    StableHlo.after (hostOps1 (F := Ideal)) W (Proc.devRef .tc main_v17) (ix3 (headOf b n) s d)
      = W (Proc.devRef .tc main_v6) (ix2 (rowOf b s) (projOf 2 n d)) := by
  rw [host1_v17_term]
  exact headsTerm_apply (2 : Fin 3) slices_S3x2x16x2048x64_S1x2x16x2048x64_2_0_0_0_0 _ b n s d

/-! ## The third stretch: the attention output back to rows × features -/

/-- The attention output as a [4096, 1024] array: split heads into batch × head, swap head and position, merge. -/
theorem host2_v21_term : StableHlo.after (hostOps2 (F := Ideal)) W (Proc.devRef .tc main_v21)
    = shapeCast S4096x1024 (transpose S2x2048x16x64 [0, 2, 1, 3]
        (shapeCast (s := S32x2048x64) (α := EReal) S2x16x2048x64 (W (Proc.devRef .tc main_v18)) shapeCasts_S32x2048x64_S2x16x2048x64)
        transposes_S2x16x2048x64_S2x2048x16x64_0_2_1_3) shapeCasts_S2x2048x16x64_S4096x1024 := by
  after_results <;> rfl

/-- Row `b·2048 + s`, column `n·64 + d` of it is head `b·16 + n`, position `s`, feature `d` of the attention output. -/
theorem host2_v21_apply (b : Fin 2) (n : Fin 16) (s : Fin 2048) (d : Fin 64) :
    StableHlo.after (hostOps2 (F := Ideal)) W (Proc.devRef .tc main_v21) (ix2 (rowOf b s) (featOf n d))
      = W (Proc.devRef .tc main_v18) (ix3 (headOf b n) s d) := by
  have hb := b.isLt; have hn := n.isLt; have hs' := s.isLt; have hd := d.isLt
  rw [host2_v21_term]
  refine (shapeCast_apply _ shapeCasts_S2x2048x16x64_S4096x1024 (ix2 (rowOf b s) (featOf n d)) (ix4 b s n d) (by
    rw [Shape.rowMajor_val_four, Shape.rowMajor_val_two]
    show ((b.val * 2048 + s.val) * 16 + n.val) * 64 + d.val = (b.val * 2048 + s.val) * 1024 + (n.val * 64 + d.val)
    omega)).trans ?_
  refine (transpose_apply [0, 2, 1, 3] _ transposes_S2x16x2048x64_S2x2048x16x64_0_2_1_3 (ix4 b s n d) (ix4 b n s d) (fun a => match a with
    | ⟨0, _⟩ => rfl
    | ⟨1, _⟩ => rfl
    | ⟨2, _⟩ => rfl
    | ⟨3, _⟩ => rfl)).trans ?_
  exact shapeCast_apply _ shapeCasts_S32x2048x64_S2x16x2048x64 (ix4 b n s d) (ix3 (headOf b n) s d) (by
    rw [Shape.rowMajor_val_three, Shape.rowMajor_val_four]; rfl)

/-! ## The last stretch: the result back to batch × position × feature -/

theorem host3_v23_term : StableHlo.after (hostOps3 (F := Ideal)) W (Proc.devRef .tc main_v23)
    = shapeCast (s := S4096x1024) (α := EReal) S2x2048x1024 (W (Proc.devRef .tc main_v22)) shapeCasts_S4096x1024_S2x2048x1024 := by
  after_results <;> rfl

/-- Entry `(b, s, j)` of the result is row `b·2048 + s`, column `j` of the second product. -/
theorem host3_v23_apply (b : Fin 2) (s : Fin 2048) (j : Fin 1024) :
    StableHlo.after (hostOps3 (F := Ideal)) W (Proc.devRef .tc main_v23) (ix3 b s j)
      = W (Proc.devRef .tc main_v22) (ix2 (rowOf b s) j) := by
  rw [host3_v23_term]
  exact shapeCast_apply _ shapeCasts_S4096x1024_S2x2048x1024 (ix3 b s j) (ix2 (rowOf b s) j) (by
    rw [Shape.rowMajor_val_two, Shape.rowMajor_val_three]; rfl)

end Cert.KernelIdeal.Hand

end
-- ==== Proof.AttnSpec.lean ====
/-
  The mathematics both programs compute, over the real numbers. Rows are (batch b, position s); the projection
  sends a row of x to 3072 features, feature c·1024 + n·64 + d being channel d of head n of part c (0 the query, 1 the
  key, 2 the value). A head's score of query position s against key position t is the dot product of the query and
  key channels, scaled by 1/8; its attention weights are the softmax of the scores over t (written with an arbitrary
  shift M, which cancels); the head's output is the weighted sum of the value channels; the heads' outputs are laid side
  by side as 1024 features and projected by the second weight matrix.
-/
import Mathlib.Analysis.SpecialFunctions.Exp
import Mathlib.Algebra.BigOperators.Fin
import Idealize.ShloMosaic.Lib.ValueIdx

noncomputable section

namespace AttnSpec

open Idealize.ShloMosaic Idealize.ShloMosaic.ValueIdx

abbrev SX : Shape := ⟨3, ![2, 2048, 1024]⟩
abbrev SWqkv : Shape := ⟨2, ![3072, 1024]⟩
abbrev SWout : Shape := ⟨2, ![1024, 1024]⟩

variable (x : SX.Idx → ℝ) (wq : SWqkv.Idx → ℝ) (wo : SWout.Idx → ℝ)

/-- Feature `c·1024 + n·64 + d`: channel `d` of head `n` of part `c`. -/
def feat (c : Fin 3) (n : Fin 16) (d : Fin 64) : Fin 3072 := ⟨c.val * 1024 + n.val * 64 + d.val, by omega⟩

/-- The first projection: feature `o` of row `(b, s)`. -/
def proj (b : Fin 2) (s : Fin 2048) (o : Fin 3072) : ℝ := ∑ h : Fin 1024, x (ix3 b s h) * wq (ix2 o h)

/-- The scaled score of query position `s` against key position `t` in head `n` of batch `b`. -/
def score (b : Fin 2) (n : Fin 16) (s t : Fin 2048) : ℝ :=
  (∑ d : Fin 64, proj x wq b s (feat 0 n d) * proj x wq b t (feat 1 n d)) * (1 / 8)

/-- The head's output at position `s`, channel `d`: the softmax-weighted sum of the value channels, the softmax
    written with a shift `M` (any real: it cancels). -/
def headOut (M : ℝ) (b : Fin 2) (n : Fin 16) (s : Fin 2048) (d : Fin 64) : ℝ :=
  ∑ t : Fin 2048, (Real.exp (score x wq b n s t - M) / (∑ t' : Fin 2048, Real.exp (score x wq b n s t' - M))) * proj x wq b t (feat 2 n d)

/-- The shift does not matter. -/
theorem headOut_shift (M M' : ℝ) (b : Fin 2) (n : Fin 16) (s : Fin 2048) (d : Fin 64) :
    headOut x wq M b n s d = headOut x wq M' b n s d := by
  unfold headOut
  have hpos : ∀ N : ℝ, 0 < ∑ t' : Fin 2048, Real.exp (score x wq b n s t' - N) := fun N =>
    Finset.sum_pos (fun _ _ => Real.exp_pos _) ⟨⟨0, by norm_num⟩, Finset.mem_univ _⟩
  have hfac : ∀ t : Fin 2048, Real.exp (score x wq b n s t - M) = Real.exp (M' - M) * Real.exp (score x wq b n s t - M') := fun t => by
    rw [← Real.exp_add]; congr 1; ring
  refine Finset.sum_congr rfl fun t _ => ?_
  congr 1
  rw [hfac t, show (∑ t' : Fin 2048, Real.exp (score x wq b n s t' - M)) = Real.exp (M' - M) * ∑ t' : Fin 2048, Real.exp (score x wq b n s t' - M') from by
    rw [Finset.mul_sum]; exact Finset.sum_congr rfl fun t' _ => hfac t']
  rw [mul_div_mul_left _ _ (Real.exp_pos _).ne']

/-- The largest score of a query position: the shift the reference subtracts. -/
def rowMax (b : Fin 2) (n : Fin 16) (s : Fin 2048) : ℝ :=
  Finset.univ.sup' (Finset.univ_nonempty (α := Fin 2048)) (score x wq b n s)

/-- Head `n`, channel `d` of a merged feature `h = n·64 + d`. -/
def headOf (h : Fin 1024) : Fin 16 := ⟨h.val / 64, by omega⟩
def chanOf (h : Fin 1024) : Fin 64 := ⟨h.val % 64, Nat.mod_lt _ (by norm_num)⟩

/-- The result: the heads' outputs side by side, projected by the second weight matrix. -/
def out (b : Fin 2) (s : Fin 2048) (j : Fin 1024) : ℝ :=
  ∑ h : Fin 1024, headOut x wq (rowMax x wq b (headOf h) s) b (headOf h) s (chanOf h) * wo (ix2 j h)

end AttnSpec

end
-- ==== Proof.LibOnlineSoftmax.lean ====
/-
  The algebra that joins a blockwise "online softmax" accumulation to the plain
  softmax-weighted sum.

  Keys come in blocks of n; block j has scores s j k and values v j k (k < n).  A
  blockwise pass keeps, against an arbitrary sequence of real shifts μ j, a running
  denominator l and a running numerator acc:

      l (j+1)   = e^(μ j - μ (j+1)) · l j   + ∑ k, e^(s j k - μ (j+1))
      acc (j+1) = e^(μ j - μ (j+1)) · acc j + ∑ k, e^(s j k - μ (j+1)) · v j k

  Each step rescales what was accumulated against the old shift to the new one, so after J
  blocks l J = ∑_{i<J} ∑ k, e^(s i k - μ J) and likewise acc J.  The quotient
  acc J / l J does not see the shift at all (e^(x - μ) = e^(x - M) · e^(M - μ), and the
  common factor cancels): it is the softmax-weighted sum of the values, written against
  any real M.  Nothing is asked of μ: it need not be a maximum.

  The same is then said on the extended reals, where the exponential and the quotient are
  the total operations Ideal.exp and Ideal.div: on finite arguments they are the real ones,
  so the real identity carries over by coercion.
-/
import Idealize.ShloMosaic.PureOps.Ideal.Laws
import Mathlib.Algebra.BigOperators.Fin
import Mathlib.Analysis.SpecialFunctions.Exp
import Mathlib.Logic.Equiv.Fin.Basic

namespace OnlineSoftmax

open Idealize.ShloMosaic
open scoped BigOperators

variable {n : ℕ}

noncomputable section

/-! ## Over the reals -/

/-- The running denominator: l 0 = 0 and
    l (j+1) = e^(μ j - μ (j+1)) · l j + ∑ k, e^(s j k - μ (j+1)). -/
def lR (μ : ℕ → ℝ) (s : ℕ → Fin n → ℝ) : ℕ → ℝ
  | 0 => 0
  | j + 1 => Real.exp (μ j - μ (j + 1)) * lR μ s j + ∑ k, Real.exp (s j k - μ (j + 1))

/-- The running numerator: acc 0 = 0 and
    acc (j+1) = e^(μ j - μ (j+1)) · acc j + ∑ k, e^(s j k - μ (j+1)) · v j k. -/
def accR (μ : ℕ → ℝ) (s v : ℕ → Fin n → ℝ) : ℕ → ℝ
  | 0 => 0
  | j + 1 => Real.exp (μ j - μ (j + 1)) * accR μ s v j + ∑ k, Real.exp (s j k - μ (j + 1)) * v j k

@[simp] theorem lR_zero (μ : ℕ → ℝ) (s : ℕ → Fin n → ℝ) : lR μ s 0 = 0 := rfl
theorem lR_succ (μ : ℕ → ℝ) (s : ℕ → Fin n → ℝ) (j : ℕ) :
    lR μ s (j + 1) = Real.exp (μ j - μ (j + 1)) * lR μ s j + ∑ k, Real.exp (s j k - μ (j + 1)) := rfl
@[simp] theorem accR_zero (μ : ℕ → ℝ) (s v : ℕ → Fin n → ℝ) : accR μ s v 0 = 0 := rfl
theorem accR_succ (μ : ℕ → ℝ) (s v : ℕ → Fin n → ℝ) (j : ℕ) :
    accR μ s v (j + 1)
      = Real.exp (μ j - μ (j + 1)) * accR μ s v j + ∑ k, Real.exp (s j k - μ (j + 1)) * v j k := rfl

/-- Rescaling: e^(a - b) · e^(x - a) = e^(x - b). -/
theorem exp_rescale (a b x : ℝ) : Real.exp (a - b) * Real.exp (x - a) = Real.exp (x - b) := by
  rw [← Real.exp_add]; congr 1; ring

/-- The invariant of the denominator: after j blocks it is the sum over every key seen so
    far of e^(score - μ j), whatever the shifts were on the way. -/
theorem lR_eq (μ : ℕ → ℝ) (s : ℕ → Fin n → ℝ) (j : ℕ) :
    lR μ s j = ∑ i : Fin j, ∑ k, Real.exp (s i k - μ j) := by
  induction j with
  | zero => simp
  | succ j ih =>
    rw [lR_succ, ih, Fin.sum_univ_castSucc, Finset.mul_sum]
    simp only [Fin.coe_castSucc, Fin.val_last, Finset.mul_sum, exp_rescale]

/-- The invariant of the numerator: after j blocks it is the sum over every key seen so far
    of e^(score - μ j) · value. -/
theorem accR_eq (μ : ℕ → ℝ) (s v : ℕ → Fin n → ℝ) (j : ℕ) :
    accR μ s v j = ∑ i : Fin j, ∑ k, Real.exp (s i k - μ j) * v i k := by
  induction j with
  | zero => simp
  | succ j ih =>
    rw [accR_succ, ih, Fin.sum_univ_castSucc, Finset.mul_sum]
    simp only [Fin.coe_castSucc, Fin.val_last, Finset.mul_sum, ← mul_assoc, exp_rescale]

/-- A sum of exponentials over a nonempty range of blocks of nonempty blocks is positive. -/
theorem sum_exp_pos (s : ℕ → Fin n → ℝ) (M : ℝ) {J : ℕ} (hJ : 0 < J) (hn : 0 < n) :
    0 < ∑ i : Fin J, ∑ k, Real.exp (s i k - M) := by
  haveI : Nonempty (Fin J) := ⟨⟨0, hJ⟩⟩
  haveI : Nonempty (Fin n) := ⟨⟨0, hn⟩⟩
  exact Finset.sum_pos (fun i _ => Finset.sum_pos (fun k _ => Real.exp_pos _) Finset.univ_nonempty)
    Finset.univ_nonempty

/-- The denominator is positive once one nonempty block has been seen. -/
theorem lR_pos (μ : ℕ → ℝ) (s : ℕ → Fin n → ℝ) {j : ℕ} (hj : 0 < j) (hn : 0 < n) : 0 < lR μ s j := by
  rw [lR_eq]; exact sum_exp_pos s (μ j) hj hn

/-- Softmax is shift invariant: the weighted sum against a shift a, divided by the
    normaliser against a, is the weighted sum with the weights e^(score - M) / ∑ e^(score - M)
    for any other shift M (e^(x - a) = e^(M - a) · e^(x - M), and e^(M - a) cancels). -/
theorem softmax_shift (s v : ℕ → Fin n → ℝ) (a M : ℝ) {J : ℕ} (hJ : 0 < J) (hn : 0 < n) :
    (∑ i : Fin J, ∑ k, Real.exp (s i k - a) * v i k) * (1 / ∑ i : Fin J, ∑ k, Real.exp (s i k - a))
      = ∑ i : Fin J, ∑ k,
          (Real.exp (s i k - M) / (∑ i' : Fin J, ∑ k', Real.exp (s i' k' - M))) * v i k := by
  have hZ : (∑ i : Fin J, ∑ k, Real.exp (s i k - M)) ≠ 0 := (sum_exp_pos s M hJ hn).ne'
  have hc : Real.exp (M - a) ≠ 0 := (Real.exp_pos _).ne'
  have hnum : (∑ i : Fin J, ∑ k, Real.exp (s i k - a) * v i k)
      = Real.exp (M - a) * ∑ i : Fin J, ∑ k, Real.exp (s i k - M) * v i k := by
    rw [Finset.mul_sum]; refine Finset.sum_congr rfl fun i _ => ?_
    rw [Finset.mul_sum]; refine Finset.sum_congr rfl fun k _ => ?_
    rw [← mul_assoc, exp_rescale]
  have hden : (∑ i : Fin J, ∑ k, Real.exp (s i k - a))
      = Real.exp (M - a) * ∑ i : Fin J, ∑ k, Real.exp (s i k - M) := by
    rw [Finset.mul_sum]; refine Finset.sum_congr rfl fun i _ => ?_
    rw [Finset.mul_sum]; refine Finset.sum_congr rfl fun k _ => ?_
    rw [exp_rescale]
  rw [hnum, hden]
  simp only [div_mul_eq_mul_div, ← Finset.sum_div]
  field_simp

/-- The main identity over the reals: the blockwise numerator times the reciprocal of the
    blockwise denominator is the softmax-weighted sum of the values over all J·n keys, the
    softmax written against any real M. -/
theorem accR_mul_inv_lR (μ : ℕ → ℝ) (s v : ℕ → Fin n → ℝ) (M : ℝ) {J : ℕ} (hJ : 0 < J) (hn : 0 < n) :
    accR μ s v J * (1 / lR μ s J)
      = ∑ i : Fin J, ∑ k,
          (Real.exp (s i k - M) / (∑ i' : Fin J, ∑ k', Real.exp (s i' k' - M))) * v i k := by
  rw [accR_eq, lR_eq]; exact softmax_shift s v (μ J) M hJ hn

/-! ## Finite extended reals: the operations on coercions -/

/-- The exponential of a finite extended real is the real exponential. -/
theorem exp_coe (x : ℝ) : Ideal.exp (x : EReal) = ((Real.exp x : ℝ) : EReal) := rfl

/-- The quotient of two finite extended reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- One over a nonzero finite extended real is the real reciprocal. -/
theorem one_div_coe {b : ℝ} (hb : b ≠ 0) : Ideal.div 1 (b : EReal) = ((1 / b : ℝ) : EReal) := by
  rw [← EReal.coe_one, div_coe_coe 1 hb]

/-- The product of two finite extended reals is the real product. -/
theorem coe_mul_coe (a b : ℝ) : (a : EReal) * (b : EReal) = ((a * b : ℝ) : EReal) := (EReal.coe_mul a b).symm

/-- The sum of two finite extended reals is the real sum. -/
theorem coe_add_coe (a b : ℝ) : (a : EReal) + (b : EReal) = ((a + b : ℝ) : EReal) := (EReal.coe_add a b).symm

/-- The difference of two finite extended reals is the real difference. -/
theorem coe_sub_coe (a b : ℝ) : (a : EReal) - (b : EReal) = ((a - b : ℝ) : EReal) := (EReal.coe_sub a b).symm

/-- The larger of two finite extended reals is the larger of the reals. -/
theorem max_coe_coe (a b : ℝ) : max (a : EReal) (b : EReal) = ((max a b : ℝ) : EReal) :=
  (EReal.coe_strictMono.monotone.map_max (a := a) (b := b)).symm

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ## On the extended reals -/

/-- The running denominator with the extended-real operations: l 0 = 0 and
    l (j+1) = exp (μ j - μ (j+1)) · l j + ∑ k, exp (s j k - μ (j+1)). -/
def lE (μ : ℕ → EReal) (s : ℕ → Fin n → EReal) : ℕ → EReal
  | 0 => 0
  | j + 1 => Ideal.exp (μ j - μ (j + 1)) * lE μ s j + ∑ k, Ideal.exp (s j k - μ (j + 1))

/-- The running numerator with the extended-real operations: acc 0 = 0 and
    acc (j+1) = exp (μ j - μ (j+1)) · acc j + ∑ k, exp (s j k - μ (j+1)) · v j k. -/
def accE (μ : ℕ → EReal) (s v : ℕ → Fin n → EReal) : ℕ → EReal
  | 0 => 0
  | j + 1 => Ideal.exp (μ j - μ (j + 1)) * accE μ s v j + ∑ k, Ideal.exp (s j k - μ (j + 1)) * v j k

@[simp] theorem lE_zero (μ : ℕ → EReal) (s : ℕ → Fin n → EReal) : lE μ s 0 = 0 := rfl
theorem lE_succ (μ : ℕ → EReal) (s : ℕ → Fin n → EReal) (j : ℕ) :
    lE μ s (j + 1) = Ideal.exp (μ j - μ (j + 1)) * lE μ s j + ∑ k, Ideal.exp (s j k - μ (j + 1)) := rfl
@[simp] theorem accE_zero (μ : ℕ → EReal) (s v : ℕ → Fin n → EReal) : accE μ s v 0 = 0 := rfl
theorem accE_succ (μ : ℕ → EReal) (s v : ℕ → Fin n → EReal) (j : ℕ) :
    accE μ s v (j + 1)
      = Ideal.exp (μ j - μ (j + 1)) * accE μ s v j + ∑ k, Ideal.exp (s j k - μ (j + 1)) * v j k := rfl

/-- On finite shifts and scores the extended-real denominator is the real one. -/
theorem lE_coe (μ : ℕ → ℝ) (s : ℕ → Fin n → ℝ) (j : ℕ) :
    lE (fun j => (μ j : EReal)) (fun j k => (s j k : EReal)) j = ((lR μ s j : ℝ) : EReal) := by
  induction j with
  | zero => rfl
  | succ j ih =>
    rw [lE_succ, ih, lR_succ]
    simp only [coe_sub_coe, exp_coe, coe_mul_coe, ← coe_sum, coe_add_coe]

/-- On finite shifts, scores and values the extended-real numerator is the real one. -/
theorem accE_coe (μ : ℕ → ℝ) (s v : ℕ → Fin n → ℝ) (j : ℕ) :
    accE (fun j => (μ j : EReal)) (fun j k => (s j k : EReal)) (fun j k => (v j k : EReal)) j
      = ((accR μ s v j : ℝ) : EReal) := by
  induction j with
  | zero => rfl
  | succ j ih =>
    rw [accE_succ, ih, accR_succ]
    simp only [coe_sub_coe, exp_coe, coe_mul_coe, ← coe_sum, coe_add_coe]

/-- The softmax-weighted sum written with the extended-real operations, on finite scores and
    values, is the coercion of the real one. -/
theorem softmaxE_coe (s v : ℕ → Fin n → ℝ) (M : ℝ) {J : ℕ} (hJ : 0 < J) (hn : 0 < n) :
    (∑ i : Fin J, ∑ k, Ideal.div (Ideal.exp ((s i k : EReal) - (M : EReal)))
          (∑ i' : Fin J, ∑ k', Ideal.exp ((s i' k' : EReal) - (M : EReal))) * (v i k : EReal))
      = ((∑ i : Fin J, ∑ k,
          (Real.exp (s i k - M) / (∑ i' : Fin J, ∑ k', Real.exp (s i' k' - M))) * v i k : ℝ) : EReal) := by
  have hZ : (∑ i : Fin J, ∑ k, Real.exp (s i k - M)) ≠ 0 := (sum_exp_pos s M hJ hn).ne'
  simp only [coe_sub_coe, exp_coe, ← coe_sum, div_coe_coe _ hZ, coe_mul_coe]

/-- The main identity on the extended reals: for finite shifts, scores and values, the
    blockwise numerator times one over the blockwise denominator is the softmax-weighted sum
    of the values over all J·n keys, the softmax written against any real M, every operation
    the extended-real one. -/
theorem accE_mul_div_lE (μ : ℕ → ℝ) (s v : ℕ → Fin n → ℝ) (M : ℝ) {J : ℕ} (hJ : 0 < J) (hn : 0 < n) :
    accE (fun j => (μ j : EReal)) (fun j k => (s j k : EReal)) (fun j k => (v j k : EReal)) J
        * Ideal.div 1 (lE (fun j => (μ j : EReal)) (fun j k => (s j k : EReal)) J)
      = ∑ i : Fin J, ∑ k, Ideal.div (Ideal.exp ((s i k : EReal) - (M : EReal)))
          (∑ i' : Fin J, ∑ k', Ideal.exp ((s i' k' : EReal) - (M : EReal))) * (v i k : EReal) := by
  rw [accE_coe, lE_coe, one_div_coe (lR_pos μ s hJ hn).ne', coe_mul_coe, softmaxE_coe s v M hJ hn,
    accR_mul_inv_lR μ s v M hJ hn]

/-- The same with the numerator one spelled as the coercion of the real one. -/
theorem accE_mul_div_lE' (μ : ℕ → ℝ) (s v : ℕ → Fin n → ℝ) (M : ℝ) {J : ℕ} (hJ : 0 < J) (hn : 0 < n) :
    accE (fun j => (μ j : EReal)) (fun j k => (s j k : EReal)) (fun j k => (v j k : EReal)) J
        * Ideal.div ((1 : ℝ) : EReal) (lE (fun j => (μ j : EReal)) (fun j k => (s j k : EReal)) J)
      = ∑ i : Fin J, ∑ k, Ideal.div (Ideal.exp ((s i k : EReal) - (M : EReal)))
          (∑ i' : Fin J, ∑ k', Ideal.exp ((s i' k' : EReal) - (M : EReal))) * (v i k : EReal) := by
  rw [EReal.coe_one]; exact accE_mul_div_lE μ s v M hJ hn

/-! ## Splitting a sum over a product range into blocks -/

/-- A sum over a·b consecutive indices is the sum over a blocks of the sums over the b
    indices of each block: index t = i·b + k. -/
theorem sum_fin_mul {α : Type*} [AddCommMonoid α] (a b : ℕ) (f : Fin (a * b) → α) :
    ∑ t : Fin (a * b), f t
      = ∑ i : Fin a, ∑ k : Fin b, f ⟨i.val * b + k.val, by
          calc i.val * b + k.val < i.val * b + b := Nat.add_lt_add_left k.isLt _
            _ = (i.val + 1) * b := (Nat.succ_mul _ _).symm
            _ ≤ a * b := Nat.mul_le_mul_right _ i.isLt⟩ := by
  rw [← Fintype.sum_prod_type', ← Fintype.sum_equiv finProdFinEquiv
    (fun p : Fin a × Fin b => f ⟨p.1.val * b + p.2.val, _⟩) f]
  intro p
  congr 1
  apply Fin.ext
  simp [finProdFinEquiv, Nat.mul_comm, Nat.add_comm]

/-- 2048 extended reals summed as 16 blocks of 128. -/
theorem sum_2048_eq_16_128 (f : Fin 2048 → EReal) :
    ∑ t : Fin 2048, f t = ∑ i : Fin 16, ∑ k : Fin 128, f ⟨i.val * 128 + k.val, by omega⟩ :=
  sum_fin_mul 16 128 f

/-- 2048 reals summed as 16 blocks of 128. -/
theorem sum_2048_eq_16_128_real (f : Fin 2048 → ℝ) :
    ∑ t : Fin 2048, f t = ∑ i : Fin 16, ∑ k : Fin 128, f ⟨i.val * 128 + k.val, by omega⟩ :=
  sum_fin_mul 16 128 f

/-! ## The maximum of finitely many finite values is finite -/

/-- Folding max from ⊥ over the coercions of a nonempty finite family of reals gives the
    coercion of the family's largest member. -/
theorem fold_max_coe_eq {ι : Type*} [Fintype ι] [Nonempty ι] (f : ι → ℝ) :
    Finset.univ.fold max (⊥ : EReal) (fun k => (f k : EReal))
      = ((Finset.univ.sup' Finset.univ_nonempty f : ℝ) : EReal) := by
  apply le_antisymm
  · rw [Finset.fold_max_le]
    exact ⟨bot_le, fun x hx => EReal.coe_le_coe_iff.mpr (Finset.le_sup' f hx)⟩
  · obtain ⟨i, hi, h⟩ := Finset.exists_mem_eq_sup' (Finset.univ_nonempty (α := ι)) f
    rw [h, Finset.le_fold_max]
    exact Or.inr ⟨i, hi, le_rfl⟩

/-- So max ⊥ of that fold is a real. -/
theorem max_bot_fold_max_coe {ι : Type*} [Fintype ι] [Nonempty ι] (f : ι → ℝ) :
    ∃ r : ℝ, max (⊥ : EReal) (Finset.univ.fold max (⊥ : EReal) (fun k => (f k : EReal))) = (r : EReal) :=
  ⟨Finset.univ.sup' Finset.univ_nonempty f, by rw [fold_max_coe_eq, max_eq_right bot_le]⟩

/-- And the larger of a real and that is again a real. -/
theorem max_coe_max_bot_fold_max_coe {ι : Type*} [Fintype ι] [Nonempty ι] (a : ℝ) (f : ι → ℝ) :
    ∃ r : ℝ, max (a : EReal) (max (⊥ : EReal) (Finset.univ.fold max (⊥ : EReal) (fun k => (f k : EReal))))
      = (r : EReal) :=
  ⟨max a (Finset.univ.sup' Finset.univ_nonempty f), by
    rw [fold_max_coe_eq, max_eq_right bot_le, max_coe_coe]⟩

/-! ## The running maximum of finite scores stays finite -/

/-- A sequence of extended reals that starts at a real and at each step takes the larger of
    its current value and the maximum (folded from ⊥, and once more against ⊥) of a nonempty
    block of finite scores is a sequence of reals. -/
theorem exists_real_shifts (m : ℕ → EReal) (s : ℕ → Fin n → ℝ) (a : ℝ) (hn : 0 < n)
    (h0 : m 0 = (a : EReal))
    (hs : ∀ j, m (j + 1)
      = max (m j) (max (⊥ : EReal) (Finset.univ.fold max (⊥ : EReal) (fun k => (s j k : EReal))))) :
    ∃ μ : ℕ → ℝ, ∀ j, m j = (μ j : EReal) := by
  haveI : Nonempty (Fin n) := ⟨⟨0, hn⟩⟩
  have h : ∀ j, ∃ r : ℝ, m j = (r : EReal) := by
    intro j
    induction j with
    | zero => exact ⟨a, h0⟩
    | succ j ih =>
      obtain ⟨r, hr⟩ := ih
      obtain ⟨r', hr'⟩ := max_coe_max_bot_fold_max_coe r (s j)
      exact ⟨r', by rw [hs, hr, hr']⟩
  exact ⟨fun j => (h j).choose, fun j => (h j).choose_spec⟩

/-- The same when the block maximum is the bare fold from ⊥. -/
theorem exists_real_shifts' (m : ℕ → EReal) (s : ℕ → Fin n → ℝ) (a : ℝ) (hn : 0 < n)
    (h0 : m 0 = (a : EReal))
    (hs : ∀ j, m (j + 1)
      = max (m j) (Finset.univ.fold max (⊥ : EReal) (fun k => (s j k : EReal)))) :
    ∃ μ : ℕ → ℝ, ∀ j, m j = (μ j : EReal) :=
  exists_real_shifts m s a hn h0 fun j => by rw [hs, max_eq_right (bot_le (a := Finset.fold _ _ _ _))]

/-! ## The blockwise pass sees only the blocks it has visited -/

/-- The extended-real denominator after J blocks depends only on the shifts up to J and the
    scores of the blocks before J. -/
theorem lE_congr {μ μ' : ℕ → EReal} {s s' : ℕ → Fin n → EReal} {J : ℕ}
    (hμ : ∀ j, j ≤ J → μ j = μ' j) (hs : ∀ j, j < J → ∀ k, s j k = s' j k) :
    lE μ s J = lE μ' s' J := by
  induction J with
  | zero => rfl
  | succ J ih =>
    rw [lE_succ, lE_succ, ih (fun j hj => hμ j (Nat.le_succ_of_le hj)) (fun j hj => hs j (Nat.lt_succ_of_lt hj)),
      hμ J (Nat.le_succ J), hμ (J + 1) le_rfl]
    simp only [hs J (Nat.lt_succ_self J)]

/-- The extended-real numerator after J blocks depends only on the shifts up to J and the
    scores and values of the blocks before J. -/
theorem accE_congr {μ μ' : ℕ → EReal} {s s' v v' : ℕ → Fin n → EReal} {J : ℕ}
    (hμ : ∀ j, j ≤ J → μ j = μ' j) (hs : ∀ j, j < J → ∀ k, s j k = s' j k)
    (hv : ∀ j, j < J → ∀ k, v j k = v' j k) :
    accE μ s v J = accE μ' s' v' J := by
  induction J with
  | zero => rfl
  | succ J ih =>
    rw [accE_succ, accE_succ,
      ih (fun j hj => hμ j (Nat.le_succ_of_le hj)) (fun j hj => hs j (Nat.lt_succ_of_lt hj))
        (fun j hj => hv j (Nat.lt_succ_of_lt hj)),
      hμ J (Nat.le_succ J), hμ (J + 1) le_rfl]
    simp only [hs J (Nat.lt_succ_self J), hv J (Nat.lt_succ_self J)]

/-- The main identity for extended-real shifts, scores and values KNOWN to be finite where
    the pass reads them (shifts up to J, scores and values of the blocks before J): the
    blockwise numerator times one over the blockwise denominator is the softmax-weighted sum
    over all J·n keys, the softmax written against any real M. -/
theorem accE_mul_div_lE_of_coe (μE : ℕ → EReal) (sE vE : ℕ → Fin n → EReal)
    (μ : ℕ → ℝ) (s v : ℕ → Fin n → ℝ) (M : ℝ) {J : ℕ} (hJ : 0 < J) (hn : 0 < n)
    (hμ : ∀ j, j ≤ J → μE j = (μ j : EReal)) (hs : ∀ j, j < J → ∀ k, sE j k = (s j k : EReal))
    (hv : ∀ j, j < J → ∀ k, vE j k = (v j k : EReal)) :
    accE μE sE vE J * Ideal.div 1 (lE μE sE J)
      = ∑ i : Fin J, ∑ k, Ideal.div (Ideal.exp (sE i k - (M : EReal)))
          (∑ i' : Fin J, ∑ k', Ideal.exp (sE i' k' - (M : EReal))) * vE i k := by
  rw [accE_congr (μ' := fun j => (μ j : EReal)) (s' := fun j k => (s j k : EReal))
      (v' := fun j k => (v j k : EReal)) hμ hs hv,
    lE_congr (μ' := fun j => (μ j : EReal)) (s' := fun j k => (s j k : EReal)) hμ hs,
    accE_mul_div_lE μ s v M hJ hn]
  have hs' : ∀ (i : Fin J) (k : Fin n), sE i k = (s i k : EReal) := fun i k => hs i i.isLt k
  have hv' : ∀ (i : Fin J) (k : Fin n), vE i k = (v i k : EReal) := fun i k => hv i i.isLt k
  simp only [hs', hv']

/-! ## The literal sizes: 2048 keys in 16 blocks of 128 -/

/-- For 2048 keys visited as 16 blocks of 128 (key t = j·128 + k), finite shifts, scores S
    and values V: the blockwise numerator times one over the blockwise denominator after the
    16 blocks is the softmax-weighted sum of V over all 2048 keys, the softmax of S written
    against any real M. -/
theorem accE_mul_div_lE_2048 (μE : ℕ → EReal) (sE vE : ℕ → Fin 128 → EReal)
    (μ : ℕ → ℝ) (S V : Fin 2048 → ℝ) (M : ℝ)
    (hμ : ∀ j, j ≤ 16 → μE j = (μ j : EReal))
    (hs : ∀ j (hj : j < 16) (k : Fin 128), sE j k = (S ⟨j * 128 + k.val, by omega⟩ : EReal))
    (hv : ∀ j (hj : j < 16) (k : Fin 128), vE j k = (V ⟨j * 128 + k.val, by omega⟩ : EReal)) :
    accE μE sE vE 16 * Ideal.div 1 (lE μE sE 16)
      = ∑ t : Fin 2048, Ideal.div (Ideal.exp ((S t : EReal) - (M : EReal)))
          (∑ t' : Fin 2048, Ideal.exp ((S t' : EReal) - (M : EReal))) * (V t : EReal) := by
  have hlt : ∀ x : ℕ, x % 2048 < 2048 := fun x => Nat.mod_lt _ (by norm_num)
  have hmod : ∀ j, j < 16 → ∀ k : Fin 128, (j * 128 + k.val) % 2048 = j * 128 + k.val :=
    fun j hj k => Nat.mod_eq_of_lt (by omega)
  rw [accE_mul_div_lE_of_coe μE sE vE μ (fun j k => S ⟨(j * 128 + k.val) % 2048, hlt _⟩)
      (fun j k => V ⟨(j * 128 + k.val) % 2048, hlt _⟩) M (by norm_num) (by norm_num) hμ
      (fun j hj k => by rw [hs j hj k]; simp only [hmod j hj k])
      (fun j hj k => by rw [hv j hj k]; simp only [hmod j hj k])]
  rw [sum_2048_eq_16_128 (fun t' => Ideal.exp ((S t' : EReal) - (M : EReal))),
    sum_2048_eq_16_128 (fun t => Ideal.div (Ideal.exp ((S t : EReal) - (M : EReal))) _ * (V t : EReal))]
  have hs' : ∀ (i : Fin 16) (k : Fin 128), sE i k = (S ⟨i.val * 128 + k.val, by omega⟩ : EReal) :=
    fun i k => hs i i.isLt k
  have hv' : ∀ (i : Fin 16) (k : Fin 128), vE i k = (V ⟨i.val * 128 + k.val, by omega⟩ : EReal) :=
    fun i k => hv i i.isLt k
  simp only [hs', hv']

end

end OnlineSoftmax
-- ==== Proof.KI.Chain.lean ====
import proofs.«106544_j89970974917189_2_alg».proof.Proof.KI.Frame
import proofs.«106544_j89970974917189_2_alg».proof.Proof.KI.MatmulArrays
import proofs.«106544_j89970974917189_2_alg».proof.Proof.KI.HostGlue
import proofs.«106544_j89970974917189_2_alg».proof.Proof.AttnSpec
import proofs.«106544_j89970974917189_2_alg».proof.Proof.LibOnlineSoftmax

/-! # The chain around the attention, on the extended reals, for real argument arrays

With the three argument arrays finite (the coercions of real arrays `x`, `wq`, `wo`), every array on the way is
finite and is the coercion of the real expression the specification names: the first projection's output is
`proj x wq`; the attention's queries, keys and values are its three column groups read per head; and, whatever real
array `hO` the attention leaves per head, the result is `∑ h, hO[b, head h, s, channel h] · wo[j, h]`. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx

variable (m : (ℓ : Loc nD τ sig) → Buf (Elt Ideal) ℓ) (ρ : Dev nD → PrngReg) (c : Dev nD)
variable (x : AttnSpec.SX.Idx → ℝ) (wq : AttnSpec.SWqkv.Idx → ℝ) (wo : AttnSpec.SWout.Idx → ℝ)

/-! ## Up to the attention's entry -/

/-- The flattened activations are `x`. -/
theorem E1_v1 (hx : m ((c : Thread nD τ).loc main_arg0) = fun i => (x i : EReal)) (b : Fin 2) (s : Fin 2048) (k : Fin 1024) :
    E1 m ρ c main_v1 (ix2 (rowOf b s) k) = ((x (ix3 b s k) : ℝ) : EReal) :=
  (host0_v1_apply (B0 m ρ c) b s k).trans (congrFun hx (ix3 b s k))

/-- The first weight, transposed. -/
theorem E1_v3 (hwq : m ((c : Thread nD τ).loc main_arg1) = fun i => (wq i : EReal)) (k : Fin 1024) (o : Fin 3072) :
    E1 m ρ c main_v3 (ix2 k o) = ((wq (ix2 o k) : ℝ) : EReal) :=
  (host0_v3_apply (B0 m ρ c) k o).trans (congrFun hwq (ix2 o k))

/-- The second weight, transposed. -/
theorem E1_v5 (hwo : m ((c : Thread nD τ).loc main_arg2) = fun i => (wo i : EReal)) (k : Fin 1024) (j : Fin 1024) :
    E1 m ρ c main_v5 (ix2 k j) = ((wo (ix2 j k) : ℝ) : EReal) :=
  (host0_v5_apply (B0 m ρ c) k j).trans (congrFun hwo (ix2 j k))

/-- The first projection's output array is the real projection. -/
theorem B2_v6 (hx : m ((c : Thread nD τ).loc main_arg0) = fun i => (x i : EReal))
    (hwq : m ((c : Thread nD τ).loc main_arg1) = fun i => (wq i : EReal)) (b : Fin 2) (s : Fin 2048) (o : Fin 3072) :
    B2 m ρ c (Proc.devRef .tc main_v6) (ix2 (rowOf b s) o) = ((AttnSpec.proj x wq b s o : ℝ) : EReal) := by
  refine (congrFun ((B2_arr m ρ c 2).trans (final0 (E1 m ρ) c)) (ix2 (rowOf b s) o)).trans ?_
  refine (G0_apply _ _ (rowOf b s) o).trans ?_
  unfold AttnSpec.proj
  rw [OnlineSoftmax.coe_sum]
  refine Finset.sum_congr rfl fun k _ => ?_
  rw [← OnlineSoftmax.coe_mul_coe]
  exact congrArg₂ (fun a b : EReal => a * b) (E1_v1 m ρ c x hx b s k) (E1_v3 m ρ c wq hwq k o)

/-- The queries per head. -/
theorem E3_q (hx : m ((c : Thread nD τ).loc main_arg0) = fun i => (x i : EReal))
    (hwq : m ((c : Thread nD τ).loc main_arg1) = fun i => (wq i : EReal)) (b : Fin 2) (n : Fin 16) (s : Fin 2048) (d : Fin 64) :
    E3 m ρ c main_v15 (ix3 (headOf b n) s d) = ((AttnSpec.proj x wq b s (AttnSpec.feat 0 n d) : ℝ) : EReal) :=
  (host1_v15_apply (B2 m ρ c) b n s d).trans (B2_v6 m ρ c x wq hx hwq b s (projOf 0 n d))
/-- The keys per head. -/
theorem E3_k (hx : m ((c : Thread nD τ).loc main_arg0) = fun i => (x i : EReal))
    (hwq : m ((c : Thread nD τ).loc main_arg1) = fun i => (wq i : EReal)) (b : Fin 2) (n : Fin 16) (s : Fin 2048) (d : Fin 64) :
    E3 m ρ c main_v16 (ix3 (headOf b n) s d) = ((AttnSpec.proj x wq b s (AttnSpec.feat 1 n d) : ℝ) : EReal) :=
  (host1_v16_apply (B2 m ρ c) b n s d).trans (B2_v6 m ρ c x wq hx hwq b s (projOf 1 n d))
/-- The values per head. -/
theorem E3_v (hx : m ((c : Thread nD τ).loc main_arg0) = fun i => (x i : EReal))
    (hwq : m ((c : Thread nD τ).loc main_arg1) = fun i => (wq i : EReal)) (b : Fin 2) (n : Fin 16) (s : Fin 2048) (d : Fin 64) :
    E3 m ρ c main_v17 (ix3 (headOf b n) s d) = ((AttnSpec.proj x wq b s (AttnSpec.feat 2 n d) : ℝ) : EReal) :=
  (host1_v17_apply (B2 m ρ c) b n s d).trans (B2_v6 m ρ c x wq hx hwq b s (projOf 2 n d))

/-! ## From the attention's array to the result -/

/-- A merged feature is its head's 64 channels laid side by side. -/
theorem featOf_head_chan (h : Fin 1024) : featOf (AttnSpec.headOf h) (AttnSpec.chanOf h) = h :=
  Fin.ext (by show h.val / 64 * 64 + h.val % 64 = h.val; omega)

/-- The second weight reaches the output projection unchanged: nothing between writes it. -/
theorem E5_v5 (hwo : m ((c : Thread nD τ).loc main_arg2) = fun i => (wo i : EReal)) (k : Fin 1024) (j : Fin 1024) :
    E5 m ρ c main_v5 (ix2 k j) = ((wo (ix2 j k) : ℝ) : EReal) := by
  have e : B5 m ρ c (Proc.devRef .tc main_v5) = B1 m ρ c (Proc.devRef .tc main_v5) :=
    calc B5 m ρ c (Proc.devRef .tc main_v5)
      _ = B4 m ρ c (Proc.devRef .tc main_v5) := by keeps hostOps2
      _ = B3 m ρ c (Proc.devRef .tc main_v5) := B4_of_ne m ρ c main_v5 (by decide)
      _ = B2 m ρ c (Proc.devRef .tc main_v5) := by keeps hostOps1
      _ = B1 m ρ c (Proc.devRef .tc main_v5) := B2_of_ne m ρ c main_v5 (by decide)
  exact (congrFun e (ix2 k j)).trans (E1_v5 m ρ c wo hwo k j)

/-- The merged attention output: row `b·2048 + s`, feature `h` is head `h / 64`, channel `h % 64`. -/
theorem E5_v21 (hO : Fin 2 → Fin 16 → Fin 2048 → Fin 64 → ℝ)
    (H18 : ∀ b n s d, B4 m ρ c (Proc.devRef .tc main_v18) (ix3 (headOf b n) s d) = ((hO b n s d : ℝ) : EReal))
    (b : Fin 2) (s : Fin 2048) (h : Fin 1024) :
    E5 m ρ c main_v21 (ix2 (rowOf b s) h) = ((hO b (AttnSpec.headOf h) s (AttnSpec.chanOf h) : ℝ) : EReal) := by
  have e := host2_v21_apply (B4 m ρ c) b (AttnSpec.headOf h) s (AttnSpec.chanOf h)
  rw [featOf_head_chan] at e
  exact e.trans (H18 b (AttnSpec.headOf h) s (AttnSpec.chanOf h))

/-- The result: the heads' outputs side by side, projected by the second weight. -/
theorem B7_v23 (hwo : m ((c : Thread nD τ).loc main_arg2) = fun i => (wo i : EReal))
    (hO : Fin 2 → Fin 16 → Fin 2048 → Fin 64 → ℝ)
    (H18 : ∀ b n s d, B4 m ρ c (Proc.devRef .tc main_v18) (ix3 (headOf b n) s d) = ((hO b n s d : ℝ) : EReal))
    (b : Fin 2) (s : Fin 2048) (j : Fin 1024) :
    B7 m ρ c (Proc.devRef .tc main_v23) (ix3 b s j)
      = ((∑ h : Fin 1024, hO b (AttnSpec.headOf h) s (AttnSpec.chanOf h) * wo (ix2 j h) : ℝ) : EReal) := by
  refine (host3_v23_apply (B6 m ρ c) b s j).trans ?_
  refine (congrFun ((B6_arr m ρ c 2).trans (final2 (E5 m ρ) c)) (ix2 (rowOf b s) j)).trans ?_
  refine (G2_apply _ _ (rowOf b s) j).trans ?_
  rw [OnlineSoftmax.coe_sum]
  refine Finset.sum_congr rfl fun h _ => ?_
  rw [← OnlineSoftmax.coe_mul_coe]
  exact congrArg₂ (fun a b : EReal => a * b) (E5_v21 m ρ c hO H18 b s h) (E5_v5 m ρ c wo hwo h j)

end Cert.KernelIdeal.Hand

end
-- ==== Proof.KI.FlashPayloads.lean ====
import proofs.«106544_j89970974917189_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The attention block's arithmetic, read at an index, on the extended reals

Each value the attention body computes is read here at one index given by its coordinates: the scores as a sum over
the 64 features, the row maximum as a fold of max over the 128 keys of the block, the correction factor and the weights
as exponentials of differences, the new denominator and the new accumulator as the rescaled old ones plus a sum over
the 128 keys, the stored output as the accumulator times the reciprocal of the denominator, and the initial scratch
values as the constants they are. On the extended reals a narrowing of format is the identity.
-/

noncomputable section

open scoped BigOperators

namespace Cert.KernelIdeal.Hand

open Idealize.ShloMosaic Idealize.ShloMosaic.ValueIdx Idealize.SL.Sem

/-! ## Layout-only reads -/

/-- A [32,256] vector cast to [32,256,1] reads, at (b, r, 0), the operand at (b, r). -/
theorem cast_addLane_apply {α : Type} (x : S32x256.Idx → α) (h : S32x256.ShapeCasts S32x256x1)
    (b : Fin 32) (r : Fin 256) (u : Fin 1) : shapeCast S32x256x1 x h (ix3 b r u) = x (ix2 b r) :=
  shapeCast_apply x h _ _ (by
    have hu : u.val = 0 := by omega
    rw [Shape.rowMajor_val_two, Shape.rowMajor_val_three]
    show b.val * 256 + r.val = (b.val * 256 + r.val) * 1 + u.val
    rw [hu, Nat.mul_one, Nat.add_zero])

/-- A [32,256,1] vector cast to [32,256] reads, at (b, r), the operand at (b, r, 0). -/
theorem cast_dropLane_apply {α : Type} (x : S32x256x1.Idx → α) (h : S32x256x1.ShapeCasts S32x256)
    (b : Fin 32) (r : Fin 256) : shapeCast S32x256 x h (ix2 b r) = x (ix3 b r (0 : Fin 1)) :=
  shapeCast_apply x h _ _ (by
    rw [Shape.rowMajor_val_two, Shape.rowMajor_val_three]
    show (b.val * 256 + r.val) * 1 + 0 = b.val * 256 + r.val
    rw [Nat.mul_one, Nat.add_zero])

/-- A [32,256,1] vector broadcast along its unit axis to [32,256,n] reads, at (b, r, c), the operand at
    (b, r, 0). -/
theorem bcast_lane_apply {α : Type} {n : Nat} (x : S32x256x1.Idx → α)
    (h : S32x256x1.Broadcasts (⟨3, ![32, 256, n]⟩ : Shape)) (b : Fin 32) (r : Fin 256) (c : Fin n) :
    broadcastTo (⟨3, ![32, 256, n]⟩ : Shape) x h (ix3 b r c) = x (ix3 b r (0 : Fin 1)) :=
  broadcastTo_apply x h _ _ fun a => match a with | ⟨0, _⟩ => rfl | ⟨1, _⟩ => rfl | ⟨2, _⟩ => rfl

/-- The running maximum viewed as a column: the [32,256] operand at (b, r). -/
theorem pay8_apply (v10 : Vec Ideal S32x256 .f32) (b : Fin 32) (r : Fin 256) :
    Gen.k1_pay8 v10 (ix3 b r (0 : Fin 1)) = v10 (ix2 b r) := by
  unfold Gen.k1_pay8
  exact cast_addLane_apply v10 _ b r 0

/-- The new maximum stored back as a [32,256] vector: the column at (b, r, 0). -/
theorem pay2_apply (v14 : FVec Ideal S32x256x1 .f32) (b : Fin 32) (r : Fin 256) :
    Gen.k1_pay2 v14 (ix2 b r) = v14 (ix3 b r (0 : Fin 1)) := by
  unfold Gen.k1_pay2
  rw [shapeCast_self]
  exact cast_dropLane_apply v14 _ b r

/-- The rescaled accumulator: the correction factor of row (b, r) times the old accumulator at (b, r, d). -/
theorem pay13_apply (v3 : Vec Ideal S32x256x64 .bf16) (v7 : Vec Ideal S32x128x64 .bf16) (v10 : Vec Ideal S32x256 .f32)
    (v28 : Vec Ideal S32x256x64 .f32) (b : Fin 32) (r : Fin 256) (d : Fin 64) :
    Gen.k1_pay13 v3 v7 v10 v28 (ix3 b r d) = Gen.k1_pay10 v3 v7 v10 (ix3 b r (0 : Fin 1)) * v28 (ix3 b r d) := by
  unfold Gen.k1_pay13
  refine (mulf_apply _ _ _).trans ?_
  exact congrArg (· * v28 (ix3 b r d)) (bcast_lane_apply (Gen.k1_pay10 v3 v7 v10) _ b r d)

/-! ## The two batched products -/

/-- The scores product's operand indices: at result index (b, r, k) and contraction coordinate d the left operand is
    read at (b, r, d) and the right one at (b, k, d). -/
theorem dotQK_lhsIdx (b : Fin 32) (r : Fin 256) (k : Fin 128) (d : Fin 64) :
    dot_S32x256x64_S32x128x64_S32x256x128_2_2_1_1_0_0.lhsIdx (ix3 b r k)
      ((contrEquiv1 dot_S32x256x64_S32x128x64_S32x256x128_2_2_1_1_0_0 64 rfl rfl).symm d) = ix3 b r d := by
  have c3 := contrEquiv1_symm_val dot_S32x256x64_S32x128x64_S32x256x128_2_2_1_1_0_0 64 rfl rfl d
  funext ax; apply Fin.ext
  match ax with
  | ⟨0, _⟩ => simp [DotDims.lhsIdx, dot_S32x256x64_S32x128x64_S32x256x128_2_2_1_1_0_0]; rfl
  | ⟨1, _⟩ => simp [DotDims.lhsIdx, dot_S32x256x64_S32x128x64_S32x256x128_2_2_1_1_0_0]; rfl
  | ⟨2, _⟩ => simp [DotDims.lhsIdx, dot_S32x256x64_S32x128x64_S32x256x128_2_2_1_1_0_0]; exact c3

theorem dotQK_rhsIdx (b : Fin 32) (r : Fin 256) (k : Fin 128) (d : Fin 64) :
    dot_S32x256x64_S32x128x64_S32x256x128_2_2_1_1_0_0.rhsIdx (ix3 b r k)
      ((contrEquiv1 dot_S32x256x64_S32x128x64_S32x256x128_2_2_1_1_0_0 64 rfl rfl).symm d) = ix3 b k d := by
  have c3 := contrEquiv1_symm_val dot_S32x256x64_S32x128x64_S32x256x128_2_2_1_1_0_0 64 rfl rfl d
  funext ax; apply Fin.ext
  match ax with
  | ⟨0, _⟩ => simp [DotDims.rhsIdx, dot_S32x256x64_S32x128x64_S32x256x128_2_2_1_1_0_0]; rfl
  | ⟨1, _⟩ => simp [DotDims.rhsIdx, dot_S32x256x64_S32x128x64_S32x256x128_2_2_1_1_0_0]; rfl
  | ⟨2, _⟩ => simp [DotDims.rhsIdx, dot_S32x256x64_S32x128x64_S32x256x128_2_2_1_1_0_0]; exact c3

/-- The scores: row (b, r) of the scaled queries against row (b, k) of the keys, summed over the 64 features. -/
theorem pay7_apply (v3 : Vec Ideal S32x256x64 .bf16) (v7 : Vec Ideal S32x128x64 .bf16)
    (b : Fin 32) (r : Fin 256) (k : Fin 128) :
    Gen.k1_pay7 v3 v7 (ix3 b r k)
      = ∑ d : Fin 64, (v3 (ix3 b r d) * Ideal.ofBits .bf16 0x3E00#16) * v7 (ix3 b k d) := by
  unfold Gen.k1_pay7
  rw [shapeCast_self, shapeCast_self]
  refine (Ideal.matmul_constant_zero_apply (φ₁ := .bf16) (φ₂ := .bf16) _ none _ _ _).trans ?_
  rw [← Equiv.sum_comp (contrEquiv1 dot_S32x256x64_S32x128x64_S32x256x128_2_2_1_1_0_0 64 rfl rfl).symm]
  refine Finset.sum_congr rfl fun d _ => ?_
  rw [dotQK_lhsIdx, dotQK_rhsIdx]
  rfl

/-- The weighted-values product's operand indices: at result index (b, r, d) and contraction coordinate k the left
    operand is read at (b, r, k) and the right one at (b, k, d). -/
theorem dotPV_lhsIdx (b : Fin 32) (r : Fin 256) (d : Fin 64) (k : Fin 128) :
    dot_S32x256x128_S32x128x64_S32x256x64_2_1_1_2_0_0.lhsIdx (ix3 b r d)
      ((contrEquiv1 dot_S32x256x128_S32x128x64_S32x256x64_2_1_1_2_0_0 128 rfl rfl).symm k) = ix3 b r k := by
  have c3 := contrEquiv1_symm_val dot_S32x256x128_S32x128x64_S32x256x64_2_1_1_2_0_0 128 rfl rfl k
  funext ax; apply Fin.ext
  match ax with
  | ⟨0, _⟩ => simp [DotDims.lhsIdx, dot_S32x256x128_S32x128x64_S32x256x64_2_1_1_2_0_0]; rfl
  | ⟨1, _⟩ => simp [DotDims.lhsIdx, dot_S32x256x128_S32x128x64_S32x256x64_2_1_1_2_0_0]; rfl
  | ⟨2, _⟩ => simp [DotDims.lhsIdx, dot_S32x256x128_S32x128x64_S32x256x64_2_1_1_2_0_0]; exact c3

theorem dotPV_rhsIdx (b : Fin 32) (r : Fin 256) (d : Fin 64) (k : Fin 128) :
    dot_S32x256x128_S32x128x64_S32x256x64_2_1_1_2_0_0.rhsIdx (ix3 b r d)
      ((contrEquiv1 dot_S32x256x128_S32x128x64_S32x256x64_2_1_1_2_0_0 128 rfl rfl).symm k) = ix3 b k d := by
  have c3 := contrEquiv1_symm_val dot_S32x256x128_S32x128x64_S32x256x64_2_1_1_2_0_0 128 rfl rfl k
  funext ax; apply Fin.ext
  match ax with
  | ⟨0, _⟩ => simp [DotDims.rhsIdx, dot_S32x256x128_S32x128x64_S32x256x64_2_1_1_2_0_0]; rfl
  | ⟨1, _⟩ => simp [DotDims.rhsIdx, dot_S32x256x128_S32x128x64_S32x256x64_2_1_1_2_0_0]; exact c3
  | ⟨2, _⟩ => simp [DotDims.rhsIdx, dot_S32x256x128_S32x128x64_S32x256x64_2_1_1_2_0_0]; rfl

/-- The new accumulator: the rescaled one at (b, r, d) plus row (b, r) of the weights against column d of the
    values of batch b, summed over the 128 keys of the block. -/
theorem pay1_apply (v30 : FVec Ideal S32x256x64 .f32) (v31 : FVec Ideal S32x256x128 .bf16)
    (v32 : Vec Ideal S32x128x64 .bf16) (b : Fin 32) (r : Fin 256) (d : Fin 64) :
    Gen.k1_pay1 v30 v31 v32 (ix3 b r d)
      = v30 (ix3 b r d) + ∑ k : Fin 128, v31 (ix3 b r k) * v32 (ix3 b k d) := by
  unfold Gen.k1_pay1
  rw [shapeCast_self, shapeCast_self]
  refine (addf_apply _ _ _).trans ?_
  refine congrArg (v30 (ix3 b r d) + ·) ?_
  refine (Ideal.matmul_constant_zero_apply (φ₁ := .bf16) (φ₂ := .bf16) _ none _ _ _).trans ?_
  rw [← Equiv.sum_comp (contrEquiv1 dot_S32x256x128_S32x128x64_S32x256x64_2_1_1_2_0_0 128 rfl rfl).symm]
  refine Finset.sum_congr rfl fun k _ => ?_
  rw [dotPV_lhsIdx, dotPV_rhsIdx]

/-! ## The constant words -/

/-- The bf16 word that scales the queries denotes 1/8. -/
theorem scale_word : Ideal.ofBits .bf16 0x3E00#16 = ((1 / 8 : ℝ) : EReal) := by
  simp [Ideal.ofBits, Ideal.ieee, -EReal.coe_mul]; norm_num

/-- The f32 word in the numerator of the final division denotes 1. -/
theorem one_word : Ideal.ofBits .f32 0x3F800000#32 = 1 := by
  simp [Ideal.ofBits, Ideal.ieee, -EReal.coe_mul]; norm_num

/-- The f32 word from which the lane maximum starts denotes the bottom element. -/
theorem negInf_word : Ideal.ofBits .f32 0xFF800000#32 = ⊥ := by
  simp [Ideal.ofBits, Ideal.ieee]

/-- The f32 word that initialises the running maximum denotes a real number (a finite pattern). -/
theorem minit_word_real : ∃ x : ℝ, Ideal.ofBits .f32 0xFF333332#32 = (x : EReal) := by
  simp [Ideal.ofBits, Ideal.ieee, -EReal.coe_mul]
  exact ⟨_, (EReal.coe_neg _).symm⟩

/-! ## The initial scratch values and the final normalisation -/

/-- The running maximum is initialised to the finite word above everywhere. -/
theorem pay4_apply (b : Fin 32) (r : Fin 256) :
    Gen.k1_pay4 (F := Ideal) (ix2 b r) = Ideal.ofBits .f32 0xFF333332#32 := by
  unfold Gen.k1_pay4
  rw [shapeCast_self]
  rfl

/-- The running denominator is initialised to zero everywhere. -/
theorem pay5_apply (b : Fin 32) (r : Fin 256) : Gen.k1_pay5 (F := Ideal) (ix2 b r) = 0 := by
  unfold Gen.k1_pay5
  rw [shapeCast_self]
  exact Ideal.ofBits_zero_f32

/-- The accumulator is initialised to zero everywhere. -/
theorem pay6_apply (b : Fin 32) (r : Fin 256) (d : Fin 64) : Gen.k1_pay6 (F := Ideal) (ix3 b r d) = 0 := by
  unfold Gen.k1_pay6
  rw [shapeCast_self]
  exact Ideal.ofBits_zero_f32

/-- The stored output: the accumulator at (b, r, d) times the reciprocal of the denominator of row (b, r). -/
theorem pay3_apply (v46 : Vec Ideal S32x256 .f32) (v49 : Vec Ideal S32x256x64 .f32)
    (b : Fin 32) (r : Fin 256) (d : Fin 64) :
    Gen.k1_pay3 v46 v49 (ix3 b r d)
      = v49 (ix3 b r d) * Ideal.div (Ideal.ofBits .f32 0x3F800000#32) (v46 (ix2 b r)) := by
  unfold Gen.k1_pay3
  refine (truncf_apply (s := S32x256x64) (φ := .f32) (ψ := .bf16) _ _ _).trans ?_
  refine (mulf_apply _ _ _).trans ?_
  refine congrArg (v49 (ix3 b r d) * ·) ?_
  refine (bcast_lane_apply _ _ b r d).trans ?_
  refine (cast_addLane_apply _ _ b r 0).trans ?_
  rfl

/-! ## The two lane reductions -/

/-- The index over (b, r) with lane coordinate k inserted on the reduced axis is (b, r, k). -/
theorem lane_lift (h : S32x256x128.Reduces [2] S32x256) (b : Fin 32) (r : Fin 256) (k : Fin 128) :
    h.lift (ix2 b r) k = ix3 b r k := by
  funext c; apply Fin.ext
  match c with
  | ⟨0, _⟩ => rfl
  | ⟨1, _⟩ => rfl
  | ⟨2, _⟩ => rfl

/-- A sum over the 128 lanes of a [32,256,128] vector, read at (b, r): the sum over k of the vector at (b, r, k). -/
theorem lane_sum_apply (x : FVec Ideal S32x256x128 .f32) (acc : BitVec 32) (h : S32x256x128.Reduces [2] S32x256)
    (hφ : FKind.Formats .f32) (hacc : acc = FKind.add.neutral .f32 hφ) (b : Fin 32) (r : Fin 256) :
    multiReduction .add [2] S32x256 x acc h hφ hacc (ix2 b r) = ∑ k : Fin 128, x (ix3 b r k) := by
  refine (Ideal.multiReduction_add_single (φ := .f32) x acc h hφ hacc (ix2 b r)).trans ?_
  show (∑ k : Fin 128, x (h.lift (ix2 b r) k)) = _
  exact Finset.sum_congr rfl fun k _ => congrArg x (lane_lift h b r k)

/-- A maximum over the 128 lanes of a [32,256,128] vector from the bottom element, read at (b, r): the fold of max
    from the bottom element over k of the vector at (b, r, k). -/
theorem lane_max_apply (x : FVec Ideal S32x256x128 .f32) (h : S32x256x128.Reduces [2] S32x256)
    (hφ : FKind.Formats .f32) (hacc : (0xFF800000#32 : BitVec 32) = FKind.maximumf.neutral .f32 hφ) (b : Fin 32) (r : Fin 256) :
    multiReduction .maximumf [2] S32x256 x 0xFF800000#32 h hφ hacc (ix2 b r)
      = (Finset.univ : Finset (Fin 128)).fold max ⊥ fun k => x (ix3 b r k) := by
  refine (Ideal.multiReduction_maximumf_single (φ := .f32) x _ h hφ hacc (ix2 b r)).trans ?_
  show (Finset.univ : Finset (Fin 128)).fold max (Ideal.ofBits .f32 0xFF800000#32) (fun k => x (h.lift (ix2 b r) k)) = _
  rw [negInf_word]
  exact congrArg ((Finset.univ : Finset (Fin 128)).fold max ⊥) (funext fun k => congrArg x (lane_lift h b r k))

/-- The new maximum of row (b, r): the larger of the running maximum and the largest of the row's 128 scores. -/
theorem pay9_apply (v3 : Vec Ideal S32x256x64 .bf16) (v7 : Vec Ideal S32x128x64 .bf16) (v10 : Vec Ideal S32x256 .f32)
    (b : Fin 32) (r : Fin 256) :
    Gen.k1_pay9 v3 v7 v10 (ix3 b r (0 : Fin 1))
      = max (v10 (ix2 b r)) ((Finset.univ : Finset (Fin 128)).fold max ⊥ fun k => Gen.k1_pay7 v3 v7 (ix3 b r k)) := by
  unfold Gen.k1_pay9
  refine (maximumf_apply _ _ _).trans ?_
  refine congrArg₂ max (pay8_apply v10 b r) ?_
  refine (cast_addLane_apply _ _ b r 0).trans ?_
  exact lane_max_apply (Gen.k1_pay7 v3 v7) _ _ _ b r

/-- The correction factor of row (b, r): the exponential of the running maximum minus the new one. -/
theorem pay10_apply (v3 : Vec Ideal S32x256x64 .bf16) (v7 : Vec Ideal S32x128x64 .bf16) (v10 : Vec Ideal S32x256 .f32)
    (b : Fin 32) (r : Fin 256) :
    Gen.k1_pay10 v3 v7 v10 (ix3 b r (0 : Fin 1))
      = Ideal.exp (v10 (ix2 b r) - Gen.k1_pay9 v3 v7 v10 (ix3 b r (0 : Fin 1))) := by
  unfold Gen.k1_pay10
  show Ideal.exp (Gen.k1_pay8 v10 (ix3 b r (0 : Fin 1)) - Gen.k1_pay9 v3 v7 v10 (ix3 b r (0 : Fin 1))) = _
  rw [pay8_apply]

/-- The weights: the exponential of each score minus its row's new maximum. -/
theorem pay11_apply (v3 : Vec Ideal S32x256x64 .bf16) (v7 : Vec Ideal S32x128x64 .bf16) (v10 : Vec Ideal S32x256 .f32)
    (b : Fin 32) (r : Fin 256) (k : Fin 128) :
    Gen.k1_pay11 v3 v7 v10 (ix3 b r k)
      = Ideal.exp (Gen.k1_pay7 v3 v7 (ix3 b r k) - Gen.k1_pay9 v3 v7 v10 (ix3 b r (0 : Fin 1))) := by
  unfold Gen.k1_pay11
  exact congrArg (fun t => Ideal.exp (Gen.k1_pay7 v3 v7 (ix3 b r k) - t))
    (bcast_lane_apply (Gen.k1_pay9 v3 v7 v10) _ b r k)

/-- The new denominator of row (b, r): the correction factor times the running one, plus the row's 128 weights. -/
theorem pay12_apply (v3 : Vec Ideal S32x256x64 .bf16) (v7 : Vec Ideal S32x128x64 .bf16) (v10 : Vec Ideal S32x256 .f32)
    (v21 : Vec Ideal S32x256 .f32) (b : Fin 32) (r : Fin 256) :
    Gen.k1_pay12 v3 v7 v10 v21 (ix2 b r)
      = Gen.k1_pay10 v3 v7 v10 (ix3 b r (0 : Fin 1)) * v21 (ix2 b r)
        + ∑ k : Fin 128, Gen.k1_pay11 v3 v7 v10 (ix3 b r k) := by
  unfold Gen.k1_pay12
  refine (congrFun (shapeCast_self _ _) _).trans ?_
  refine (addf_apply _ _ _).trans ?_
  refine congrArg₂ (· + ·) ?_ ?_
  · refine (mulf_apply _ _ _).trans ?_
    exact congrArg (· * v21 (ix2 b r)) (cast_dropLane_apply (Gen.k1_pay10 v3 v7 v10) _ b r)
  · exact lane_sum_apply (Gen.k1_pay11 v3 v7 v10) _ _ _ _ b r

/-- The weights handed to the second product are the weights themselves: narrowing is the identity on the
    extended reals. -/
theorem pay14_apply (v3 : Vec Ideal S32x256x64 .bf16) (v7 : Vec Ideal S32x128x64 .bf16) (v10 : Vec Ideal S32x256 .f32)
    (i : S32x256x128.Idx) : Gen.k1_pay14 v3 v7 v10 i = Gen.k1_pay11 v3 v7 v10 i := rfl

/-! ## Consequences of the new maximum's closed form -/

/-- The initial running maximum's word, exactly: minus 11744050 times 2 to the 104. -/
theorem minit_word : Ideal.ofBits .f32 0xFF333332#32 = ((-(11744050 * 2 ^ 104) : ℝ) : EReal) := by
  simp [Ideal.ofBits, Ideal.ieee, -EReal.coe_mul]

/-- The fold of max from the bottom element over the 128 lanes is the supremum over them. -/
theorem fold_max_bot_eq_sup (f : Fin 128 → EReal) :
    (Finset.univ : Finset (Fin 128)).fold max ⊥ f = Finset.univ.sup f := rfl

/-- The running maximum is at most the new one. -/
theorem old_le_pay9 (v3 : Vec Ideal S32x256x64 .bf16) (v7 : Vec Ideal S32x128x64 .bf16) (v10 : Vec Ideal S32x256 .f32)
    (b : Fin 32) (r : Fin 256) : v10 (ix2 b r) ≤ Gen.k1_pay9 v3 v7 v10 (ix3 b r (0 : Fin 1)) := by
  rw [pay9_apply]
  exact le_max_left _ _

/-- Every score of row (b, r) is at most the row's new maximum. -/
theorem score_le_pay9 (v3 : Vec Ideal S32x256x64 .bf16) (v7 : Vec Ideal S32x128x64 .bf16) (v10 : Vec Ideal S32x256 .f32)
    (b : Fin 32) (r : Fin 256) (k : Fin 128) :
    Gen.k1_pay7 v3 v7 (ix3 b r k) ≤ Gen.k1_pay9 v3 v7 v10 (ix3 b r (0 : Fin 1)) := by
  rw [pay9_apply, fold_max_bot_eq_sup]
  exact le_max_of_le_right (Finset.le_sup (f := fun k => Gen.k1_pay7 v3 v7 (ix3 b r k)) (Finset.mem_univ k))

/-- The same as an equality of whole vectors: the narrowed weights passed to the second product are the f32 weights. -/
theorem pay14_eq (v3 : Vec Ideal S32x256x64 .bf16) (v7 : Vec Ideal S32x128x64 .bf16) (v10 : Vec Ideal S32x256 .f32) :
    Gen.k1_pay14 v3 v7 v10 = Gen.k1_pay11 v3 v7 v10 := rfl

end Cert.KernelIdeal.Hand
-- ==== Proof.KI.FlashFold.lean ====
import proofs.«106544_j89970974917189_2_alg».proof.Proof.KI.FlashPayloads
import proofs.«106544_j89970974917189_2_alg».proof.Proof.LibOnlineSoftmax

/-!
# The attention body folded over the key blocks, and what it stores at the end

One visit of a key block turns the three carried values of a query block (the running maximum m, the running
denominator l, the running numerator acc) into new ones. Folding that step over the 16 key blocks from the initial
values, and normalising at the end, gives at row (b, r) and feature d the softmax-weighted sum of the 2048 values
of batch b at feature d, the weights being the softmax of the row's 2048 scores. The softmax may be written against
any real shift M, because the blockwise quotient does not see the shifts it used on the way.

The carried values at one row are read as blockwise sequences: the maximum is the sequence of shifts, the
denominator is the blockwise denominator lE, the numerator is the blockwise numerator accE; these readings need no
finiteness. Finiteness of the inputs enters
only to join the blockwise quotient to the softmax-weighted sum.
-/

noncomputable section

open scoped BigOperators

namespace Cert.KernelIdeal.Hand

open Idealize.ShloMosaic Idealize.ShloMosaic.ValueIdx Idealize.SL.Sem OnlineSoftmax

/-! ## The fold -/

/-- One visit of a key block: from the carried (m, l, acc) and the block's keys and values, the new (m, l, acc). -/
def flashStep (xq : Vec Ideal S32x256x64 .bf16) (xk xv : Vec Ideal S32x128x64 .bf16)
    (st : Vec Ideal S32x256 .f32 × Vec Ideal S32x256 .f32 × Vec Ideal S32x256x64 .f32) :
    Vec Ideal S32x256 .f32 × Vec Ideal S32x256 .f32 × Vec Ideal S32x256x64 .f32 :=
  (Gen.k1_pay2 (Gen.k1_pay9 xq xk st.1), Gen.k1_pay12 xq xk st.1 st.2.1,
    Gen.k1_pay1 (Gen.k1_pay13 xq xk st.1 st.2.2) (Gen.k1_pay14 xq xk st.1) xv)

/-- The carried values before any key block: the finite stand-in for minus infinity, zero and zero. -/
def flashInit : Vec Ideal S32x256 .f32 × Vec Ideal S32x256 .f32 × Vec Ideal S32x256x64 .f32 :=
  (Gen.k1_pay4 (F := Ideal), Gen.k1_pay5 (F := Ideal), Gen.k1_pay6 (F := Ideal))

/-- The carried values after the first j key blocks. -/
def flashState (xq : Vec Ideal S32x256x64 .bf16) (xk xv : ℕ → Vec Ideal S32x128x64 .bf16) :
    ℕ → Vec Ideal S32x256 .f32 × Vec Ideal S32x256 .f32 × Vec Ideal S32x256x64 .f32
  | 0 => flashInit
  | j + 1 => flashStep xq (xk j) (xv j) (flashState xq xk xv j)

/-- What is stored after the 16th key block: the numerator times the reciprocal of the denominator. -/
def flashOut (xq : Vec Ideal S32x256x64 .bf16) (xk xv : ℕ → Vec Ideal S32x128x64 .bf16) :
    Vec Ideal S32x256x64 .bf16 :=
  Gen.k1_pay3 (flashState xq xk xv 16).2.1 (flashState xq xk xv 16).2.2

theorem flashState_zero (xq : Vec Ideal S32x256x64 .bf16) (xk xv : ℕ → Vec Ideal S32x128x64 .bf16) :
    flashState xq xk xv 0 = flashInit := rfl

theorem flashState_succ (xq : Vec Ideal S32x256x64 .bf16) (xk xv : ℕ → Vec Ideal S32x128x64 .bf16) (j : ℕ) :
    flashState xq xk xv (j + 1) = flashStep xq (xk j) (xv j) (flashState xq xk xv j) := rfl

/-! ## The three carried values at one row, as sequences -/

/-- The scores of row (b, r) against key block j, as an extended-real family over the 128 keys of the block. -/
def rowScore (xq : Vec Ideal S32x256x64 .bf16) (xk : ℕ → Vec Ideal S32x128x64 .bf16) (b : Fin 32) (r : Fin 256) :
    ℕ → Fin 128 → EReal :=
  fun j k => Gen.k1_pay7 xq (xk j) (ix3 b r k)

/-- The running maximum of row (b, r) after j key blocks. -/
def rowMax (xq : Vec Ideal S32x256x64 .bf16) (xk xv : ℕ → Vec Ideal S32x128x64 .bf16) (b : Fin 32) (r : Fin 256) :
    ℕ → EReal :=
  fun j => (flashState xq xk xv j).1 (ix2 b r)

/-- The values of batch b at feature d in key block j. -/
def colValue (xv : ℕ → Vec Ideal S32x128x64 .bf16) (b : Fin 32) (d : Fin 64) : ℕ → Fin 128 → EReal :=
  fun j k => xv j (ix3 b k d)

variable (xq : Vec Ideal S32x256x64 .bf16) (xk xv : ℕ → Vec Ideal S32x128x64 .bf16)

/-- The running maximum starts at the finite initial word. -/
theorem rowMax_zero (b : Fin 32) (r : Fin 256) :
    rowMax xq xk xv b r 0 = Ideal.ofBits .f32 0xFF333332#32 :=
  pay4_apply b r

/-- The new maximum the step computes, read at the row, is the next running maximum. -/
theorem pay9_eq_rowMax_succ (b : Fin 32) (r : Fin 256) (j : ℕ) :
    Gen.k1_pay9 xq (xk j) (flashState xq xk xv j).1 (ix3 b r (0 : Fin 1)) = rowMax xq xk xv b r (j + 1) :=
  (pay2_apply _ b r).symm

/-- Each key block raises the running maximum to the larger of itself and the block's largest score. -/
theorem rowMax_succ (b : Fin 32) (r : Fin 256) (j : ℕ) :
    rowMax xq xk xv b r (j + 1)
      = max (rowMax xq xk xv b r j)
          ((Finset.univ : Finset (Fin 128)).fold max ⊥ fun k => rowScore xq xk b r j k) := by
  rw [← pay9_eq_rowMax_succ, pay9_apply]
  rfl

/-- The correction factor of the step at the row: the exponential of the old maximum minus the new one. -/
theorem pay10_eq (b : Fin 32) (r : Fin 256) (j : ℕ) :
    Gen.k1_pay10 xq (xk j) (flashState xq xk xv j).1 (ix3 b r (0 : Fin 1))
      = Ideal.exp (rowMax xq xk xv b r j - rowMax xq xk xv b r (j + 1)) := by
  rw [pay10_apply, pay9_eq_rowMax_succ]
  rfl

/-- The weights of the step at the row: the exponential of each score minus the new maximum. -/
theorem pay11_eq (b : Fin 32) (r : Fin 256) (j : ℕ) (k : Fin 128) :
    Gen.k1_pay11 xq (xk j) (flashState xq xk xv j).1 (ix3 b r k)
      = Ideal.exp (rowScore xq xk b r j k - rowMax xq xk xv b r (j + 1)) := by
  rw [pay11_apply, pay9_eq_rowMax_succ]
  rfl

/-- The running denominator of row (b, r) after j key blocks is the blockwise denominator of the row's scores
    against the row's running maxima. -/
theorem flashState_l (b : Fin 32) (r : Fin 256) (j : ℕ) :
    (flashState xq xk xv j).2.1 (ix2 b r) = lE (rowMax xq xk xv b r) (rowScore xq xk b r) j := by
  induction j with
  | zero => exact pay5_apply b r
  | succ j ih =>
    rw [lE_succ, ← ih]
    show Gen.k1_pay12 xq (xk j) (flashState xq xk xv j).1 (flashState xq xk xv j).2.1 (ix2 b r) = _
    rw [pay12_apply, pay10_eq]
    simp only [pay11_eq]

/-- The running numerator of row (b, r) at feature d after j key blocks is the blockwise numerator of the row's
    scores and the feature's values against the row's running maxima. -/
theorem flashState_acc (b : Fin 32) (r : Fin 256) (d : Fin 64) (j : ℕ) :
    (flashState xq xk xv j).2.2 (ix3 b r d)
      = accE (rowMax xq xk xv b r) (rowScore xq xk b r) (colValue xv b d) j := by
  induction j with
  | zero => exact pay6_apply b r d
  | succ j ih =>
    rw [accE_succ, ← ih]
    show Gen.k1_pay1 (Gen.k1_pay13 xq (xk j) (flashState xq xk xv j).1 (flashState xq xk xv j).2.2)
      (Gen.k1_pay14 xq (xk j) (flashState xq xk xv j).1) (xv j) (ix3 b r d) = _
    rw [pay1_apply, pay13_apply, pay10_eq, pay14_eq]
    simp only [pay11_eq]
    rfl

/-- What is stored at (b, r, d): the blockwise numerator after the 16 key blocks times one over the blockwise
    denominator. -/
theorem flashOut_apply (b : Fin 32) (r : Fin 256) (d : Fin 64) :
    flashOut xq xk xv (ix3 b r d)
      = accE (rowMax xq xk xv b r) (rowScore xq xk b r) (colValue xv b d) 16
        * Ideal.div 1 (lE (rowMax xq xk xv b r) (rowScore xq xk b r) 16) := by
  unfold flashOut
  rw [pay3_apply, one_word, flashState_l, flashState_acc]

/-! ## The 2048 keys of a batch, numbered through the blocks -/

/-- The key block that holds key t of the 2048: t / 128. -/
def keyBlock (t : Fin 2048) : ℕ := t.val / 128

/-- The place of key t inside its block: t % 128. -/
def keyLane (t : Fin 2048) : Fin 128 := ⟨t.val % 128, Nat.mod_lt _ (by norm_num)⟩

theorem keyBlock_lt (t : Fin 2048) : keyBlock t < 16 := by
  have := t.isLt; unfold keyBlock; omega

theorem keyBlock_mk (j : ℕ) (k : Fin 128) (h : j * 128 + k.val < 2048) :
    keyBlock ⟨j * 128 + k.val, h⟩ = j := by
  have := k.isLt; unfold keyBlock; show (j * 128 + k.val) / 128 = j; omega

theorem keyLane_mk (j : ℕ) (k : Fin 128) (h : j * 128 + k.val < 2048) :
    keyLane ⟨j * 128 + k.val, h⟩ = k := by
  have := k.isLt; apply Fin.ext; show (j * 128 + k.val) % 128 = k.val; omega

/-- The score of row (b, r) against key t of batch b: the scaled query row against the key row, summed over the 64
    features. -/
def flashScore (xq : Vec Ideal S32x256x64 .bf16) (xk : ℕ → Vec Ideal S32x128x64 .bf16) (b : Fin 32) (r : Fin 256)
    (t : Fin 2048) : EReal :=
  ∑ d' : Fin 64, (xq (ix3 b r d') * Ideal.ofBits .bf16 0x3E00#16) * xk (keyBlock t) (ix3 b (keyLane t) d')

/-- The value of key t of batch b at feature d. -/
def flashValue (xv : ℕ → Vec Ideal S32x128x64 .bf16) (b : Fin 32) (d : Fin 64) (t : Fin 2048) : EReal :=
  xv (keyBlock t) (ix3 b (keyLane t) d)

/-- The same two with the block and the place written out. -/
theorem flashScore_def (b : Fin 32) (r : Fin 256) (t : Fin 2048) :
    flashScore xq xk b r t
      = ∑ d' : Fin 64, (xq (ix3 b r d') * Ideal.ofBits .bf16 0x3E00#16)
          * xk (t.val / 128) (ix3 b (⟨t.val % 128, Nat.mod_lt _ (by norm_num)⟩ : Fin 128) d') := rfl

theorem flashValue_def (b : Fin 32) (d : Fin 64) (t : Fin 2048) :
    flashValue xv b d t = xv (t.val / 128) (ix3 b (⟨t.val % 128, Nat.mod_lt _ (by norm_num)⟩ : Fin 128) d) := rfl

/-- The score of the row against place k of block j is its score against key j·128 + k. -/
theorem rowScore_eq_flashScore (b : Fin 32) (r : Fin 256) (j : ℕ) (k : Fin 128) (h : j * 128 + k.val < 2048) :
    rowScore xq xk b r j k = flashScore xq xk b r ⟨j * 128 + k.val, h⟩ := by
  unfold rowScore flashScore
  rw [pay7_apply, keyBlock_mk, keyLane_mk]

/-- The value at place k of block j is the value of key j·128 + k. -/
theorem colValue_eq_flashValue (b : Fin 32) (d : Fin 64) (j : ℕ) (k : Fin 128) (h : j * 128 + k.val < 2048) :
    colValue xv b d j k = flashValue xv b d ⟨j * 128 + k.val, h⟩ := by
  unfold colValue flashValue
  rw [keyBlock_mk, keyLane_mk]

/-! ## Finite inputs give finite scores and finite running maxima -/

/-- With finite queries and finite keys in the 16 blocks, every score is a real: a finite sum of products of
    reals (the scale is 1/8). -/
theorem flashScore_real (hq : ∀ i, ∃ x : ℝ, xq i = (x : EReal))
    (hk : ∀ j, j < 16 → ∀ i, ∃ x : ℝ, xk j i = (x : EReal)) (b : Fin 32) (r : Fin 256) (t : Fin 2048) :
    ∃ x : ℝ, flashScore xq xk b r t = (x : EReal) := by
  choose q hq' using hq
  choose kk hk' using hk (keyBlock t) (keyBlock_lt t)
  unfold flashScore
  rw [scale_word]
  simp only [hq', hk', coe_mul_coe, ← coe_sum]
  exact ⟨_, rfl⟩

/-- The same for the scores of one block. -/
theorem rowScore_real (hq : ∀ i, ∃ x : ℝ, xq i = (x : EReal))
    (hk : ∀ j, j < 16 → ∀ i, ∃ x : ℝ, xk j i = (x : EReal)) (b : Fin 32) (r : Fin 256) (j : ℕ) (hj : j < 16)
    (k : Fin 128) : ∃ x : ℝ, rowScore xq xk b r j k = (x : EReal) := by
  have h : j * 128 + k.val < 2048 := by have := k.isLt; omega
  rw [rowScore_eq_flashScore xq xk b r j k h]
  exact flashScore_real xq xk hq hk b r _

/-- With finite values in the 16 blocks, every value is a real. -/
theorem flashValue_real (hv : ∀ j, j < 16 → ∀ i, ∃ x : ℝ, xv j i = (x : EReal)) (b : Fin 32) (d : Fin 64)
    (t : Fin 2048) : ∃ x : ℝ, flashValue xv b d t = (x : EReal) :=
  hv (keyBlock t) (keyBlock_lt t) _

/-- With finite queries and keys the running maximum of every row stays a real through the 16 blocks: it starts at
    a finite word and each block takes the larger of it and the largest of 128 reals. -/
theorem rowMax_real (hq : ∀ i, ∃ x : ℝ, xq i = (x : EReal))
    (hk : ∀ j, j < 16 → ∀ i, ∃ x : ℝ, xk j i = (x : EReal)) (b : Fin 32) (r : Fin 256) :
    ∀ j, j ≤ 16 → ∃ x : ℝ, rowMax xq xk xv b r j = (x : EReal) := by
  haveI : Nonempty (Fin 128) := ⟨⟨0, by norm_num⟩⟩
  intro j
  induction j with
  | zero => intro _; rw [rowMax_zero]; exact minit_word_real
  | succ j ih =>
    intro hj
    obtain ⟨m, hm⟩ := ih (Nat.le_of_succ_le hj)
    choose s hs using fun k => rowScore_real xq xk hq hk b r j (Nat.lt_of_succ_le hj) k
    rw [rowMax_succ, hm]
    simp only [hs]
    rw [fold_max_coe_eq, max_coe_coe]
    exact ⟨_, rfl⟩

/-! ## The stored output is the softmax-weighted sum of the values -/

/-- With finite queries, keys and values: what the fold stores at (b, r, d) after the 16 key blocks is the sum over
    the 2048 keys of batch b of softmax weight times value at feature d, the softmax of the row's 2048 scores written
    against any real M. -/
theorem flashOut_eq_softmax (hq : ∀ i, ∃ x : ℝ, xq i = (x : EReal))
    (hk : ∀ j, j < 16 → ∀ i, ∃ x : ℝ, xk j i = (x : EReal))
    (hv : ∀ j, j < 16 → ∀ i, ∃ x : ℝ, xv j i = (x : EReal)) (b : Fin 32) (r : Fin 256) (d : Fin 64) (M : ℝ) :
    flashOut xq xk xv (ix3 b r d)
      = ∑ t : Fin 2048, Ideal.div (Ideal.exp (flashScore xq xk b r t - (M : EReal)))
          (∑ t' : Fin 2048, Ideal.exp (flashScore xq xk b r t' - (M : EReal))) * flashValue xv b d t := by
  choose SR hS using flashScore_real xq xk hq hk b r
  choose VR hV using flashValue_real xv hv b d
  have hm : ∀ j, ∃ x : ℝ, j ≤ 16 → rowMax xq xk xv b r j = (x : EReal) := fun j => by
    by_cases h : j ≤ 16
    · obtain ⟨x, hx⟩ := rowMax_real xq xk xv hq hk b r j h
      exact ⟨x, fun _ => hx⟩
    · exact ⟨0, fun h' => absurd h' h⟩
  choose μ hμ using hm
  rw [flashOut_apply,
    accE_mul_div_lE_2048 (rowMax xq xk xv b r) (rowScore xq xk b r) (colValue xv b d) μ SR VR M hμ
      (fun j hj k => by rw [← hS]; exact rowScore_eq_flashScore xq xk b r j k _)
      (fun j hj k => by rw [← hV]; exact colValue_eq_flashValue xv b d j k _)]
  simp only [hS, hV]

/-- So what is stored is a real. -/
theorem flashOut_real (hq : ∀ i, ∃ x : ℝ, xq i = (x : EReal))
    (hk : ∀ j, j < 16 → ∀ i, ∃ x : ℝ, xk j i = (x : EReal))
    (hv : ∀ j, j < 16 → ∀ i, ∃ x : ℝ, xv j i = (x : EReal)) (b : Fin 32) (r : Fin 256) (d : Fin 64) :
    ∃ x : ℝ, flashOut xq xk xv (ix3 b r d) = (x : EReal) := by
  choose SR hS using flashScore_real xq xk hq hk b r
  choose VR hV using flashValue_real xv hv b d
  have hZ : (∑ t : Fin 2048, Real.exp (SR t - 0)) ≠ 0 :=
    (Finset.sum_pos (fun t _ => Real.exp_pos _) ⟨(0 : Fin 2048), Finset.mem_univ _⟩).ne'
  rw [flashOut_eq_softmax xq xk xv hq hk hv b r d 0]
  simp only [hS, hV, coe_sub_coe, exp_coe, ← coe_sum, div_coe_coe _ hZ, coe_mul_coe]
  exact ⟨_, rfl⟩

end Cert.KernelIdeal.Hand
-- ==== Proof.KI.Reg1Array.lean ====
import proofs.«106544_j89970974917189_2_alg».proof.Proof.KI.Reg1
import proofs.«106544_j89970974917189_2_alg».proof.Proof.KI.FlashFold
import Idealize.ShloMosaic.Lib.Pipeline.Value
import Idealize.ShloMosaic.Lib.ValueIdx

/-! # The attention region: from the grid points to the whole output array, on the extended reals

The grid is 8 query blocks (256 positions each) by 16 key/value steps (128 positions each); point `t` is query block
`t / 16`, step `t % 16`. The query window's block at `t` is rows `(t / 16)·256 + r` of the query array, the key and value
windows' blocks rows `(t % 16)·128 + k` of theirs, all 32 batch-heads and all 64 channels. Within a query block the
carried triple (running maximum, normaliser, weighted sum) after step `j` is `j + 1` steps of the accumulation from
its initial values over the key/value blocks `0 … j`; the output block is written at the last step only, from the
triple after all sixteen, and those eight blocks tile the output array. -/

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block index maps, decided over the grid: the query and output windows sit at query block `t / 16`, the key
    and value windows at step `t % 16`; every window takes all batch-heads and all channels. -/
theorem idx_facts1 : ∀ t : Fin cfg1.N, t.val < 128
    ∧ win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 3) = 0 ∧ win1_2.index t (1 : Fin 3) = t.val % 16 ∧ win1_2.index t (2 : Fin 3) = 0
    ∧ win1_3.index t (0 : Fin 3) = 0 ∧ win1_3.index t (1 : Fin 3) = t.val / 16 ∧ win1_3.index t (2 : Fin 3) = 0 :=
  (by decide +kernel : ∀ t : Fin grid1.N, _)

/-- Position `(t / 16)·256 + r` of the sequence: row `r` of point `t`'s query block. -/
def qRow (t : Fin cfg1.N) (r : Fin 256) : Fin 2048 := ⟨t.val / 16 * 256 + r.val, by have := (idx_facts1 t).1; omega⟩
/-- Position `(t % 16)·128 + k`: row `k` of point `t`'s key/value block. -/
def kRow (t : Fin cfg1.N) (k : Fin 128) : Fin 2048 := ⟨t.val % 16 * 128 + k.val, by omega⟩

/-- The query window's block at point `t`, read at an index. -/
theorem iblk1_q_apply (c : Dev nD) (t : Fin cfg1.N) (bh : Fin 32) (r : Fin 256) (d : Fin 64) :
    iblk1 V c 0 t (ix3 bh r d) = V c main_v15 (ix3 bh (qRow t r) d) := by
  obtain ⟨_, e0, e1, e2, _⟩ := idx_facts1 t
  show V c main_v15 (((cfg1.win 0).blk t).view.emb (ix3 bh r d)) = _
  refine congrArg (V c main_v15) ?_
  funext a; apply Fin.ext
  match a with
  | ⟨0, _⟩ => show win1_0.index t (0 : Fin 3) * 32 + 1 * bh.val = bh.val; omega
  | ⟨1, _⟩ => show win1_0.index t (1 : Fin 3) * 256 + 1 * r.val = t.val / 16 * 256 + r.val; omega
  | ⟨2, _⟩ => show win1_0.index t (2 : Fin 3) * 64 + 1 * d.val = d.val; omega

/-- The key window's block at point `t`, read at an index. -/
theorem iblk1_k_apply (c : Dev nD) (t : Fin cfg1.N) (bh : Fin 32) (k : Fin 128) (d : Fin 64) :
    iblk1 V c 1 t (ix3 bh k d) = V c main_v16 (ix3 bh (kRow t k) d) := by
  obtain ⟨_, _, _, _, e0, e1, e2, _⟩ := idx_facts1 t
  show V c main_v16 (((cfg1.win 1).blk t).view.emb (ix3 bh k d)) = _
  refine congrArg (V c main_v16) ?_
  funext a; apply Fin.ext
  match a with
  | ⟨0, _⟩ => show win1_1.index t (0 : Fin 3) * 32 + 1 * bh.val = bh.val; omega
  | ⟨1, _⟩ => show win1_1.index t (1 : Fin 3) * 128 + 1 * k.val = t.val % 16 * 128 + k.val; omega
  | ⟨2, _⟩ => show win1_1.index t (2 : Fin 3) * 64 + 1 * d.val = d.val; omega

/-- The value window's block at point `t`, read at an index. -/
theorem iblk1_v_apply (c : Dev nD) (t : Fin cfg1.N) (bh : Fin 32) (k : Fin 128) (d : Fin 64) :
    iblk1 V c 2 t (ix3 bh k d) = V c main_v17 (ix3 bh (kRow t k) d) := by
  obtain ⟨_, _, _, _, _, _, _, e0, e1, e2, _⟩ := idx_facts1 t
  show V c main_v17 (((cfg1.win 2).blk t).view.emb (ix3 bh k d)) = _
  refine congrArg (V c main_v17) ?_
  funext a; apply Fin.ext
  match a with
  | ⟨0, _⟩ => show win1_2.index t (0 : Fin 3) * 32 + 1 * bh.val = bh.val; omega
  | ⟨1, _⟩ => show win1_2.index t (1 : Fin 3) * 128 + 1 * k.val = t.val % 16 * 128 + k.val; omega
  | ⟨2, _⟩ => show win1_2.index t (2 : Fin 3) * 64 + 1 * d.val = d.val; omega

/-- Two points of the same query block see the same query block. -/
theorem iblk1_q_congr (c : Dev nD) (t t' : Fin cfg1.N) (h : t.val / 16 = t'.val / 16) :
    (iblk1 V c 0 t : Vec Ideal S32x256x64 .bf16) = (iblk1 V c 0 t' : Vec Ideal S32x256x64 .bf16) := by
  funext i
  obtain ⟨bh, r, d, rfl⟩ : ∃ (bh : Fin 32) (r : Fin 256) (d : Fin 64), i = ix3 bh r d := ⟨i 0, i 1, i 2, eq_ix3 i⟩
  rw [iblk1_q_apply, iblk1_q_apply]
  exact congrArg (fun s => V c main_v15 (ix3 bh s d)) (Fin.ext (by show t.val / 16 * 256 + r.val = t'.val / 16 * 256 + r.val; rw [h]))

/-- The carried triple does not depend on how its position is written. -/
theorem scrAt1_congr (c : Dev nD) {n n' : ℕ} (h : n = n') (hn : n < cfg1.N) (hn' : n' < cfg1.N) :
    scrAt1 V c n hn = scrAt1 V c n' hn' := by subst h; rfl

/-- Point `t`'s query block, and the key/value blocks of its query block numbered by step (anything past the
    sixteenth). -/
def qBlk (c : Dev nD) (t : Fin cfg1.N) : Vec Ideal S32x256x64 .bf16 := iblk1 V c 0 t
def kBlk (c : Dev nD) (t : Fin cfg1.N) : ℕ → Vec Ideal S32x128x64 .bf16 := fun j =>
  if h : t.val / 16 * 16 + j < cfg1.N then iblk1 V c 1 ⟨t.val / 16 * 16 + j, h⟩ else iblk1 V c 1 t
def vBlk (c : Dev nD) (t : Fin cfg1.N) : ℕ → Vec Ideal S32x128x64 .bf16 := fun j =>
  if h : t.val / 16 * 16 + j < cfg1.N then iblk1 V c 2 ⟨t.val / 16 * 16 + j, h⟩ else iblk1 V c 2 t

/-- Within a query block the carried triple after step `j` is `j + 1` steps of the accumulation from the initial
    values, over that query block's query rows and its key/value blocks `0 … j`. -/
theorem scrAt1_eq_flashState (c : Dev nD) (t : Fin cfg1.N) :
    ∀ (j : ℕ) (hj : j < 16) (hn : t.val / 16 * 16 + j < cfg1.N),
      scrAt1 (F := Ideal) V c (t.val / 16 * 16 + j) hn = flashState (qBlk V c t) (kBlk V c t) (vBlk V c t) (j + 1) := by
  intro j
  induction j with
  | zero =>
    intro _ hn
    have h0 : (⟨t.val / 16 * 16 + 0, hn⟩ : Fin cfg1.N).val % 16 = 0 := by show (t.val / 16 * 16 + 0) % 16 = 0; omega
    rw [scrAt1_first (F := Ideal) V c ⟨t.val / 16 * 16 + 0, hn⟩ h0, flashState_succ, flashState_zero]
    have hq : (iblk1 V c 0 ⟨t.val / 16 * 16 + 0, hn⟩ : Vec Ideal S32x256x64 .bf16) = qBlk V c t :=
      iblk1_q_congr V c _ _ (by show (t.val / 16 * 16 + 0) / 16 = t.val / 16; omega)
    have hk : kBlk V c t 0 = iblk1 V c 1 ⟨t.val / 16 * 16 + 0, hn⟩ := by unfold kBlk; rw [dif_pos hn]
    have hv : vBlk V c t 0 = iblk1 V c 2 ⟨t.val / 16 * 16 + 0, hn⟩ := by unfold vBlk; rw [dif_pos hn]
    rw [hk, hv, ← hq]
    rfl
  | succ j ih =>
    intro hj hn
    have hprev : t.val / 16 * 16 + j < cfg1.N := Nat.lt_of_succ_lt hn
    have h0 : ¬(⟨t.val / 16 * 16 + (j + 1), hn⟩ : Fin cfg1.N).val % 16 = 0 := by show ¬(t.val / 16 * 16 + (j + 1)) % 16 = 0; omega
    rw [scrAt1_next (F := Ideal) V c ⟨t.val / 16 * 16 + (j + 1), hn⟩ h0,
      scrAt1_congr V c (show (⟨t.val / 16 * 16 + (j + 1), hn⟩ : Fin cfg1.N).val - 1 = t.val / 16 * 16 + j from by show t.val / 16 * 16 + (j + 1) - 1 = _; omega) _ hprev,
      ih (by omega) hprev]
    have hq : (iblk1 V c 0 ⟨t.val / 16 * 16 + (j + 1), hn⟩ : Vec Ideal S32x256x64 .bf16) = qBlk V c t :=
      iblk1_q_congr V c _ _ (by show (t.val / 16 * 16 + (j + 1)) / 16 = t.val / 16; omega)
    have hk : kBlk V c t (j + 1) = iblk1 V c 1 ⟨t.val / 16 * 16 + (j + 1), hn⟩ := by unfold kBlk; rw [dif_pos hn]
    have hv : vBlk V c t (j + 1) = iblk1 V c 2 ⟨t.val / 16 * 16 + (j + 1), hn⟩ := by unfold vBlk; rw [dif_pos hn]
    rw [hq, ← hk, ← hv]
    rfl

/-- At the last step of a query block the output block is the normalised weighted sum after all sixteen steps. -/
theorem after1_3_last (c : Dev nD) (t : Fin cfg1.N) (h15 : t.val % 16 = 15) :
    (dat1 (F := Ideal) V c).after 3 t = flashOut (qBlk V c t) (kBlk V c t) (vBlk V c t) := by
  have hn : t.val / 16 * 16 + 15 < cfg1.N := by have := t.isLt; have e : t.val / 16 * 16 + 15 = t.val := by omega
                                                rw [e]; exact this
  rw [after1_3' (F := Ideal) V c t,
    scrAt1_congr V c (show t.val = t.val / 16 * 16 + 15 from by omega) t.isLt hn,
    scrAt1_eq_flashState V c t 15 (by norm_num) hn]
  rfl

end Cert.KernelIdeal.Hand

end
-- ==== Proof.KI.Reg1Cover.lean ====
import proofs.«106544_j89970974917189_2_alg».proof.Proof.Gen.KernelIdeal.Points
import proofs.«106544_j89970974917189_2_alg».proof.Proof.Gen.KernelIdeal.Launch
import Idealize.ShloMosaic.Lib.Pipeline.Value
import Idealize.ShloMosaic.Lib.ValueIdx

/-!
# The attention region's output blocks tile the output array

The region runs over an 8 × 16 grid: point t is query block t / 16 at key step t mod 16. Its output window is a
[32, 256, 64] block of the [32, 2048, 64] array at block index (0, t / 16, 0), written back at the last key step of each
query block. Entry (bh, r, d) of the block at point t is entry (bh, (t / 16) · 256 + r, d) of the array, and the eight
blocks written back tile the array.
-/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-- The output window's block index, decided over the grid: 0 on the batch-head axis, the query block t / 16 on the
    position axis, 0 on the channel axis; there are 128 grid points. -/
theorem idx_facts1_out : ∀ t : Fin cfg1.N, t.val < 128 ∧ win1_3.index t (0 : Fin 3) = 0
    ∧ win1_3.index t (1 : Fin 3) = t.val / 16 ∧ win1_3.index t (2 : Fin 3) = 0 :=
  (by decide +kernel : ∀ t : Fin grid1.N, _)

/-- An index of the output array is in point t's block iff each coordinate is in the block's range on its axis. -/
theorem mem_blk1 (t : Fin cfg1.N) (i : S32x2048x64.Idx) :
    i ∈ ((cfg1.win 3).blk t).view.set ↔ ∀ a : Fin 3, win1_3.index t a * S32x256x64.size a ≤ (i a).val ∧ (i a).val < win1_3.index t a * S32x256x64.size a + S32x256x64.size a := by
  show i ∈ ((View.whole main_v18).slice (win1_3.rect t)).set ↔ _
  rw [View.set_slice_whole, Rect.mem_set_unit]
  exact Iff.rfl

/-- Every index of the output array is in the block of a grid point that writes back: the last key step of its query
    block. -/
theorem cover1 (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hN : cfg1.N = 128 := N_1
  have ht : (i 1).val / 256 * 16 + 15 < cfg1.N := by rw [hN]; omega
  refine ⟨⟨(i 1).val / 256 * 16 + 15, ht⟩, (flush1_3 _).mpr (by show ((i 1).val / 256 * 16 + 15) % 16 = 15; omega), ?_⟩
  obtain ⟨_, e0, e1, e2⟩ := idx_facts1_out ⟨(i 1).val / 256 * 16 + 15, ht⟩
  have e1' : win1_3.index ⟨(i 1).val / 256 * 16 + 15, ht⟩ (1 : Fin 3) = (i 1).val / 256 := by
    rw [e1]; show ((i 1).val / 256 * 16 + 15) / 16 = (i 1).val / 256; omega
  rw [mem_blk1]
  intro a
  match a with
  | ⟨0, _⟩ => show win1_3.index _ (0 : Fin 3) * 32 ≤ (i 0).val ∧ (i 0).val < win1_3.index _ (0 : Fin 3) * 32 + 32; rw [e0]; omega
  | ⟨1, _⟩ => show win1_3.index _ (1 : Fin 3) * 256 ≤ (i 1).val ∧ (i 1).val < win1_3.index _ (1 : Fin 3) * 256 + 256; rw [e1']; omega
  | ⟨2, _⟩ => show win1_3.index _ (2 : Fin 3) * 64 ≤ (i 2).val ∧ (i 2).val < win1_3.index _ (2 : Fin 3) * 64 + 64; rw [e2]; omega

/-- Entry (bh, r, d) of point t's block is entry (bh, (t / 16) · 256 + r, d) of the array. -/
theorem emb1_out (t : Fin cfg1.N) (bh : Fin 32) (r : Fin 256) (d : Fin 64) (h : t.val / 16 * 256 + r.val < 2048) :
    ((cfg1.win 3).blk t).view.emb (ix3 bh r d) = ix3 bh (⟨t.val / 16 * 256 + r.val, h⟩ : Fin 2048) d := by
  obtain ⟨_, e0, e1, e2⟩ := idx_facts1_out t
  funext a; apply Fin.ext
  match a with
  | ⟨0, _⟩ => show win1_3.index t (0 : Fin 3) * 32 + 1 * bh.val = bh.val; omega
  | ⟨1, _⟩ => show win1_3.index t (1 : Fin 3) * 256 + 1 * r.val = t.val / 16 * 256 + r.val; omega
  | ⟨2, _⟩ => show win1_3.index t (2 : Fin 3) * 64 + 1 * d.val = d.val; omega

/-- The position bound the statement above asks for: a query block's rows stay inside the 2048 positions. -/
theorem qrow_lt (t : Fin cfg1.N) (r : Fin 256) : t.val / 16 * 256 + r.val < 2048 := by
  have ht : t.val < 128 := (idx_facts1_out t).1
  have hr := r.isLt
  omega

end Cert.KernelIdeal.Hand
-- ==== Proof.KI.FlashSpec.lean ====
import proofs.«106544_j89970974917189_2_alg».proof.Proof.KI.FlashFold
import proofs.«106544_j89970974917189_2_alg».proof.Proof.AttnSpec

/-!
# The fold over the key blocks against the real specification

The 32 batch-heads are batch bh / 16 and head bh % 16; query block qi holds the query positions qi·256 + r, key block
j the key positions j·128 + k. When the query block holds the query channels of the real projection, and the key and
value blocks hold its key and value channels, the score of a row against key position t is the specification's scaled
score, the value of key position t is the specification's value channel, and what the fold stores after the 16 key
blocks is the specification's head output: the softmax-weighted sum of the value channels, with any real shift M.
-/

noncomputable section

open scoped BigOperators

namespace Cert.KernelIdeal.Hand

open Idealize.ShloMosaic Idealize.ShloMosaic.ValueIdx Idealize.SL.Sem OnlineSoftmax

/-- The batch of batch-head bh: bh / 16. -/
def bhBatch (bh : Fin 32) : Fin 2 := ⟨bh.val / 16, by omega⟩

/-- The head of batch-head bh: bh % 16. -/
def bhHead (bh : Fin 32) : Fin 16 := ⟨bh.val % 16, Nat.mod_lt _ (by norm_num)⟩

/-- The query position of row r of query block qi: qi·256 + r. -/
def qPos (qi : Fin 8) (r : Fin 256) : Fin 2048 := ⟨qi.val * 256 + r.val, by omega⟩

/-- The key position of place k of key block j: j·128 + k. -/
def kPos (j : ℕ) (hj : j < 16) (k : Fin 128) : Fin 2048 := ⟨j * 128 + k.val, by omega⟩

theorem kPos_val (j : ℕ) (hj : j < 16) (k : Fin 128) : (kPos j hj k).val = j * 128 + k.val := rfl

/-- A key position is its block times 128 plus its place in the block. -/
theorem key_recompose (t : Fin 2048) (h : keyBlock t < 16) : kPos (keyBlock t) h (keyLane t) = t :=
  Fin.ext (by show t.val / 128 * 128 + t.val % 128 = t.val; omega)

variable (x : AttnSpec.SX.Idx → ℝ) (wq : AttnSpec.SWqkv.Idx → ℝ) (qi : Fin 8)
  (xq : Vec Ideal S32x256x64 .bf16) (xk xv : ℕ → Vec Ideal S32x128x64 .bf16)

/-- With the query block holding the projection's query channels and the key blocks its key channels, the score of
    row (bh, r) against key position t is the specification's scaled score: the scale 1/8 moves out of the sum over
    the 64 channels. -/
theorem flashScore_eq_spec
    (hq : ∀ (bh : Fin 32) (r : Fin 256) (d : Fin 64),
      xq (ix3 bh r d) = ((AttnSpec.proj x wq (bhBatch bh) (qPos qi r) (AttnSpec.feat 0 (bhHead bh) d) : ℝ) : EReal))
    (hk : ∀ j (hj : j < 16) (bh : Fin 32) (k : Fin 128) (d : Fin 64),
      xk j (ix3 bh k d)
        = ((AttnSpec.proj x wq (bhBatch bh) (kPos j hj k) (AttnSpec.feat 1 (bhHead bh) d) : ℝ) : EReal))
    (bh : Fin 32) (r : Fin 256) (t : Fin 2048) :
    flashScore xq xk bh r t = ((AttnSpec.score x wq (bhBatch bh) (bhHead bh) (qPos qi r) t : ℝ) : EReal) := by
  unfold flashScore
  rw [scale_word]
  simp only [hq, hk (keyBlock t) (keyBlock_lt t), key_recompose, coe_mul_coe, ← coe_sum]
  congr 1
  rw [AttnSpec.score, Finset.sum_mul]
  exact Finset.sum_congr rfl fun d _ => by ring

/-- With the value blocks holding the projection's value channels, the value of key position t at channel d is the
    specification's. -/
theorem flashValue_eq_spec
    (hv : ∀ j (hj : j < 16) (bh : Fin 32) (k : Fin 128) (d : Fin 64),
      xv j (ix3 bh k d)
        = ((AttnSpec.proj x wq (bhBatch bh) (kPos j hj k) (AttnSpec.feat 2 (bhHead bh) d) : ℝ) : EReal))
    (bh : Fin 32) (d : Fin 64) (t : Fin 2048) :
    flashValue xv bh d t = ((AttnSpec.proj x wq (bhBatch bh) t (AttnSpec.feat 2 (bhHead bh) d) : ℝ) : EReal) := by
  unfold flashValue
  rw [hv (keyBlock t) (keyBlock_lt t), key_recompose]

/-- What the fold stores at (bh, r, d) after the 16 key blocks is the specification's head output of batch bh / 16,
    head bh % 16, at query position qi·256 + r and channel d, the softmax written with any real shift M. -/
theorem flashOut_eq_headOut
    (hq : ∀ (bh : Fin 32) (r : Fin 256) (d : Fin 64),
      xq (ix3 bh r d) = ((AttnSpec.proj x wq (bhBatch bh) (qPos qi r) (AttnSpec.feat 0 (bhHead bh) d) : ℝ) : EReal))
    (hk : ∀ j (hj : j < 16) (bh : Fin 32) (k : Fin 128) (d : Fin 64),
      xk j (ix3 bh k d)
        = ((AttnSpec.proj x wq (bhBatch bh) (kPos j hj k) (AttnSpec.feat 1 (bhHead bh) d) : ℝ) : EReal))
    (hv : ∀ j (hj : j < 16) (bh : Fin 32) (k : Fin 128) (d : Fin 64),
      xv j (ix3 bh k d)
        = ((AttnSpec.proj x wq (bhBatch bh) (kPos j hj k) (AttnSpec.feat 2 (bhHead bh) d) : ℝ) : EReal))
    (bh : Fin 32) (r : Fin 256) (d : Fin 64) (M : ℝ) :
    flashOut xq xk xv (ix3 bh r d)
      = ((AttnSpec.headOut x wq M (bhBatch bh) (bhHead bh) (qPos qi r) d : ℝ) : EReal) := by
  have hq' : ∀ i, ∃ y : ℝ, xq i = (y : EReal) := fun i => by
    rw [eq_ix3 i]; exact ⟨_, hq _ _ _⟩
  have hk' : ∀ j, j < 16 → ∀ i, ∃ y : ℝ, xk j i = (y : EReal) := fun j hj i => by
    rw [eq_ix3 i]; exact ⟨_, hk j hj _ _ _⟩
  have hv' : ∀ j, j < 16 → ∀ i, ∃ y : ℝ, xv j i = (y : EReal) := fun j hj i => by
    rw [eq_ix3 i]; exact ⟨_, hv j hj _ _ _⟩
  have hZ : (∑ t' : Fin 2048, Real.exp (AttnSpec.score x wq (bhBatch bh) (bhHead bh) (qPos qi r) t' - M)) ≠ 0 :=
    (Finset.sum_pos (fun _ _ => Real.exp_pos _) ⟨(0 : Fin 2048), Finset.mem_univ _⟩).ne'
  rw [flashOut_eq_softmax xq xk xv hq' hk' hv' bh r d M]
  simp only [flashScore_eq_spec x wq qi xq xk hq hk, flashValue_eq_spec x wq xv hv, coe_sub_coe, exp_coe,
    ← coe_sum, div_coe_coe _ hZ, coe_mul_coe]
  rfl

end Cert.KernelIdeal.Hand
-- ==== Proof.KI.Reg1Spec.lean ====
import proofs.«106544_j89970974917189_2_alg».proof.Proof.KI.Reg1Array
import proofs.«106544_j89970974917189_2_alg».proof.Proof.KI.Reg1Cover
import proofs.«106544_j89970974917189_2_alg».proof.Proof.KI.FlashSpec
import proofs.«106544_j89970974917189_2_alg».proof.Proof.KI.HostGlue

/-! # The attention region's output array, as real numbers

When the query, key and value arrays the region finds hold (the coercions of) the projections of real inputs, what
each query block's last step writes back is the block of the heads' outputs — the accumulation over its sixteen
key/value blocks is the softmax-weighted sum over all 2048 keys — and the eight blocks tile the array: it ends holding
the heads' outputs, batch-head `bh` being batch `bh / 16`, head `bh % 16`. -/

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))
variable (x : AttnSpec.SX.Idx → ℝ) (wq : AttnSpec.SWqkv.Idx → ℝ)

/-- The heads' outputs as one array over (batch-head, position, channel), the softmax shifted by the row's largest
    score. -/
def G1 : S32x2048x64.Idx → EReal := fun i =>
  ((AttnSpec.headOut x wq (AttnSpec.rowMax x wq (bhBatch (i 0 : Fin 32)) (bhHead (i 0 : Fin 32)) (i 1 : Fin 2048))
      (bhBatch (i 0 : Fin 32)) (bhHead (i 0 : Fin 32)) (i 1 : Fin 2048) (i 2 : Fin 64) : ℝ) : EReal)

theorem G1_apply (bh : Fin 32) (s : Fin 2048) (d : Fin 64) :
    G1 x wq (ix3 bh s d) = ((AttnSpec.headOut x wq (AttnSpec.rowMax x wq (bhBatch bh) (bhHead bh) s) (bhBatch bh) (bhHead bh) s d : ℝ) : EReal) := rfl

/-- A batch-head is its batch and its head put back together. -/
theorem headOf_split (bh : Fin 32) : headOf (bhBatch bh) (bhHead bh) = bh :=
  Fin.ext (by show bh.val / 16 * 16 + bh.val % 16 = bh.val; omega)

section

variable (c : Dev nD)
variable (HQ : ∀ (b : Fin 2) (n : Fin 16) (s : Fin 2048) (d : Fin 64),
    V c main_v15 (ix3 (headOf b n) s d) = ((AttnSpec.proj x wq b s (AttnSpec.feat 0 n d) : ℝ) : EReal))
variable (HK : ∀ (b : Fin 2) (n : Fin 16) (s : Fin 2048) (d : Fin 64),
    V c main_v16 (ix3 (headOf b n) s d) = ((AttnSpec.proj x wq b s (AttnSpec.feat 1 n d) : ℝ) : EReal))
variable (HV : ∀ (b : Fin 2) (n : Fin 16) (s : Fin 2048) (d : Fin 64),
    V c main_v17 (ix3 (headOf b n) s d) = ((AttnSpec.proj x wq b s (AttnSpec.feat 2 n d) : ℝ) : EReal))

include HQ HK HV in
/-- What a query block's last step writes back is its block of the heads' outputs. -/
theorem flushed1_eq (t : Fin cfg1.N) (hf : (cfg1.win 3).flush t = true) :
    (dat1 (F := Ideal) V c).flushed 3 t = ((cfg1.win 3).blk t).view.read (Elt Ideal) (G1 x wq) := by
  have h15 : t.val % 16 = 15 := (flush1_3 t).mp hf
  have ht : t.val < 128 := (idx_facts1 t).1
  show (cfg1.win 3).cut (grid1.coords t) ((dat1 (F := Ideal) V c).after 3 t) = _
  rw [after1_3_last V c t h15]
  funext j
  obtain ⟨bh, r, d, rfl⟩ : ∃ (bh : Fin 32) (r : Fin 256) (d : Fin 64), j = ix3 bh r d := ⟨j 0, j 1, j 2, eq_ix3 j⟩
  show flashOut (qBlk V c t) (kBlk V c t) (vBlk V c t) (ix3 bh r d) = G1 x wq (((cfg1.win 3).blk t).view.emb (ix3 bh r d))
  rw [emb1_out t bh r d (qRow t r).isLt, G1_apply]
  have hqi : t.val / 16 < 8 := by omega
  have hpos : qPos ⟨t.val / 16, hqi⟩ r = (⟨t.val / 16 * 256 + r.val, (qRow t r).isLt⟩ : Fin 2048) := Fin.ext rfl
  rw [← hpos]
  refine flashOut_eq_headOut x wq ⟨t.val / 16, hqi⟩ (qBlk V c t) (kBlk V c t) (vBlk V c t) ?_ ?_ ?_ bh r d _
  · intro bh r d
    show iblk1 V c 0 t (ix3 bh r d) = _
    rw [iblk1_q_apply, ← headOf_split bh, HQ, headOf_split]
    rfl
  · intro j hj bh k d
    have hn : t.val / 16 * 16 + j < cfg1.N := Nat.lt_of_le_of_lt (by omega : t.val / 16 * 16 + j ≤ t.val) t.isLt
    have e : kBlk V c t j = iblk1 V c 1 ⟨t.val / 16 * 16 + j, hn⟩ := by unfold kBlk; rw [dif_pos hn]
    rw [e, iblk1_k_apply, ← headOf_split bh, HK, headOf_split]
    exact congrArg (fun s => ((AttnSpec.proj x wq (bhBatch bh) s (AttnSpec.feat 1 (bhHead bh) d) : ℝ) : EReal))
      (Fin.ext (by
        show (t.val / 16 * 16 + j) % 16 * 128 + k.val = j * 128 + k.val
        have hmod : (t.val / 16 * 16 + j) % 16 = j := by omega
        rw [hmod]))
  · intro j hj bh k d
    have hn : t.val / 16 * 16 + j < cfg1.N := Nat.lt_of_le_of_lt (by omega : t.val / 16 * 16 + j ≤ t.val) t.isLt
    have e : vBlk V c t j = iblk1 V c 2 ⟨t.val / 16 * 16 + j, hn⟩ := by unfold vBlk; rw [dif_pos hn]
    rw [e, iblk1_v_apply, ← headOf_split bh, HV, headOf_split]
    exact congrArg (fun s => ((AttnSpec.proj x wq (bhBatch bh) s (AttnSpec.feat 2 (bhHead bh) d) : ℝ) : EReal))
      (Fin.ext (by
        show (t.val / 16 * 16 + j) % 16 * 128 + k.val = j * 128 + k.val
        have hmod : (t.val / 16 * 16 + j) % 16 = j := by omega
        rw [hmod]))

include HQ HK HV in
/-- The output array after the region: the heads' outputs. -/
theorem final1 : (dat1 (F := Ideal) V c).arrAt 3 cfg1.N = G1 x wq :=
  (dat1 (F := Ideal) V c).arrAt_eq_of_cover 3 (G1 x wq) (fun t hf => flushed1_eq V x wq c HQ HK HV t hf) cover1

end

end Cert.KernelIdeal.Hand

end
-- ==== Proof.KI.KernelIsSpec.lean ====
import proofs.«106544_j89970974917189_2_alg».proof.Proof.KI.Chain
import proofs.«106544_j89970974917189_2_alg».proof.Proof.KI.Reg1Spec

/-! # The kernel program's result, as real numbers

The chain through the three regions closed: the attention region finds the projections of the inputs in its query, key
and value arrays, so it leaves the heads' outputs; the output projection of those is the specification's result. -/

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)
variable (x : AttnSpec.SX.Idx → ℝ) (wq : AttnSpec.SWqkv.Idx → ℝ) (wo : AttnSpec.SWout.Idx → ℝ)

theorem bhBatch_headOf (b : Fin 2) (n : Fin 16) : bhBatch (headOf b n) = b :=
  Fin.ext (by show (b.val * 16 + n.val) / 16 = b.val; omega)
theorem bhHead_headOf (b : Fin 2) (n : Fin 16) : bhHead (headOf b n) = n :=
  Fin.ext (by show (b.val * 16 + n.val) % 16 = n.val; omega)

/-- After the attention region its output array holds the heads' outputs. -/
theorem B4_v18 (hx : m ((c : Thread nD τ).loc main_arg0) = fun i => (x i : EReal))
    (hwq : m ((c : Thread nD τ).loc main_arg1) = fun i => (wq i : EReal))
    (b : Fin 2) (n : Fin 16) (s : Fin 2048) (d : Fin 64) :
    B4 m ρ c (Proc.devRef .tc main_v18) (ix3 (headOf b n) s d)
      = ((AttnSpec.headOut x wq (AttnSpec.rowMax x wq b n s) b n s d : ℝ) : EReal) := by
  have e : B4 m ρ c (Proc.devRef .tc main_v18) = (dat1 (F := Ideal) (E3 m ρ) c).arrAt 3 cfg1.N := B4_arr m ρ c 3
  rw [e, final1 (E3 m ρ) x wq c (E3_q m ρ c x wq hx hwq) (E3_k m ρ c x wq hx hwq) (E3_v m ρ c x wq hx hwq), G1_apply,
    bhBatch_headOf, bhHead_headOf]

/-- THE KERNEL PROGRAM'S RESULT: entry `(b, s, j)` of the result buffer is the specification's number. -/
theorem kernel_is_spec (hx : m ((c : Thread nD τ).loc main_arg0) = fun i => (x i : EReal))
    (hwq : m ((c : Thread nD τ).loc main_arg1) = fun i => (wq i : EReal))
    (hwo : m ((c : Thread nD τ).loc main_arg2) = fun i => (wo i : EReal))
    (b : Fin 2) (s : Fin 2048) (j : Fin 1024) :
    B7 m ρ c (Proc.devRef .tc main_v23) (ix3 b s j) = ((AttnSpec.out x wq wo b s j : ℝ) : EReal) :=
  B7_v23 m ρ c wo hwo (fun b n s d => AttnSpec.headOut x wq (AttnSpec.rowMax x wq b n s) b n s d)
    (B4_v18 m ρ c x wq hx hwq) b s j

end Cert.KernelIdeal.Hand

end
-- ==== Proof.RefIsSpec.lean ====
import proofs.«106544_j89970974917189_2_alg».proof.Proof.Gen.ReferenceIdeal.Read
import proofs.«106544_j89970974917189_2_alg».proof.Proof.AttnSpec
import proofs.«106544_j89970974917189_2_alg».proof.Proof.LibOnlineSoftmax

/-!
# The reference program computes the specification

At real inputs, read as extended reals, every stage of the reference program is the coercion of a real quantity of the
specification: the first projection, its split into query, key and value channels per head, the scaled scores, the row
maximum (a fold of max from the bottom element over the key positions), the shifted exponentials, their sum (positive,
so the quotient is the real one), the attention weights, the heads' outputs, the merged heads and the second
projection. Each stage is read at an index given by its coordinates; the index maps of the layout stages are quotient and
remainder arithmetic on the coordinates.
-/

noncomputable section

open scoped BigOperators

namespace Cert.Proof.RefSpec

open Cert.ReferenceIdeal Cert.ReferenceIdeal.Read Idealize.ShloMosaic Idealize.ShloMosaic.ValueIdx

variable (x : AttnSpec.SX.Idx → ℝ) (wq : AttnSpec.SWqkv.Idx → ℝ) (wo : AttnSpec.SWout.Idx → ℝ)

/-- A real array read as an array of extended reals. -/
abbrev up {s : Shape} (y : s.Idx → ℝ) : s.Idx → EReal := fun i => (y i : EReal)

/-! ## The first projection -/

theorem lidx0 (b : Fin 2) (s : Fin 2048) (o : Fin 3072) (k : Fin 1024) :
    lidx_main_v0 (ix3 b s o) k = ix3 b s k := by
  funext a
  match a with
  | ⟨0, _⟩ => rfl
  | ⟨1, _⟩ => rfl
  | ⟨2, _⟩ => rfl

theorem ridx0 (b : Fin 2) (s : Fin 2048) (o : Fin 3072) (k : Fin 1024) :
    ridx_main_v0 (ix3 b s o) k = ix2 o k := by
  funext a
  match a with
  | ⟨0, _⟩ => rfl
  | ⟨1, _⟩ => rfl

/-- Feature o of row (b, s) of the projected array is the real projection. -/
theorem v0_spec (b : Fin 2) (s : Fin 2048) (o : Fin 3072) :
    val_main_v0 (F := Ideal) (up x) (up wq) (ix3 b s o) = ((AttnSpec.proj x wq b s o : ℝ) : EReal) := by
  refine (val_main_v0_apply _ _ _).trans ?_
  unfold AttnSpec.proj
  rw [OnlineSoftmax.coe_sum]
  refine Finset.sum_congr rfl fun k _ => ?_
  rw [lidx0, ridx0, EReal.coe_mul]

/-! ## Splitting the features into parts, heads and channels -/

theorem idxA (b : Fin 2) (n : Fin 16) (s : Fin 2048) (d : Fin 64) :
    idx_main_v4 (ix4 b n s d) = ix5 (0 : Fin 1) b n s d := by
  have hb := b.isLt; have hn := n.isLt; have hs := s.isLt; have hd := d.isLt
  funext a; apply Fin.ext
  match a with
  | ⟨0, _⟩ => rfl
  | ⟨1, _⟩ => show (((b.val * 16 + n.val) * 2048 + s.val) * 64 + d.val) / 2097152 % 2 = b.val; omega
  | ⟨2, _⟩ => show (((b.val * 16 + n.val) * 2048 + s.val) * 64 + d.val) / 131072 % 16 = n.val; omega
  | ⟨3, _⟩ => show (((b.val * 16 + n.val) * 2048 + s.val) * 64 + d.val) / 64 % 2048 = s.val; omega
  | ⟨4, _⟩ => show (((b.val * 16 + n.val) * 2048 + s.val) * 64 + d.val) % 64 = d.val; omega

theorem idxA6 (b : Fin 2) (n : Fin 16) (s : Fin 2048) (d : Fin 64) :
    idx_main_v6 (ix4 b n s d) = ix5 (0 : Fin 1) b n s d := idxA b n s d

theorem idxA8 (b : Fin 2) (n : Fin 16) (s : Fin 2048) (d : Fin 64) :
    idx_main_v8 (ix4 b n s d) = ix5 (0 : Fin 1) b n s d := idxA b n s d

theorem idxB0 (b : Fin 2) (n : Fin 16) (s : Fin 2048) (d : Fin 64) :
    idx_main_v3 (ix5 (0 : Fin 1) b n s d) = ix5 (0 : Fin 3) b n s d := by
  funext a; apply Fin.ext
  match a with
  | ⟨0, _⟩ => rfl
  | ⟨1, _⟩ => rfl
  | ⟨2, _⟩ => rfl
  | ⟨3, _⟩ => rfl
  | ⟨4, _⟩ => rfl

theorem idxB1 (b : Fin 2) (n : Fin 16) (s : Fin 2048) (d : Fin 64) :
    idx_main_v5 (ix5 (0 : Fin 1) b n s d) = ix5 (1 : Fin 3) b n s d := by
  funext a; apply Fin.ext
  match a with
  | ⟨0, _⟩ => rfl
  | ⟨1, _⟩ => rfl
  | ⟨2, _⟩ => rfl
  | ⟨3, _⟩ => rfl
  | ⟨4, _⟩ => rfl

theorem idxB2 (b : Fin 2) (n : Fin 16) (s : Fin 2048) (d : Fin 64) :
    idx_main_v7 (ix5 (0 : Fin 1) b n s d) = ix5 (2 : Fin 3) b n s d := by
  funext a; apply Fin.ext
  match a with
  | ⟨0, _⟩ => rfl
  | ⟨1, _⟩ => rfl
  | ⟨2, _⟩ => rfl
  | ⟨3, _⟩ => rfl
  | ⟨4, _⟩ => rfl

theorem idxC (c : Fin 3) (b : Fin 2) (n : Fin 16) (s : Fin 2048) (d : Fin 64) :
    idx_main_v2 (ix5 c b n s d) = ix5 b s c n d := by
  funext a
  match a with
  | ⟨0, _⟩ => rfl
  | ⟨1, _⟩ => rfl
  | ⟨2, _⟩ => rfl
  | ⟨3, _⟩ => rfl
  | ⟨4, _⟩ => rfl

theorem idxD (c : Fin 3) (b : Fin 2) (n : Fin 16) (s : Fin 2048) (d : Fin 64) :
    idx_main_v1 (ix5 b s c n d) = ix3 b s (AttnSpec.feat c n d) := by
  have hb := b.isLt; have hn := n.isLt; have hs := s.isLt; have hd := d.isLt; have hc := c.isLt
  funext a; apply Fin.ext
  match a with
  | ⟨0, _⟩ => show ((((b.val * 2048 + s.val) * 3 + c.val) * 16 + n.val) * 64 + d.val) / 6291456 = b.val; omega
  | ⟨1, _⟩ => show ((((b.val * 2048 + s.val) * 3 + c.val) * 16 + n.val) * 64 + d.val) / 3072 % 2048 = s.val; omega
  | ⟨2, _⟩ => show ((((b.val * 2048 + s.val) * 3 + c.val) * 16 + n.val) * 64 + d.val) % 3072 = c.val * 1024 + n.val * 64 + d.val; omega

/-- The query channels: channel d of head n at position s is feature (0, n, d) of row (b, s). -/
theorem v4_spec (b : Fin 2) (n : Fin 16) (s : Fin 2048) (d : Fin 64) :
    val_main_v4 (F := Ideal) (up x) (up wq) (ix4 b n s d)
      = ((AttnSpec.proj x wq b s (AttnSpec.feat 0 n d) : ℝ) : EReal) := by
  rw [val_main_v4_apply, idxA, val_main_v3_apply, idxB0, val_main_v2_apply, idxC, val_main_v1_apply, idxD, v0_spec]

/-- The key channels: feature (1, n, d). -/
theorem v6_spec (b : Fin 2) (n : Fin 16) (s : Fin 2048) (d : Fin 64) :
    val_main_v6 (F := Ideal) (up x) (up wq) (ix4 b n s d)
      = ((AttnSpec.proj x wq b s (AttnSpec.feat 1 n d) : ℝ) : EReal) := by
  rw [val_main_v6_apply, idxA6, val_main_v5_apply, idxB1, val_main_v2_apply, idxC, val_main_v1_apply, idxD, v0_spec]

/-- The value channels: feature (2, n, d). -/
theorem v8_spec (b : Fin 2) (n : Fin 16) (s : Fin 2048) (d : Fin 64) :
    val_main_v8 (F := Ideal) (up x) (up wq) (ix4 b n s d)
      = ((AttnSpec.proj x wq b s (AttnSpec.feat 2 n d) : ℝ) : EReal) := by
  rw [val_main_v8_apply, idxA8, val_main_v7_apply, idxB2, val_main_v2_apply, idxC, val_main_v1_apply, idxD, v0_spec]

/-! ## The scores -/

theorem lidx9 (b : Fin 2) (n : Fin 16) (s t : Fin 2048) (k : Fin 64) :
    lidx_main_v9 (ix4 b n s t) k = ix4 b n s k := by
  funext a
  match a with
  | ⟨0, _⟩ => rfl
  | ⟨1, _⟩ => rfl
  | ⟨2, _⟩ => rfl
  | ⟨3, _⟩ => rfl

theorem ridx9 (b : Fin 2) (n : Fin 16) (s t : Fin 2048) (k : Fin 64) :
    ridx_main_v9 (ix4 b n s t) k = ix4 b n t k := by
  funext a
  match a with
  | ⟨0, _⟩ => rfl
  | ⟨1, _⟩ => rfl
  | ⟨2, _⟩ => rfl
  | ⟨3, _⟩ => rfl

/-- The unscaled score: the dot product of the query channels at s and the key channels at t. -/
theorem v9_spec (b : Fin 2) (n : Fin 16) (s t : Fin 2048) :
    val_main_v9 (F := Ideal) (up x) (up wq) (ix4 b n s t)
      = ((∑ d : Fin 64, AttnSpec.proj x wq b s (AttnSpec.feat 0 n d) * AttnSpec.proj x wq b t (AttnSpec.feat 1 n d) : ℝ) : EReal) := by
  refine (val_main_v9_apply _ _ _).trans ?_
  rw [OnlineSoftmax.coe_sum]
  refine Finset.sum_congr rfl fun k _ => ?_
  rw [lidx9, ridx9, v4_spec, v6_spec, EReal.coe_mul]

/-- The f32 word of the scale denotes 1/8. -/
theorem eighth_word : Ideal.ofBits .f32 0x3E000000#32 = ((1 / 8 : ℝ) : EReal) := by
  simp [Ideal.ofBits, Ideal.ieee, -EReal.coe_mul]; norm_num

/-- The f32 word of the maximum's initial value denotes the bottom element. -/
theorem negInf_word : Ideal.ofBits .f32 0xFF800000#32 = ⊥ := by
  simp [Ideal.ofBits, Ideal.ieee]

/-- The scaled score. -/
theorem v11_spec (b : Fin 2) (n : Fin 16) (s t : Fin 2048) :
    val_main_v11 (F := Ideal) (up x) (up wq) (ix4 b n s t) = ((AttnSpec.score x wq b n s t : ℝ) : EReal) := by
  rw [val_main_v11_apply, v9_spec, val_main_v10_apply, val_main_cst_apply]
  show ((_ : ℝ) : EReal) * Ideal.ofBits .f32 0x3E000000#32 = _
  rw [eighth_word, ← EReal.coe_mul]
  rfl

/-! ## The row maximum -/

theorem lift12 (h : S2x16x2048x2048.Reduces [3] S2x16x2048) (b : Fin 2) (n : Fin 16) (s t : Fin 2048) :
    h.lift (ix3 b n s) t = ix4 b n s t := by
  funext c; apply Fin.ext
  match c with
  | ⟨0, _⟩ => rfl
  | ⟨1, _⟩ => rfl
  | ⟨2, _⟩ => rfl
  | ⟨3, _⟩ => rfl

/-- The maximum over the key positions, from the bottom element: the largest score of the row. -/
theorem v12_spec (b : Fin 2) (n : Fin 16) (s : Fin 2048) :
    val_main_v12 (F := Ideal) (up x) (up wq) (ix3 b n s) = ((AttnSpec.rowMax x wq b n s : ℝ) : EReal) := by
  unfold val_main_v12
  generalize hy : val_main_v11 (F := Ideal) (up x) (up wq) = y
  have hyv : ∀ t : Fin 2048, y (ix4 b n s t) = ((AttnSpec.score x wq b n s t : ℝ) : EReal) := fun t => by
    rw [← hy]; exact v11_spec x wq b n s t
  have hred : S2x16x2048x2048.Reduces [3] S2x16x2048 := by decide
  refine (Host.reduce_eq_fold_single (FloatOps.maximumf (F := Ideal) (φ := .f32)) y _ _ hred _ (ix3 b n s)).trans ?_
  show (Finset.univ : Finset (Fin 2048)).fold max (Ideal.ofBits .f32 0xFF800000#32) (fun t => y (hred.lift (ix3 b n s) t)) = _
  rw [negInf_word]
  have hf : (fun t : Fin 2048 => y (hred.lift (ix3 b n s) t)) = fun t => ((AttnSpec.score x wq b n s t : ℝ) : EReal) :=
    funext fun t => by rw [lift12, hyv]
  refine (congrArg ((Finset.univ : Finset (Fin 2048)).fold max (⊥ : EReal)) hf).trans ?_
  exact OnlineSoftmax.fold_max_coe_eq (AttnSpec.score x wq b n s)

/-- The maximum with the bottom element changes nothing. -/
theorem v14_spec (b : Fin 2) (n : Fin 16) (s : Fin 2048) :
    val_main_v14 (F := Ideal) (up x) (up wq) (ix3 b n s) = ((AttnSpec.rowMax x wq b n s : ℝ) : EReal) := by
  rw [val_main_v14_apply, v12_spec, val_main_v13_apply, val_main_cst_1_apply]
  show max (Ideal.ofBits .f32 0xFF800000#32) _ = _
  rw [negInf_word]
  exact max_eq_right bot_le

/-! ## The weights -/

theorem idx16 (b : Fin 2) (n : Fin 16) (s t : Fin 2048) :
    idx_main_v15 (idx_main_v16 (ix4 b n s t)) = ix3 b n s := by
  funext a
  match a with
  | ⟨0, _⟩ => rfl
  | ⟨1, _⟩ => rfl
  | ⟨2, _⟩ => rfl

/-- The row maximum broadcast over the key positions. -/
theorem v16_spec (b : Fin 2) (n : Fin 16) (s t : Fin 2048) :
    val_main_v16 (F := Ideal) (up x) (up wq) (ix4 b n s t) = ((AttnSpec.rowMax x wq b n s : ℝ) : EReal) := by
  rw [val_main_v16_apply, val_main_v15_apply, idx16, v14_spec]

/-- The shifted score. -/
theorem v17_spec (b : Fin 2) (n : Fin 16) (s t : Fin 2048) :
    val_main_v17 (F := Ideal) (up x) (up wq) (ix4 b n s t)
      = ((AttnSpec.score x wq b n s t - AttnSpec.rowMax x wq b n s : ℝ) : EReal) := by
  rw [val_main_v17_apply, v11_spec, v16_spec]
  exact (EReal.coe_sub _ _).symm

/-- The exponential of the shifted score. -/
theorem v18_spec (b : Fin 2) (n : Fin 16) (s t : Fin 2048) :
    val_main_v18 (F := Ideal) (up x) (up wq) (ix4 b n s t)
      = ((Real.exp (AttnSpec.score x wq b n s t - AttnSpec.rowMax x wq b n s) : ℝ) : EReal) := by
  rw [val_main_v18_apply, v17_spec]
  rfl

theorem idx19 (b : Fin 2) (n : Fin 16) (s : Fin 2048) (k : Fin 2048) :
    idx_main_v19 (ix3 b n s) k = ix4 b n s k := by
  funext a
  match a with
  | ⟨0, _⟩ => rfl
  | ⟨1, _⟩ => rfl
  | ⟨2, _⟩ => rfl
  | ⟨3, _⟩ => rfl

/-- The denominator: the sum of the exponentials over the key positions. -/
theorem v19_spec (b : Fin 2) (n : Fin 16) (s : Fin 2048) :
    val_main_v19 (F := Ideal) (up x) (up wq) (ix3 b n s)
      = ((∑ t' : Fin 2048, Real.exp (AttnSpec.score x wq b n s t' - AttnSpec.rowMax x wq b n s) : ℝ) : EReal) := by
  rw [val_main_v19_apply, val_main_cst_2_apply]
  show Ideal.ofBits .f32 0x00000000#32 + _ = _
  rw [Ideal.ofBits_zero_f32, zero_add, OnlineSoftmax.coe_sum]
  refine Finset.sum_congr rfl fun k _ => ?_
  rw [idx19, v18_spec]

theorem idx21 (b : Fin 2) (n : Fin 16) (s t : Fin 2048) :
    idx_main_v20 (idx_main_v21 (ix4 b n s t)) = ix3 b n s := by
  funext a
  match a with
  | ⟨0, _⟩ => rfl
  | ⟨1, _⟩ => rfl
  | ⟨2, _⟩ => rfl

/-- The denominator is positive. -/
theorem denom_pos (b : Fin 2) (n : Fin 16) (s : Fin 2048) (M : ℝ) :
    0 < ∑ t' : Fin 2048, Real.exp (AttnSpec.score x wq b n s t' - M) :=
  Finset.sum_pos (fun _ _ => Real.exp_pos _) ⟨⟨0, by norm_num⟩, Finset.mem_univ _⟩

/-- The attention weight of key position t for query position s. -/
theorem v22_spec (b : Fin 2) (n : Fin 16) (s t : Fin 2048) :
    val_main_v22 (F := Ideal) (up x) (up wq) (ix4 b n s t)
      = ((Real.exp (AttnSpec.score x wq b n s t - AttnSpec.rowMax x wq b n s)
          / ∑ t' : Fin 2048, Real.exp (AttnSpec.score x wq b n s t' - AttnSpec.rowMax x wq b n s) : ℝ) : EReal) := by
  rw [val_main_v22_apply, v18_spec, val_main_v21_apply, val_main_v20_apply, idx21, v19_spec]
  exact OnlineSoftmax.div_coe_coe _ (denom_pos x wq b n s _).ne'

/-! ## The heads' outputs, merged, and the second projection -/

theorem lidx23 (b : Fin 2) (n : Fin 16) (s : Fin 2048) (d : Fin 64) (k : Fin 2048) :
    lidx_main_v23 (ix4 b n s d) k = ix4 b n s k := by
  funext a
  match a with
  | ⟨0, _⟩ => rfl
  | ⟨1, _⟩ => rfl
  | ⟨2, _⟩ => rfl
  | ⟨3, _⟩ => rfl

theorem ridx23 (b : Fin 2) (n : Fin 16) (s : Fin 2048) (d : Fin 64) (k : Fin 2048) :
    ridx_main_v23 (ix4 b n s d) k = ix4 b n k d := by
  funext a
  match a with
  | ⟨0, _⟩ => rfl
  | ⟨1, _⟩ => rfl
  | ⟨2, _⟩ => rfl
  | ⟨3, _⟩ => rfl

/-- A head's output: the weights against the value channels, summed over the key positions. -/
theorem v23_spec (b : Fin 2) (n : Fin 16) (s : Fin 2048) (d : Fin 64) :
    val_main_v23 (F := Ideal) (up x) (up wq) (ix4 b n s d)
      = ((AttnSpec.headOut x wq (AttnSpec.rowMax x wq b n s) b n s d : ℝ) : EReal) := by
  refine (val_main_v23_apply _ _ _).trans ?_
  unfold AttnSpec.headOut
  rw [OnlineSoftmax.coe_sum]
  refine Finset.sum_congr rfl fun k _ => ?_
  rw [lidx23, ridx23, v22_spec, v8_spec, EReal.coe_mul]

theorem idx24 (b : Fin 2) (s : Fin 2048) (n : Fin 16) (d : Fin 64) :
    idx_main_v24 (ix4 b s n d) = ix4 b n s d := by
  funext a
  match a with
  | ⟨0, _⟩ => rfl
  | ⟨1, _⟩ => rfl
  | ⟨2, _⟩ => rfl
  | ⟨3, _⟩ => rfl

theorem idx25 (b : Fin 2) (s : Fin 2048) (h : Fin 1024) :
    idx_main_v25 (ix3 b s h) = ix4 b s (AttnSpec.headOf h) (AttnSpec.chanOf h) := by
  have hb := b.isLt; have hs := s.isLt; have hh := h.isLt
  funext a; apply Fin.ext
  match a with
  | ⟨0, _⟩ => show ((b.val * 2048 + s.val) * 1024 + h.val) / 2097152 = b.val; omega
  | ⟨1, _⟩ => show ((b.val * 2048 + s.val) * 1024 + h.val) / 1024 % 2048 = s.val; omega
  | ⟨2, _⟩ => show ((b.val * 2048 + s.val) * 1024 + h.val) / 64 % 16 = h.val / 64; omega
  | ⟨3, _⟩ => show ((b.val * 2048 + s.val) * 1024 + h.val) % 64 = h.val % 64; omega

/-- The merged heads: feature h of row (b, s) is channel h mod 64 of head h div 64. -/
theorem v25_spec (b : Fin 2) (s : Fin 2048) (h : Fin 1024) :
    val_main_v25 (F := Ideal) (up x) (up wq) (ix3 b s h)
      = ((AttnSpec.headOut x wq (AttnSpec.rowMax x wq b (AttnSpec.headOf h) s) b (AttnSpec.headOf h) s (AttnSpec.chanOf h) : ℝ) : EReal) := by
  rw [val_main_v25_apply, idx25, val_main_v24_apply, idx24, v23_spec]

theorem lidx26 (b : Fin 2) (s : Fin 2048) (j : Fin 1024) (k : Fin 1024) :
    lidx_main_v26 (ix3 b s j) k = ix3 b s k := by
  funext a
  match a with
  | ⟨0, _⟩ => rfl
  | ⟨1, _⟩ => rfl
  | ⟨2, _⟩ => rfl

theorem ridx26 (b : Fin 2) (s : Fin 2048) (j : Fin 1024) (k : Fin 1024) :
    ridx_main_v26 (ix3 b s j) k = ix2 j k := by
  funext a
  match a with
  | ⟨0, _⟩ => rfl
  | ⟨1, _⟩ => rfl

/-- The result of the reference, at real inputs, is the specification. -/
theorem v26_spec (b : Fin 2) (s : Fin 2048) (j : Fin 1024) :
    val_main_v26 (F := Ideal) (up x) (up wq) (up wo) (ix3 b s j) = ((AttnSpec.out x wq wo b s j : ℝ) : EReal) := by
  refine (val_main_v26_apply _ _ _ _).trans ?_
  unfold AttnSpec.out
  rw [OnlineSoftmax.coe_sum]
  refine Finset.sum_congr rfl fun k _ => ?_
  rw [lidx26, ridx26, v25_spec, EReal.coe_mul]

/-- The same with the coercions written out. -/
theorem ref_is_spec (b : Fin 2) (s : Fin 2048) (j : Fin 1024) :
    Cert.ReferenceIdeal.Read.val_main_v26 (F := Ideal) (fun i => (x i : EReal)) (fun i => (wq i : EReal))
        (fun i => (wo i : EReal)) (ix3 b s j)
      = ((AttnSpec.out x wq wo b s j : ℝ) : EReal) :=
  v26_spec x wq wo b s j

end Cert.Proof.RefSpec
-- ==== Proof.Finite.lean ====
/-
  From the precondition to the numbers: the precondition says that the absolute value of every entry of the three
  argument arrays is below +∞; on the extended reals an element whose absolute value is below +∞ is a real number.
-/
import proofs.«106544_j89970974917189_2_alg».proof.Pre_finite_inputs
import proofs.«106544_j89970974917189_2_alg».proof.Proof.Gen.Pre_finite_inputs
import Idealize.ShloMosaic.Lib.ReduceAll
import Idealize.ShloMosaic.Lib.Affine
import Idealize.ShloMosaic.PureOps.Ideal.Laws
import Idealize.ShloMosaic.Lib.ValueIdx

noncomputable section
namespace Cert.Proof.Finite
open Idealize.ShloMosaic Cert.Pre_finite_inputs

instance : Subsingleton S_.Idx := ⟨fun a b => funext fun d => d.elim0⟩

/-- An extended real whose absolute value `max x (-x)` compares below the word of `+∞` is a real. -/
theorem real_of_abs_lt (x : EReal) (h : Ideal.cmp .olt (max x (-x)) (Ideal.ofBits .f32 0x7F800000#32) = 1#1) : ∃ r : ℝ, x = ↑r := by
  induction x using EReal.rec with
  | bot => simp [Ideal.cmp, Ideal.ofBits, Ideal.ieee] at h
  | top => simp [Ideal.cmp, Ideal.ofBits, Ideal.ieee] at h
  | coe r => exact ⟨r, rfl⟩

/-- Under the precondition every entry of each argument array is a real number. -/
theorem inputs_real (a0 : FVec Ideal S2x2048x1024 .f32) (a1 : FVec Ideal S3072x1024 .f32) (a2 : FVec Ideal S1024x1024 .f32)
    (h : fn (F := Ideal) a0 a1 a2 = fun _ => 1#1) :
    (∀ i, ∃ r : ℝ, a0 i = ↑r) ∧ (∀ i, ∃ r : ℝ, a1 i = ↑r) ∧ (∀ i, ∃ r : ℝ, a2 i = ↑r) := by
  have h0 := congrFun h ValueIdx.ix0
  dsimp only [fn] at h0
  obtain ⟨h01, h2⟩ := IntOp.andi_eq_one.mp h0
  obtain ⟨h0', h1⟩ := IntOp.andi_eq_one.mp h01
  refine ⟨fun i => ?_, fun i => ?_, fun i => ?_⟩
  · have e := Host.reduce_andi_all _ _ _ _ _ h0' i
    refine real_of_abs_lt _ ?_
    simpa only [cmpf, Host.absf, broadcastInDim, constant, Ideal.cmpf_def, Ideal.hostAbsf_def, Ideal.absf_def, Ideal.ofBits_def] using e
  · have e := Host.reduce_andi_all _ _ _ _ _ h1 i
    refine real_of_abs_lt _ ?_
    simpa only [cmpf, Host.absf, broadcastInDim, constant, Ideal.cmpf_def, Ideal.hostAbsf_def, Ideal.absf_def, Ideal.ofBits_def] using e
  · have e := Host.reduce_andi_all _ _ _ _ _ h2 i
    refine real_of_abs_lt _ ?_
    simpa only [cmpf, Host.absf, broadcastInDim, constant, Ideal.cmpf_def, Ideal.hostAbsf_def, Ideal.absf_def, Ideal.ofBits_def] using e

end Cert.Proof.Finite
end
-- ==== Proof.Bridge.lean ====
import proofs.«106544_j89970974917189_2_alg».proof.Defs
import proofs.«106544_j89970974917189_2_alg».proof.Proof.Gen.KernelIdeal
import proofs.«106544_j89970974917189_2_alg».proof.Proof.Gen.ReferenceIdeal
import proofs.«106544_j89970974917189_2_alg».proof.Proof.Gen.Pre_finite_inputs
import proofs.«106544_j89970974917189_2_alg».proof.Proof.KI.KernelIsSpec
import proofs.«106544_j89970974917189_2_alg».proof.Proof.RefIsSpec
import proofs.«106544_j89970974917189_2_alg».proof.Proof.Finite

/-! # The two idealized programs end with equal results

Under the precondition the three argument arrays hold real numbers; the kernel program's result buffer and the
reference's then both hold, entry by entry, the specification's real number of those arrays. -/

noncomputable section

namespace Cert.Proof.Bridge

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => Cert.KernelIdeal.Hand.B7 m ρ c (Proc.devRef .tc Cert.KernelIdeal.main_v23), Cert.KernelIdeal.Hand.value_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2⟩ := Cert.Proof.Finite.inputs_real _ _ _ (hpre c)
  choose x hx using h0
  choose wq hwq using h1
  choose wo hwo using h2
  have e0 : m ((c.tc : Thread Cert.KernelIdeal.nD Cert.KernelIdeal.τ).loc Cert.KernelIdeal.main_arg0) = fun i => (x i : EReal) := funext hx
  have e1 : m ((c.tc : Thread Cert.KernelIdeal.nD Cert.KernelIdeal.τ).loc Cert.KernelIdeal.main_arg1) = fun i => (wq i : EReal) := funext hwq
  have e2 : m ((c.tc : Thread Cert.KernelIdeal.nD Cert.KernelIdeal.τ).loc Cert.KernelIdeal.main_arg2) = fun i => (wo i : EReal) := funext hwo
  rw [Cert.ReferenceIdeal.Read.val_main_v26_eq, (hagree c).1, (hagree c).2.1, (hagree c).2.2, e0, e1, e2]
  funext i
  obtain ⟨b, s, j, rfl⟩ : ∃ (b : Fin 2) (s : Fin 2048) (j : Fin 1024), i = ix3 b s j := ⟨i 0, i 1, i 2, eq_ix3 i⟩
  exact (Cert.Proof.RefSpec.ref_is_spec x wq wo b s j).trans
    (Cert.KernelIdeal.Hand.kernel_is_spec m ρ c x wq wo e0 e1 e2 b s j).symm

end Cert.Proof.Bridge

end
-- ==== Proof.lean ====
/-
  An attention layer in three kernel launches against its plain reference: the query/key/value projection (a matrix
  product), the attention itself (an online softmax accumulated block by block over the keys, with a running maximum,
  a running normaliser and a running weighted sum carried between grid points), and the output projection (a second
  matrix product), with reshapes and transposes between them. At the ideal instance both programs compute, entry by entry,
  the same real number: the softmax-weighted sum of the value rows, projected. The running maximum only shifts the
  exponentials and cancels in the quotient, so the blockwise accumulation equals the softmax taken at once; the scale
  1/8 and the reciprocal of the normaliser move across finite sums of real numbers; the inputs are finite, so every
  intermediate is a real number.
  The three frames: each kernel program's run is assembled from its three regions and four host stretches, and leaves
  the argument arrays as launched; the reference is a host program whose run is read back operation by operation.
-/
import proofs.«106544_j89970974917189_2_alg».proof.Defs
import proofs.«106544_j89970974917189_2_alg».proof.Proof.Gen.Kernel
import proofs.«106544_j89970974917189_2_alg».proof.Proof.Gen.KernelIdeal
import proofs.«106544_j89970974917189_2_alg».proof.Proof.Gen.ReferenceIdeal
import proofs.«106544_j89970974917189_2_alg».proof.Proof.Gen.ReferenceIdeal.Run
import proofs.«106544_j89970974917189_2_alg».proof.Proof.Gen.ReferenceIdeal.Read
import proofs.«106544_j89970974917189_2_alg».proof.Proof.Gen.Pre_finite_inputs
import proofs.«106544_j89970974917189_2_alg».proof.Proof.K.Frame
import proofs.«106544_j89970974917189_2_alg».proof.Proof.KI.Frame
import proofs.«106544_j89970974917189_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame_run m ρ

/-- So does the kernel program read at the ideal instance. -/
theorem frame_ki : Cert.frame_KernelIdeal := fun m ρ _ => Cert.KernelIdeal.Hand.frame_run m ρ

/-- The reference is a host program: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The certificate's claim: the three frames, the (empty) idealization ledger, and the equality of the two idealized
    programs' results. -/
theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
